-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1000000 : Shape := ⟨1, ![1000000]⟩
abbrev S8192 : Shape := ⟨1, ![8192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg7 : FVec F S16x32 .f32) (main_arg8 : FVec F S16 .f32) (main_arg9 : FVec F S1000000 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S1000000 .f32 := Host.absf main_arg9
  let main_cst_16 : FVec F S_ .f32 := constant S_ .f32 0x7F800000#32
  let main_v45 : FVec F S1000000 .f32 := broadcastInDim S1000000 ![] bcast_S_S1000000 main_cst_16
  let main_v46 : IVec S1000000 1 := cmpf .olt main_v44 main_v45
  let main_c_17 : IVec S_ 1 := constantI S_ 1 1#1
  let main_v47 : IVec S_ 1 := (fun x v => Host.reduce IntOp.andi x v reducesTo_S1000000_S_d0 h_S_) main_v46 main_c_17
  let main_v48 : IVec S_ 1 := andi main_v43 main_v47
  main_v48

def fn_part1 {F : FTy → Type} [FloatOps F] (main_arg4 : FVec F S32 .f32) (main_arg5 : FVec F S16x32 .f32) (main_arg6 : FVec F S16 .f32) (main_arg7 : FVec F S16x32 .f32) (main_arg8 : FVec F S16 .f32) (main_arg9 : FVec F S1000000 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S16x32 .f32 := Host.absf main_arg5
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S32x64 .f32) (main_arg2 : FVec F S32 .f32) (main_arg3 : FVec F S32x64 .f32) (main_arg4 : FVec F S32 .f32) (main_arg5 : FVec F S16x32 .f32) (main_arg6 : FVec F S16 .f32) (main_arg7 : FVec F S16x32 .f32) (main_arg8 : FVec F S16 .f32) (main_arg9 : FVec F S1000000 .f32) (main_arg10 : IVec S1000000 32) (main_arg11 : IVec S1000000 32) (main_arg12 : IVec S8192 32) (main_arg13 : IVec S8192 32) (main_arg14 : IVec S8192 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1000000 : Shape := ⟨1, ![1000000]⟩
abbrev S8192 : Shape := ⟨1, ![8192]⟩
abbrev S_ : Shape := ⟨0, ![]⟩
abbrev S1000000x1 : Shape := ⟨2, ![1000000, 1]⟩
abbrev S1000000x64 : Shape := ⟨2, ![1000000, 64]⟩
abbrev S100000x32 : Shape := ⟨2, ![100000, 32]⟩
abbrev S5000x64 : Shape := ⟨2, ![5000, 64]⟩
abbrev S5000x32 : Shape := ⟨2, ![5000, 32]⟩
abbrev S64x32 : Shape := ⟨2, ![64, 32]⟩
abbrev S1x32 : Shape := ⟨2, ![1, 32]⟩
abbrev S5000 : Shape := ⟨1, ![5000]⟩
abbrev S5000x1 : Shape := ⟨2, ![5000, 1]⟩
abbrev S1000000x32 : Shape := ⟨2, ![1000000, 32]⟩
abbrev S100000x16 : Shape := ⟨2, ![100000, 16]⟩
abbrev S5000x16 : Shape := ⟨2, ![5000, 16]⟩
abbrev S32x16 : Shape := ⟨2, ![32, 16]⟩
abbrev S1x16 : Shape := ⟨2, ![1, 16]⟩
abbrev S100000x112 : Shape := ⟨2, ![100000, 112]⟩
abbrev S8192x1 : Shape := ⟨2, ![8192, 1]⟩
abbrev S8192x112 : Shape := ⟨2, ![8192, 112]⟩

abbrev nBuf : Space → Nat
  | .hbm => 131
  | .vmem => 24
  | .smem => 0
  | _ => 0

abbrev hbmTy0_0 (i : Nat) : BufTy := match i % 128 with
  | 0 => ⟨S100000x64, .f32⟩
  | 1 => ⟨S32x64, .f32⟩
  | 2 => ⟨S32, .f32⟩
  | 3 => ⟨S32x64, .f32⟩
  | 4 => ⟨S32, .f32⟩
  | 5 => ⟨S16x32, .f32⟩
  | 6 => ⟨S16, .f32⟩
  | 7 => ⟨S16x32, .f32⟩
  | 8 => ⟨S16, .f32⟩
  | 9 => ⟨S1000000, .f32⟩
  | 10 => ⟨S1000000, .i32⟩
  | 11 => ⟨S1000000, .i32⟩
  | 12 => ⟨S8192, .i32⟩
  | 13 => ⟨S8192, .i32⟩
  | 14 => ⟨S8192, .i32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S1000000x1, .f32⟩
  | 25 => ⟨S1000000x64, .f32⟩
  | 26 => ⟨S1000000x64, .f32⟩
  | 27 => ⟨S_, .f32⟩
  | 28 => ⟨S100000x64, .f32⟩
  | 29 => ⟨S1000000x1, .i32⟩
  | 30 => ⟨S100000x64, .f32⟩
  | 31 => ⟨S100000x32, .f32⟩
  | 32 => ⟨S100000x32, .f32⟩
  | 33 => ⟨S_, .i32⟩
  | 34 => ⟨S1000000, .i32⟩
  | 35 => ⟨S1000000, .i1⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000x32, .f32⟩
  | 42 => ⟨S1000000x1, .f32⟩
  | 43 => ⟨S1000000x32, .f32⟩
  | 44 => ⟨S1000000x32, .f32⟩
  | 45 => ⟨S_, .f32⟩
  | 46 => ⟨S100000x32, .f32⟩
  | 47 => ⟨S1000000x1, .i32⟩
  | 48 => ⟨S100000x32, .f32⟩
  | 49 => ⟨S100000x16, .f32⟩
  | 50 => ⟨S100000x16, .f32⟩
  | 51 => ⟨S100000x112, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x112, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S8192x112, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192x112, .f32⟩
  | 79 => ⟨S8192x112, .f32⟩
  | 80 => ⟨S_, .f32⟩
  | 81 => ⟨S8192, .f32⟩
  | 82 => ⟨S8192x112, .f32⟩
  | 83 => ⟨S_, .f32⟩
  | 84 => ⟨S8192, .f32⟩
  | 85 => ⟨S8192, .f32⟩
  | 86 => ⟨S8192, .f32⟩
  | 87 => ⟨S_, .f32⟩
  | 88 => ⟨S8192, .f32⟩
  | 89 => ⟨S8192, .f32⟩
  | 90 => ⟨S8192, .f32⟩
  | 91 => ⟨S8192, .f32⟩
  | 92 => ⟨S8192, .i1⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S_, .f32⟩
  | 102 => ⟨S_, .f32⟩
  | 103 => ⟨S8192x112, .f32⟩
  | 104 => ⟨S_, .f32⟩
  | 105 => ⟨S8192, .f32⟩
  | 106 => ⟨S_, .f32⟩
  | 107 => ⟨S8192, .f32⟩
  | 108 => ⟨S8192, .f32⟩
  | 109 => ⟨S_, .f32⟩
  | 110 => ⟨S_, .f32⟩
  | 111 => ⟨S8192x112, .f32⟩
  | 112 => ⟨S_, .f32⟩
  | 113 => ⟨S8192, .f32⟩
  | 114 => ⟨S_, .f32⟩
  | 115 => ⟨S8192, .f32⟩
  | 116 => ⟨S8192, .f32⟩
  | 117 => ⟨S_, .f32⟩
  | 118 => ⟨S_, .f32⟩
  | 119 => ⟨S_, .f32⟩
  | 120 => ⟨S8192x112, .f32⟩
  | 121 => ⟨S_, .f32⟩
  | 122 => ⟨S8192, .f32⟩
  | 123 => ⟨S_, .f32⟩
  | 124 => ⟨S8192, .f32⟩
  | 125 => ⟨S8192, .f32⟩
  | 126 => ⟨S_, .f32⟩
  | 127 => ⟨S_, .f32⟩
  | _ => ⟨S100000x64, .f32⟩

abbrev hbmTy0_1 (i : Nat) : BufTy := match i % 128 with
  | 0 => ⟨S_, .f32⟩
  | 1 => ⟨S_, .f32⟩
  | 2 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S32x64, .f32⟩
  | .local _ .vmem, ⟨5, _⟩ => ⟨S32, .f32⟩
  | .local _ .vmem, ⟨6, _⟩ => ⟨S32x64, .f32⟩
  | .local _ .vmem, ⟨7, _⟩ => ⟨S32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S16x32, .f32⟩
  | .local _ .vmem, ⟨17, _⟩ => ⟨S16, .f32⟩
  | .local _ .vmem, ⟨18, _⟩ => ⟨S16x32, .f32⟩
  | .local _ .vmem, ⟨19, _⟩ => ⟨S16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_6 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_v9 : Ref sig .tc := ⟨.hbm, 97, rfl⟩
abbrev main_call0_v10 : Ref sig .tc := ⟨.hbm, 98, rfl⟩
abbrev main_call0_v11 : Ref sig .tc := ⟨.hbm, 99, rfl⟩
abbrev main_v56 : Ref sig .tc := ⟨.hbm, 100, rfl⟩
abbrev main_cst_12 : Ref sig .tc := ⟨.hbm, 101, rfl⟩
abbrev main_v57 : Ref sig .tc := ⟨.hbm, 102, rfl⟩
abbrev main_v58 : Ref sig .tc := ⟨.hbm, 103, rfl⟩
abbrev main_cst_13 : Ref sig .tc := ⟨.hbm, 104, rfl⟩
abbrev main_v59 : Ref sig .tc := ⟨.hbm, 105, rfl⟩
abbrev main_cst_14 : Ref sig .tc := ⟨.hbm, 106, rfl⟩
abbrev main_v60 : Ref sig .tc := ⟨.hbm, 107, rfl⟩
abbrev main_v61 : Ref sig .tc := ⟨.hbm, 108, rfl⟩
abbrev main_cst_15 : Ref sig .tc := ⟨.hbm, 109, rfl⟩
abbrev main_v62 : Ref sig .tc := ⟨.hbm, 110, rfl⟩
abbrev main_v63 : Ref sig .tc := ⟨.hbm, 111, rfl⟩
abbrev main_cst_16 : Ref sig .tc := ⟨.hbm, 112, rfl⟩
abbrev main_v64 : Ref sig .tc := ⟨.hbm, 113, rfl⟩
abbrev main_cst_17 : Ref sig .tc := ⟨.hbm, 114, rfl⟩
abbrev main_v65 : Ref sig .tc := ⟨.hbm, 115, rfl⟩
abbrev main_v66 : Ref sig .tc := ⟨.hbm, 116, rfl⟩
abbrev main_cst_18 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_19 : Ref sig .tc := ⟨.hbm, 121, rfl⟩
abbrev main_v70 : Ref sig .tc := ⟨.hbm, 122, rfl⟩
abbrev main_cst_20 : Ref sig .tc := ⟨.hbm, 123, rfl⟩
abbrev main_v71 : Ref sig .tc := ⟨.hbm, 124, rfl⟩
abbrev main_v72 : Ref sig .tc := ⟨.hbm, 125, rfl⟩
abbrev main_cst_21 : Ref sig .tc := ⟨.hbm, 126, rfl⟩
abbrev main_v73 : Ref sig .tc := ⟨.hbm, 127, rfl⟩
abbrev main_v74 : Ref sig .tc := ⟨.hbm, 128, rfl⟩
abbrev main_cst_22 : Ref sig .tc := ⟨.hbm, 129, rfl⟩
abbrev main_v75 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S32x64_S32x64_0_0 : ∀ a, (![0, 0] : Fin 2 → Nat) a + S32x64.size a ≤ S32x64.size a
  h_S32x64 : 0 < S32x64.numel
  inb_S32_S32_0 : ∀ a, (![0] : Fin 1 → Nat) a + S32.size a ≤ S32.size a
  h_S32 : 0 < S32.numel
  bitsLt_bf16_f32 : FTy.bits .bf16 < FTy.bits .f32
  transposes_S32x64_p1_0_S64x32 : S32x64.Transposes [1, 0] S64x32
  shapeCasts_S32_S1x32 : S32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S1000000x1_S1000000x32_0_1 : S1000000x1.BroadcastsInDim S1000000x32 (![0, 1] : Fin 2 → Fin S1000000x32.rank)
  bcast_S_S100000x32 : S_.BroadcastsInDim S100000x32 (![] : Fin 0 → Fin S100000x32.rank)
  shapeCasts_S5000x32_S5000x32 : S5000x32.ShapeCasts S5000x32
  inb_S16x32_S16x32_0_0 : ∀ a, (![0, 0] : Fin 2 → Nat) a + S16x32.size a ≤ S16x32.size a
  h_S16x32 : 0 < S16x32.numel
  inb_S16_S16_0 : ∀ a, (![0] : Fin 1 → Nat) a + S16.size a ≤ S16.size a
  h_S16 : 0 < S16.numel
  transposes_S16x32_p1_0_S32x16 : S16x32.Transposes [1, 0] S32x16
  shapeCasts_S16_S1x16 : S16.ShapeCasts S1x16
  broadcasts_S1x16_S5000x16 : S1x16.Broadcasts S5000x16
  reduces_S5000x16_S5000 : S5000x16.Reduces [1] S5000
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  concatenates_S100000x64_S100000x32_S100000x16_S100000x112_d1 : Shape.Concatenates [S100000x64, S100000x32, S100000x16] S100000x112 1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x112_S8192_d1 : S8192x112.ReducesTo [1] S8192
  h_S_ : 0 < S_.numel
  reducesTo_S8192_S_d0 : S8192.ReducesTo [0] S_
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x32_S5000x32_1_0_0_1_n_n_wf : DotDims.WF S5000x64 S64x32 S5000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  dot_S5000x32_S32x16_S5000x16_1_0_0_1_n_n_wf : DotDims.WF S5000x32 S32x16 S5000x16 [1] [0] [0] [1] [] []
  gather_S100000x112_S8192x1_S8192x112_1_0_n_n_0_1_1112_wf : GatherDims.WF S100000x112 S8192x1 S8192x112 [1] [0] [] [0] [] 1 ![1, 112]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x32.size a ≤ S100000x32.size a
  hwx0_7 : ∀ i : grid0.Coords, EltTy.bits .f32 = 32 ∨ (Rect.block (s := S100000x32) S5000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S100000x16.size a
  hwx1_6 : ∀ i : grid1.Coords, EltTy.bits .f32 = 32 ∨ (Rect.block (s := S100000x16) S5000x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x16.size a ≤ S100000x16.size a
  hwx1_7 : ∀ i : grid1.Coords, EltTy.bits .f32 = 32 ∨ (Rect.block (s := S100000x16) S5000x16.size (cc1_transform_7 i) (hinb1_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x112_S8192x1_S8192x112_1_0_n_n_0_1_1112 : GatherDims S100000x112 S8192x1 S8192x112 where
  offsetDims := [1]
  collapsedSliceDims := [0]
  operandBatchingDims := []
  startIndicesBatchingDims := []
  startIndexMap := [0]
  indexVectorDim := 1
  sliceSizes := ![1, 112]
  wf := gather_S100000x112_S8192x1_S8192x112_1_0_n_n_0_1_1112_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S5000x32.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S5000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13_0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S5000x16.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S5000x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1000000 : Shape := ⟨1, ![1000000]⟩
abbrev S8192 : Shape := ⟨1, ![8192]⟩
abbrev S_ : Shape := ⟨0, ![]⟩
abbrev S1000000x1 : Shape := ⟨2, ![1000000, 1]⟩
abbrev S1000000x64 : Shape := ⟨2, ![1000000, 64]⟩
abbrev S64x32 : Shape := ⟨2, ![64, 32]⟩
abbrev S100000x32 : Shape := ⟨2, ![100000, 32]⟩
abbrev S1x32 : Shape := ⟨2, ![1, 32]⟩
abbrev S100000 : Shape := ⟨1, ![100000]⟩
abbrev S100000x1 : Shape := ⟨2, ![100000, 1]⟩
abbrev S1000000x32 : Shape := ⟨2, ![1000000, 32]⟩
abbrev S32x16 : Shape := ⟨2, ![32, 16]⟩
abbrev S100000x16 : Shape := ⟨2, ![100000, 16]⟩
abbrev S1x16 : Shape := ⟨2, ![1, 16]⟩
abbrev S100000x112 : Shape := ⟨2, ![100000, 112]⟩
abbrev S8192x1 : Shape := ⟨2, ![8192, 1]⟩
abbrev S8192x112 : Shape := ⟨2, ![8192, 112]⟩

abbrev nBuf : Space → Nat
  | .hbm => 205
  | .vmem => 0
  | .smem => 0
  | _ => 0

abbrev hbmTy0_0 (i : Nat) : BufTy := match i % 128 with
  | 0 => ⟨S100000x64, .f32⟩
  | 1 => ⟨S32x64, .f32⟩
  | 2 => ⟨S32, .f32⟩
  | 3 => ⟨S32x64, .f32⟩
  | 4 => ⟨S32, .f32⟩
  | 5 => ⟨S16x32, .f32⟩
  | 6 => ⟨S16, .f32⟩
  | 7 => ⟨S16x32, .f32⟩
  | 8 => ⟨S16, .f32⟩
  | 9 => ⟨S1000000, .f32⟩
  | 10 => ⟨S1000000, .i32⟩
  | 11 => ⟨S1000000, .i32⟩
  | 12 => ⟨S8192, .i32⟩
  | 13 => ⟨S8192, .i32⟩
  | 14 => ⟨S8192, .i32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S1000000x1, .f32⟩
  | 25 => ⟨S1000000x64, .f32⟩
  | 26 => ⟨S1000000x64, .f32⟩
  | 27 => ⟨S_, .f32⟩
  | 28 => ⟨S100000x64, .f32⟩
  | 29 => ⟨S1000000x1, .i32⟩
  | 30 => ⟨S100000x64, .f32⟩
  | 31 => ⟨S100000x64, .f32⟩
  | 32 => ⟨S64x32, .f32⟩
  | 33 => ⟨S100000x32, .f32⟩
  | 34 => ⟨S1x32, .f32⟩
  | 35 => ⟨S100000x32, .f32⟩
  | 36 => ⟨S100000x32, .f32⟩
  | 37 => ⟨S_, .f32⟩
  | 38 => ⟨S_, .f32⟩
  | 39 => ⟨S100000x32, .f32⟩
  | 40 => ⟨S100000x32, .i1⟩
  | 41 => ⟨S_, .f32⟩
  | 42 => ⟨S100000x32, .f32⟩
  | 43 => ⟨S100000x32, .f32⟩
  | 44 => ⟨S100000x32, .f32⟩
  | 45 => ⟨S100000x64, .f32⟩
  | 46 => ⟨S64x32, .f32⟩
  | 47 => ⟨S100000x32, .f32⟩
  | 48 => ⟨S1x32, .f32⟩
  | 49 => ⟨S100000x32, .f32⟩
  | 50 => ⟨S100000x32, .f32⟩
  | 51 => ⟨S_, .f32⟩
  | 52 => ⟨S_, .f32⟩
  | 53 => ⟨S100000x32, .f32⟩
  | 54 => ⟨S100000x32, .i1⟩
  | 55 => ⟨S_, .f32⟩
  | 56 => ⟨S100000x32, .f32⟩
  | 57 => ⟨S100000x32, .f32⟩
  | 58 => ⟨S100000x32, .f32⟩
  | 59 => ⟨S100000x32, .f32⟩
  | 60 => ⟨S100000x32, .f32⟩
  | 61 => ⟨S_, .f32⟩
  | 62 => ⟨S100000, .f32⟩
  | 63 => ⟨S100000x1, .f32⟩
  | 64 => ⟨S100000x1, .f32⟩
  | 65 => ⟨S_, .f32⟩
  | 66 => ⟨S100000x1, .f32⟩
  | 67 => ⟨S100000x1, .f32⟩
  | 68 => ⟨S100000x32, .f32⟩
  | 69 => ⟨S100000x32, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x32, .f32⟩
  | 79 => ⟨S1000000x1, .f32⟩
  | 80 => ⟨S1000000x32, .f32⟩
  | 81 => ⟨S1000000x32, .f32⟩
  | 82 => ⟨S_, .f32⟩
  | 83 => ⟨S100000x32, .f32⟩
  | 84 => ⟨S1000000x1, .i32⟩
  | 85 => ⟨S100000x32, .f32⟩
  | 86 => ⟨S100000x32, .f32⟩
  | 87 => ⟨S32x16, .f32⟩
  | 88 => ⟨S100000x16, .f32⟩
  | 89 => ⟨S1x16, .f32⟩
  | 90 => ⟨S100000x16, .f32⟩
  | 91 => ⟨S100000x16, .f32⟩
  | 92 => ⟨S_, .f32⟩
  | 93 => ⟨S_, .f32⟩
  | 94 => ⟨S100000x16, .f32⟩
  | 95 => ⟨S100000x16, .i1⟩
  | 96 => ⟨S_, .f32⟩
  | 97 => ⟨S100000x16, .f32⟩
  | 98 => ⟨S100000x16, .f32⟩
  | 99 => ⟨S100000x16, .f32⟩
  | 100 => ⟨S100000x32, .f32⟩
  | 101 => ⟨S32x16, .f32⟩
  | 102 => ⟨S100000x16, .f32⟩
  | 103 => ⟨S1x16, .f32⟩
  | 104 => ⟨S100000x16, .f32⟩
  | 105 => ⟨S100000x16, .f32⟩
  | 106 => ⟨S_, .f32⟩
  | 107 => ⟨S_, .f32⟩
  | 108 => ⟨S100000x16, .f32⟩
  | 109 => ⟨S100000x16, .i1⟩
  | 110 => ⟨S_, .f32⟩
  | 111 => ⟨S100000x16, .f32⟩
  | 112 => ⟨S100000x16, .f32⟩
  | 113 => ⟨S100000x16, .f32⟩
  | 114 => ⟨S100000x16, .f32⟩
  | 115 => ⟨S100000x16, .f32⟩
  | 116 => ⟨S_, .f32⟩
  | 117 => ⟨S100000, .f32⟩
  | 118 => ⟨S100000x1, .f32⟩
  | 119 => ⟨S100000x1, .f32⟩
  | 120 => ⟨S_, .f32⟩
  | 121 => ⟨S100000x1, .f32⟩
  | 122 => ⟨S100000x1, .f32⟩
  | 123 => ⟨S100000x16, .f32⟩
  | 124 => ⟨S100000x16, .f32⟩
  | 125 => ⟨S100000x112, .f32⟩
  | 126 => ⟨S_, .i32⟩
  | 127 => ⟨S8192, .i32⟩
  | _ => ⟨S100000x64, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x112, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x112, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x112, .f32⟩
  | 25 => ⟨S8192x112, .f32⟩
  | 26 => ⟨S_, .f32⟩
  | 27 => ⟨S8192, .f32⟩
  | 28 => ⟨S8192x112, .f32⟩
  | 29 => ⟨S_, .f32⟩
  | 30 => ⟨S8192, .f32⟩
  | 31 => ⟨S8192, .f32⟩
  | 32 => ⟨S8192, .f32⟩
  | 33 => ⟨S_, .f32⟩
  | 34 => ⟨S8192, .f32⟩
  | 35 => ⟨S8192, .f32⟩
  | 36 => ⟨S8192, .f32⟩
  | 37 => ⟨S8192, .f32⟩
  | 38 => ⟨S8192, .i1⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S_, .f32⟩
  | 48 => ⟨S_, .f32⟩
  | 49 => ⟨S8192x112, .f32⟩
  | 50 => ⟨S_, .f32⟩
  | 51 => ⟨S8192, .f32⟩
  | 52 => ⟨S_, .f32⟩
  | 53 => ⟨S8192, .f32⟩
  | 54 => ⟨S8192, .f32⟩
  | 55 => ⟨S_, .f32⟩
  | 56 => ⟨S_, .f32⟩
  | 57 => ⟨S8192x112, .f32⟩
  | 58 => ⟨S_, .f32⟩
  | 59 => ⟨S8192, .f32⟩
  | 60 => ⟨S_, .f32⟩
  | 61 => ⟨S8192, .f32⟩
  | 62 => ⟨S8192, .f32⟩
  | 63 => ⟨S_, .f32⟩
  | 64 => ⟨S_, .f32⟩
  | 65 => ⟨S_, .f32⟩
  | 66 => ⟨S8192x112, .f32⟩
  | 67 => ⟨S_, .f32⟩
  | 68 => ⟨S8192, .f32⟩
  | 69 => ⟨S_, .f32⟩
  | 70 => ⟨S8192, .f32⟩
  | 71 => ⟨S8192, .f32⟩
  | 72 => ⟨S_, .f32⟩
  | 73 => ⟨S_, .f32⟩
  | 74 => ⟨S_, .f32⟩
  | 75 => ⟨S_, .f32⟩
  | 76 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_2 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_5 : Ref sig .tc := ⟨.hbm, 70, rfl⟩
abbrev main_v36 : Ref sig .tc := ⟨.hbm, 71, rfl⟩
abbrev main_v37 : Ref sig .tc := ⟨.hbm, 72, rfl⟩
abbrev main_c_6 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_7 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_9 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_10 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_11 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_c_12 : Ref sig .tc := ⟨.hbm, 126, rfl⟩
abbrev main_v73 : Ref sig .tc := ⟨.hbm, 127, rfl⟩
abbrev main_v74 : Ref sig .tc := ⟨.hbm, 128, rfl⟩
abbrev main_c_13 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_c_14 : Ref sig .tc := ⟨.hbm, 135, rfl⟩
abbrev main_v80 : Ref sig .tc := ⟨.hbm, 136, rfl⟩
abbrev main_v81 : Ref sig .tc := ⟨.hbm, 137, rfl⟩
abbrev main_c_15 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_c_16 : Ref sig .tc := ⟨.hbm, 144, rfl⟩
abbrev main_v87 : Ref sig .tc := ⟨.hbm, 145, rfl⟩
abbrev main_v88 : Ref sig .tc := ⟨.hbm, 146, rfl⟩
abbrev main_c_17 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_18 : Ref sig .tc := ⟨.hbm, 154, rfl⟩
abbrev main_v95 : Ref sig .tc := ⟨.hbm, 155, rfl⟩
abbrev main_v96 : Ref sig .tc := ⟨.hbm, 156, rfl⟩
abbrev main_cst_19 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_call4_cst : Ref sig .tc := ⟨.hbm, 161, rfl⟩
abbrev main_call4_v0 : Ref sig .tc := ⟨.hbm, 162, rfl⟩
abbrev main_call4_v1 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_v100 : Ref sig .tc := ⟨.hbm, 174, rfl⟩
abbrev main_cst_20 : Ref sig .tc := ⟨.hbm, 175, rfl⟩
abbrev main_v101 : Ref sig .tc := ⟨.hbm, 176, rfl⟩
abbrev main_v102 : Ref sig .tc := ⟨.hbm, 177, rfl⟩
abbrev main_cst_21 : Ref sig .tc := ⟨.hbm, 178, rfl⟩
abbrev main_v103 : Ref sig .tc := ⟨.hbm, 179, rfl⟩
abbrev main_cst_22 : Ref sig .tc := ⟨.hbm, 180, rfl⟩
abbrev main_v104 : Ref sig .tc := ⟨.hbm, 181, rfl⟩
abbrev main_v105 : Ref sig .tc := ⟨.hbm, 182, rfl⟩
abbrev main_cst_23 : Ref sig .tc := ⟨.hbm, 183, rfl⟩
abbrev main_v106 : Ref sig .tc := ⟨.hbm, 184, rfl⟩
abbrev main_v107 : Ref sig .tc := ⟨.hbm, 185, rfl⟩
abbrev main_cst_24 : Ref sig .tc := ⟨.hbm, 186, rfl⟩
abbrev main_v108 : Ref sig .tc := ⟨.hbm, 187, rfl⟩
abbrev main_cst_25 : Ref sig .tc := ⟨.hbm, 188, rfl⟩
abbrev main_v109 : Ref sig .tc := ⟨.hbm, 189, rfl⟩
abbrev main_v110 : Ref sig .tc := ⟨.hbm, 190, rfl⟩
abbrev main_cst_26 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_cst_27 : Ref sig .tc := ⟨.hbm, 195, rfl⟩
abbrev main_v114 : Ref sig .tc := ⟨.hbm, 196, rfl⟩
abbrev main_cst_28 : Ref sig .tc := ⟨.hbm, 197, rfl⟩
abbrev main_v115 : Ref sig .tc := ⟨.hbm, 198, rfl⟩
abbrev main_v116 : Ref sig .tc := ⟨.hbm, 199, rfl⟩
abbrev main_cst_29 : Ref sig .tc := ⟨.hbm, 200, rfl⟩
abbrev main_v117 : Ref sig .tc := ⟨.hbm, 201, rfl⟩
abbrev main_v118 : Ref sig .tc := ⟨.hbm, 202, rfl⟩
abbrev main_cst_30 : Ref sig .tc := ⟨.hbm, 203, rfl⟩
abbrev main_v119 : Ref sig .tc := ⟨.hbm, 204, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S1000000x1_S1000000x32_0_1 : S1000000x1.BroadcastsInDim S1000000x32 (![0, 1] : Fin 2 → Fin S1000000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S100000_d1 : S100000x16.ReducesTo [1] S100000
  bcast_S100000x1_S100000x16_0_1 : S100000x1.BroadcastsInDim S100000x16 (![0, 1] : Fin 2 → Fin S100000x16.rank)
  concatenates_S100000x64_S100000x32_S100000x16_S100000x112_d1 : Shape.Concatenates [S100000x64, S100000x32, S100000x16] S100000x112 1
  bcast_S_S8192 : S_.BroadcastsInDim S8192 (![] : Fin 0 → Fin S8192.rank)
  bcast_S8192_S8192x1_0 : S8192.BroadcastsInDim S8192x1 (![0] : Fin 1 → Fin S8192x1.rank)
  reducesTo_S8192x112_S8192_d1 : S8192x112.ReducesTo [1] S8192
  reducesTo_S8192_S_d0 : S8192.ReducesTo [0] S_
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x32_S100000x32_1_0_0_1_n_n_wf : DotDims.WF S100000x64 S64x32 S100000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  dot_S100000x32_S32x16_S100000x16_1_0_0_1_n_n_wf : DotDims.WF S100000x32 S32x16 S100000x16 [1] [0] [0] [1] [] []
  gather_S100000x112_S8192x1_S8192x112_1_0_n_n_0_1_1112_wf : GatherDims.WF S100000x112 S8192x1 S8192x112 [1] [0] [] [0] [] 1 ![1, 112]

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x112_S8192x1_S8192x112_1_0_n_n_0_1_1112 : GatherDims S100000x112 S8192x1 S8192x112 where
  offsetDims := [1]
  collapsedSliceDims := [0]
  operandBatchingDims := []
  startIndicesBatchingDims := []
  startIndexMap := [0]
  indexVectorDim := 1
  sliceSizes := ![1, 112]
  wf := gather_S100000x112_S8192x1_S8192x112_1_0_n_n_0_1_1112_wf

class Facts : Prop extends Facts₀ where

variable [Facts]
-- ==== Proof.KBody.lean ====
/-
  The two kernel regions of the program, each at a PARAMETER `V` — the TensorCore's buffer contents when the region is
  entered. Per region: each window's block at a grid point as read off its array, what the body finds in each input
  window's staging buffer (its block, fetched at that point or not), what the body leaves in each output window's
  staging buffer as a closed function of the six input blocks (the one whole-buffer store, through the payloads of
  the kernel's skeleton), the body's triple, the pipeline's proof data, and the body obligation at every point.
-/
import proofs.«111316_j86440511799625_1_alg».proof.Proof.Gen.Kernel.Launch
import proofs.«111316_j86440511799625_1_alg».proof.Proof.Gen.Kernel.Skeleton
import proofs.«111316_j86440511799625_1_alg».proof.Proof.Gen.Kernel.Points
import proofs.«111316_j86440511799625_1_alg».proof.Proof.Gen.Kernel.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # Region 0 of the program: the kernel `cc0__bi_agg_kernel` (pipeline 0), at the entry contents `V`

## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (an unfetched window's block index has not moved since the point before), for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not it was fetched there
    (an unfetched window's block index has not moved since the point before), for any proof data whose array is
    `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not it was fetched there
    (an unfetched window's block index has not moved since the point before), for any proof data whose array is
    `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not it was fetched there
    (an unfetched window's block index has not moved since the point before), for any proof data whose array is
    `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether or not it was fetched there
    (an unfetched window's block index has not moved since the point before), for any proof data whose array is
    `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether or not it was fetched there
    (an unfetched window's block index has not moved since the point before), for any proof data whose array is
    `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S5000x64 := Rect.unit (s := S5000x64) ![0, 0] S5000x64.size inb_S5000x64_S5000x64_0_0
abbrev rW0 : Rect S32x64 := Rect.unit (s := S32x64) ![0, 0] S32x64.size inb_S32x64_S32x64_0_0
abbrev rB0 : Rect S32 := Rect.unit (s := S32) ![0] S32.size inb_S32_S32_0
abbrev rY0 : Rect S5000x32 := Rect.unit (s := S5000x32) ![0, 0] S5000x32.size inb_S5000x32_S5000x32_0_0

/-! ## What the body leaves in each output window's buffer -/

/-- Window 6's staging buffer after the body, as a function of the six input blocks: its one store, of the
    activation sum, over the whole buffer. -/
def out0_6 (x0 x1 : Vec F S5000x64 .f32) (x2 : Vec F S32x64 .f32) (x3 : Vec F S32 .f32) (x4 : Vec F S32x64 .f32) (x5 : Vec F S32 .f32) : Vec F S5000x32 .f32 :=
  View.canon [⟨rY0, k0_pay2 (View.ld x0 rX0) (View.ld x1 rX0) (View.ld x2 rW0) (View.ld x3 rB0) (View.ld x4 rW0) (View.ld x5 rB0)⟩]

/-- Window 7's staging buffer after the body: its one store, of the activation sum divided by its clamped row norm,
    over the whole buffer. -/
def out0_7 (x0 x1 : Vec F S5000x64 .f32) (x2 : Vec F S32x64 .f32) (x3 : Vec F S32 .f32) (x4 : Vec F S32x64 .f32) (x5 : Vec F S32 .f32) : Vec F S5000x32 .f32 :=
  View.canon [⟨rY0, k0_pay1 (k0_pay2 (View.ld x0 rX0) (View.ld x1 rX0) (View.ld x2 rW0) (View.ld x3 rB0) (View.ld x4 rW0) (View.ld x5 rB0))
    (k0_pay3 (View.ld x0 rX0) (View.ld x1 rX0) (View.ld x2 rW0) (View.ld x3 rB0) (View.ld x4 rW0) (View.ld x5 rB0))⟩]

/-- A store through the whole rectangle covers the buffer. -/
theorem cover0_Y (p0 : Vec F S5000x32 .f32) (y : S5000x32.Idx) :
    ∃ pc ∈ ([⟨rY0, p0⟩] : List (View.Piece (Elt F) S5000x32 .f32)), y ∈ pc.1.set :=
  View.cover_of_tiled [⟨rY0, p0⟩] S5000x32.size (by rfl) y

/-! ## The body's triple -/

set_option maxHeartbeats 1000000 in
/-- The kernel body on whole staging memrefs — the six inputs' at read contents `x0 … x5`, the two outputs' at
    anything — runs to a continuation that holds the inputs' as they were and the outputs' at `out0_6` and
    `out0_7` of the inputs. The loads of the output buffers that precede the stores read values nothing uses. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S32x64 .f32) (harg3 : arg3.IsWhole) (arg4 : Memref sig .tc .vmem S32 .f32) (harg4 : arg4.IsWhole) (arg5 : Memref sig .tc .vmem S32x64 .f32) (harg5 : arg5.IsWhole) (arg6 : Memref sig .tc .vmem S32 .f32) (harg6 : arg6.IsWhole) (arg7 : Memref sig .tc .vmem S5000x32 .f32) (harg7 : arg7.IsWhole) (arg8 : Memref sig .tc .vmem S5000x32 .f32) (harg8 : arg8.IsWhole)
    (x0 x1 : Vec F S5000x64 .f32) (x2 : Vec F S32x64 .f32) (x3 : Vec F S32 .f32) (x4 : Vec F S32x64 .f32) (x5 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__bi_agg_kernel i arg1 harg1 arg2 harg2 arg3 harg3 arg4 harg4 arg5 harg5 arg6 harg6 arg7 harg7 arg8 harg8) K := by
  simp only [cc0__bi_agg_kernel_eq_skeleton]; unfold cc0__bi_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_Y _)
  iexists _; isplitr
  swap; · iexact H7
  ipureintro
  exact View.read_writes_eq_canon _ _ _ (cover0_Y _)

/-! ## The pipeline's proof data -/

/-- The proof data of pipeline 0 on core `c`: the arrays as the region finds them (`V`); after the body at point
    `t` each input's buffer at its block and each output's at `out0_W` of the six input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of the program: the kernel `cc1__bi_agg_kernel` (pipeline 1), at the entry contents `V`

## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there
    (an unfetched window's block index has not moved since the point before), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not it was fetched there
    (an unfetched window's block index has not moved since the point before), for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not it was fetched there
    (an unfetched window's block index has not moved since the point before), for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not it was fetched there
    (an unfetched window's block index has not moved since the point before), for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not it was fetched there
    (an unfetched window's block index has not moved since the point before), for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not it was fetched there
    (an unfetched window's block index has not moved since the point before), for any proof data whose array is
    `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rX1 : Rect S5000x32 := Rect.unit (s := S5000x32) ![0, 0] S5000x32.size inb_S5000x32_S5000x32_0_0
abbrev rW1 : Rect S16x32 := Rect.unit (s := S16x32) ![0, 0] S16x32.size inb_S16x32_S16x32_0_0
abbrev rB1 : Rect S16 := Rect.unit (s := S16) ![0] S16.size inb_S16_S16_0
abbrev rY1 : Rect S5000x16 := Rect.unit (s := S5000x16) ![0, 0] S5000x16.size inb_S5000x16_S5000x16_0_0

/-! ## What the body leaves in each output window's buffer -/

/-- Window 6's staging buffer after the body, as a function of the six input blocks: its one store, of the
    activation sum, over the whole buffer. -/
def out1_6 (x0 x1 : Vec F S5000x32 .f32) (x2 : Vec F S16x32 .f32) (x3 : Vec F S16 .f32) (x4 : Vec F S16x32 .f32) (x5 : Vec F S16 .f32) : Vec F S5000x16 .f32 :=
  View.canon [⟨rY1, k1_pay2 (View.ld x0 rX1) (View.ld x1 rX1) (View.ld x2 rW1) (View.ld x3 rB1) (View.ld x4 rW1) (View.ld x5 rB1)⟩]

/-- Window 7's staging buffer after the body: its one store, of the activation sum divided by its clamped row norm,
    over the whole buffer. -/
def out1_7 (x0 x1 : Vec F S5000x32 .f32) (x2 : Vec F S16x32 .f32) (x3 : Vec F S16 .f32) (x4 : Vec F S16x32 .f32) (x5 : Vec F S16 .f32) : Vec F S5000x16 .f32 :=
  View.canon [⟨rY1, k1_pay1 (k1_pay2 (View.ld x0 rX1) (View.ld x1 rX1) (View.ld x2 rW1) (View.ld x3 rB1) (View.ld x4 rW1) (View.ld x5 rB1))
    (k1_pay3 (View.ld x0 rX1) (View.ld x1 rX1) (View.ld x2 rW1) (View.ld x3 rB1) (View.ld x4 rW1) (View.ld x5 rB1))⟩]

/-- A store through the whole rectangle covers the buffer. -/
theorem cover1_Y (p0 : Vec F S5000x16 .f32) (y : S5000x16.Idx) :
    ∃ pc ∈ ([⟨rY1, p0⟩] : List (View.Piece (Elt F) S5000x16 .f32)), y ∈ pc.1.set :=
  View.cover_of_tiled [⟨rY1, p0⟩] S5000x16.size (by rfl) y

/-! ## The body's triple -/

set_option maxHeartbeats 1000000 in
/-- The kernel body on whole staging memrefs — the six inputs' at read contents `x0 … x5`, the two outputs' at
    anything — runs to a continuation that holds the inputs' as they were and the outputs' at `out1_6` and
    `out1_7` of the inputs. The loads of the output buffers that precede the stores read values nothing uses. -/
theorem sound_kernel1 (c : Dev nD) (E : Set ℕ) (i : grid1.Coords) (arg1 : Memref sig .tc .vmem S5000x32 .f32) (harg1 : arg1.IsWhole) (arg2 : Memref sig .tc .vmem S5000x32 .f32) (harg2 : arg2.IsWhole) (arg3 : Memref sig .tc .vmem S16x32 .f32) (harg3 : arg3.IsWhole) (arg4 : Memref sig .tc .vmem S16 .f32) (harg4 : arg4.IsWhole) (arg5 : Memref sig .tc .vmem S16x32 .f32) (harg5 : arg5.IsWhole) (arg6 : Memref sig .tc .vmem S16 .f32) (harg6 : arg6.IsWhole) (arg7 : Memref sig .tc .vmem S5000x16 .f32) (harg7 : arg7.IsWhole) (arg8 : Memref sig .tc .vmem S5000x16 .f32) (harg8 : arg8.IsWhole)
    (x0 x1 : Vec F S5000x32 .f32) (x2 : Vec F S16x32 .f32) (x3 : Vec F S16 .f32) (x4 : Vec F S16x32 .f32) (x5 : Vec F S16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__bi_agg_kernel i arg1 harg1 arg2 harg2 arg3 harg3 arg4 harg4 arg5 harg5 arg6 harg6 arg7 harg7 arg8 harg8) K := by
  simp only [cc1__bi_agg_kernel_eq_skeleton]; unfold cc1__bi_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_Y _)
  iexists _; isplitr
  swap; · iexact H7
  ipureintro
  exact View.read_writes_eq_canon _ _ _ (cover1_Y _)

/-! ## The pipeline's proof data -/

/-- The proof data of pipeline 1 on core `c`: the arrays as the region finds them (`V`); after the body at point
    `t` each input's buffer at its block and each output's at `out1_W` of the six input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The run of the whole program: the buffer contents at every boundary between two segments of the program (a fold from
  the launch memory: a stretch of host operations acts by `StableHlo.after`, a kernel region leaves its arrays at what
  its write-backs fold to and every other buffer as entered), each argument array read back through the fold to its
  launch contents, every pipeline's proof data at its region's entry contents, the seven segments — a host segment per
  stretch, a region record per kernel — over the thread state "every unscoped buffer at the boundary's contents, the
  generator register at some state, nothing owed", the run itself, and the frame it implies.
-/
import proofs.«111316_j86440511799625_1_alg».proof.Proof.Gen.Kernel.Launch
import proofs.«111316_j86440511799625_1_alg».proof.Proof.Gen.Kernel.Skeleton
import proofs.«111316_j86440511799625_1_alg».proof.Proof.Gen.Kernel.Points
import proofs.«111316_j86440511799625_1_alg».proof.Proof.Gen.Kernel.Regions
import proofs.«111316_j86440511799625_1_alg».proof.Proof.KBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After each of the three closing host stretches; `W7` is what the program returns with. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)

/-! ### The arguments end as launched: no host operation writes one, and a region reads one through an input window
    (whose array is never written back) or does not touch it, so the fold at an argument's buffer walks back to the
    launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2_2 _ hostOps2_2_writes (by decide)
    _ = W5 m ρ c (Proc.devRef .tc main_arg0) := StableHlo.after_of_writes_sub hostOps2_1 _ hostOps2_1_writes (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2_2 _ hostOps2_2_writes (by decide)
    _ = W5 m ρ c (Proc.devRef .tc main_arg1) := StableHlo.after_of_writes_sub hostOps2_1 _ hostOps2_1_writes (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2_2 _ hostOps2_2_writes (by decide)
    _ = W5 m ρ c (Proc.devRef .tc main_arg2) := StableHlo.after_of_writes_sub hostOps2_1 _ hostOps2_1_writes (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2_2 _ hostOps2_2_writes (by decide)
    _ = W5 m ρ c (Proc.devRef .tc main_arg3) := StableHlo.after_of_writes_sub hostOps2_1 _ hostOps2_1_writes (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2_2 _ hostOps2_2_writes (by decide)
    _ = W5 m ρ c (Proc.devRef .tc main_arg4) := StableHlo.after_of_writes_sub hostOps2_1 _ hostOps2_1_writes (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2_2 _ hostOps2_2_writes (by decide)
    _ = W5 m ρ c (Proc.devRef .tc main_arg5) := StableHlo.after_of_writes_sub hostOps2_1 _ hostOps2_1_writes (by decide)
    _ = W4 m ρ c (Proc.devRef .tc main_arg5) := StableHlo.after_of_writes_sub hostOps2 _ hostOps2_writes (by decide)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2_2 _ hostOps2_2_writes (by decide)
    _ = W5 m ρ c (Proc.devRef .tc main_arg6) := StableHlo.after_of_writes_sub hostOps2_1 _ hostOps2_1_writes (by decide)
    _ = W4 m ρ c (Proc.devRef .tc main_arg6) := StableHlo.after_of_writes_sub hostOps2 _ hostOps2_writes (by decide)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2_2 _ hostOps2_2_writes (by decide)
    _ = W5 m ρ c (Proc.devRef .tc main_arg7) := StableHlo.after_of_writes_sub hostOps2_1 _ hostOps2_1_writes (by decide)
    _ = W4 m ρ c (Proc.devRef .tc main_arg7) := StableHlo.after_of_writes_sub hostOps2 _ hostOps2_writes (by decide)
    _ = W3 m ρ c (Proc.devRef .tc main_arg7) := (W4_arr m ρ c 4).trans (((dat1 (V3 m ρ) c).arrAt_in 4 rfl _).trans (A_eq1 (V3 m ρ) c 4))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps2_2 _ hostOps2_2_writes (by decide)
    _ = W5 m ρ c (Proc.devRef .tc main_arg8) := StableHlo.after_of_writes_sub hostOps2_1 _ hostOps2_1_writes (by decide)
    _ = W4 m ρ c (Proc.devRef .tc main_arg8) := StableHlo.after_of_writes_sub hostOps2 _ hostOps2_writes (by decide)
    _ = W3 m ρ c (Proc.devRef .tc main_arg8) := (W4_arr m ρ c 5).trans (((dat1 (V3 m ρ) c).arrAt_in 5 rfl _).trans (A_eq1 (V3 m ρ) c 5))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps2_2 _ hostOps2_2_writes (by decide)
    _ = W5 m ρ c (Proc.devRef .tc main_arg9) := StableHlo.after_of_writes_sub hostOps2_1 _ hostOps2_1_writes (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps2_2 _ hostOps2_2_writes (by decide)
    _ = W5 m ρ c (Proc.devRef .tc main_arg10) := StableHlo.after_of_writes_sub hostOps2_1 _ hostOps2_1_writes (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps2_2 _ hostOps2_2_writes (by decide)
    _ = W5 m ρ c (Proc.devRef .tc main_arg11) := StableHlo.after_of_writes_sub hostOps2_1 _ hostOps2_1_writes (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := StableHlo.after_of_writes_sub hostOps2_2 _ hostOps2_2_writes (by decide)
    _ = W5 m ρ c (Proc.devRef .tc main_arg12) := StableHlo.after_of_writes_sub hostOps2_1 _ hostOps2_1_writes (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := StableHlo.after_of_writes_sub hostOps2_2 _ hostOps2_2_writes (by decide)
    _ = W5 m ρ c (Proc.devRef .tc main_arg13) := StableHlo.after_of_writes_sub hostOps2_1 _ hostOps2_1_writes (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := StableHlo.after_of_writes_sub hostOps2_2 _ hostOps2_2_writes (by decide)
    _ = W5 m ρ c (Proc.devRef .tc main_arg14) := StableHlo.after_of_writes_sub hostOps2_1 _ hostOps2_1_writes (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-- The last host stretch ends in the last thread state beside the core owing nothing. -/
theorem last_state (c : Dev nD) :
    iprop(StableHlo.held (c : Thread nD τ) (Pipeline.ucRefs τ sig) (W7 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- a library lemma stated over a pinned configuration unifies with the printed one only when unification may unfold
-- plain definitions in a metavariable's type
set_option backward.isDefEq.respectTransparency.types false in
/-- Region 0 over the thread state: entered from every unscoped buffer at `W1`, left at `W2`. Its arrays are
    split out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1 over the thread state: entered from every unscoped buffer at `W3`, left at `W4`. Its arrays are
    split out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 7 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]

-- the launch theorem's implicit arguments are found by unifying its conclusion with this one, which takes unfolding
-- plain definitions in a metavariable's type
set_option backward.isDefEq.respectTransparency.types false in
/-- THE RUN: at the compiled mesh, from any memory with zero counters, every weakly fair execution of the program on
    the TensorCores terminates, nothing faulting, and in every final state each core's every unscoped buffer holds the
    last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every weakly fair execution terminates, nothing faulting, and every final state has the fifteen
    argument arrays as launched — the run, each argument's buffer read through the fold back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c)⟩) (run_all m ρ)

/-- info: 'Cert.Kernel.Hand.frame' depends on axioms: [propext, Classical.choice, Quot.sound] -/
#guard_msgs in #print axioms frame

end Cert.Kernel.Hand

end
-- ==== Proof.KIBody.lean ====
/-
  The two kernel regions of the program, each at a PARAMETER `V` — the TensorCore's buffer contents when the region is
  entered. Per region: each window's block at a grid point as read off its array, what the body finds in each input
  window's staging buffer (its block, fetched at that point or not), what the body leaves in each output window's
  staging buffer as a closed function of the six input blocks (the one whole-buffer store, through the payloads of
  the kernel's skeleton), the body's triple, the pipeline's proof data, and the body obligation at every point.
-/
import proofs.«111316_j86440511799625_1_alg».proof.Proof.Gen.KernelIdeal.Launch
import proofs.«111316_j86440511799625_1_alg».proof.Proof.Gen.KernelIdeal.Skeleton
import proofs.«111316_j86440511799625_1_alg».proof.Proof.Gen.KernelIdeal.Points
import proofs.«111316_j86440511799625_1_alg».proof.Proof.Gen.KernelIdeal.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at
variable (V : (c : Dev nD) → (b : Ref sig .tc) → Buf (Elt F) ((c : Thread nD τ).loc b))

/-! # Region 0 of the program: the kernel `cc0__bi_agg_kernel` (pipeline 0), at the entry contents `V`

## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (an unfetched window's block index has not moved since the point before), for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether or not it was fetched there
    (an unfetched window's block index has not moved since the point before), for any proof data whose array is
    `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether or not it was fetched there
    (an unfetched window's block index has not moved since the point before), for any proof data whose array is
    `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether or not it was fetched there
    (an unfetched window's block index has not moved since the point before), for any proof data whose array is
    `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether or not it was fetched there
    (an unfetched window's block index has not moved since the point before), for any proof data whose array is
    `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether or not it was fetched there
    (an unfetched window's block index has not moved since the point before), for any proof data whose array is
    `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S5000x64 := Rect.unit (s := S5000x64) ![0, 0] S5000x64.size inb_S5000x64_S5000x64_0_0
abbrev rW0 : Rect S32x64 := Rect.unit (s := S32x64) ![0, 0] S32x64.size inb_S32x64_S32x64_0_0
abbrev rB0 : Rect S32 := Rect.unit (s := S32) ![0] S32.size inb_S32_S32_0
abbrev rY0 : Rect S5000x32 := Rect.unit (s := S5000x32) ![0, 0] S5000x32.size inb_S5000x32_S5000x32_0_0

/-! ## What the body leaves in each output window's buffer -/

/-- Window 6's staging buffer after the body, as a function of the six input blocks: its one store, of the
    activation sum, over the whole buffer. -/
def out0_6 (x0 x1 : Vec F S5000x64 .f32) (x2 : Vec F S32x64 .f32) (x3 : Vec F S32 .f32) (x4 : Vec F S32x64 .f32) (x5 : Vec F S32 .f32) : Vec F S5000x32 .f32 :=
  View.canon [⟨rY0, k0_pay2 (View.ld x0 rX0) (View.ld x1 rX0) (View.ld x2 rW0) (View.ld x3 rB0) (View.ld x4 rW0) (View.ld x5 rB0)⟩]

/-- Window 7's staging buffer after the body: its one store, of the activation sum divided by its clamped row norm,
    over the whole buffer. -/
def out0_7 (x0 x1 : Vec F S5000x64 .f32) (x2 : Vec F S32x64 .f32) (x3 : Vec F S32 .f32) (x4 : Vec F S32x64 .f32) (x5 : Vec F S32 .f32) : Vec F S5000x32 .f32 :=
  View.canon [⟨rY0, k0_pay1 (k0_pay2 (View.ld x0 rX0) (View.ld x1 rX0) (View.ld x2 rW0) (View.ld x3 rB0) (View.ld x4 rW0) (View.ld x5 rB0))
    (k0_pay3 (View.ld x0 rX0) (View.ld x1 rX0) (View.ld x2 rW0) (View.ld x3 rB0) (View.ld x4 rW0) (View.ld x5 rB0))⟩]

/-- A store through the whole rectangle covers the buffer. -/
theorem cover0_Y (p0 : Vec F S5000x32 .f32) (y : S5000x32.Idx) :
    ∃ pc ∈ ([⟨rY0, p0⟩] : List (View.Piece (Elt F) S5000x32 .f32)), y ∈ pc.1.set :=
  View.cover_of_tiled [⟨rY0, p0⟩] S5000x32.size (by rfl) y

/-! ## The body's triple -/

set_option maxHeartbeats 1000000 in
/-- The kernel body on whole staging memrefs — the six inputs' at read contents `x0 … x5`, the two outputs' at
    anything — runs to a continuation that holds the inputs' as they were and the outputs' at `out0_6` and
    `out0_7` of the inputs. The loads of the output buffers that precede the stores read values nothing uses. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S32x64 .f32) (harg3 : arg3.IsWhole) (arg4 : Memref sig .tc .vmem S32 .f32) (harg4 : arg4.IsWhole) (arg5 : Memref sig .tc .vmem S32x64 .f32) (harg5 : arg5.IsWhole) (arg6 : Memref sig .tc .vmem S32 .f32) (harg6 : arg6.IsWhole) (arg7 : Memref sig .tc .vmem S5000x32 .f32) (harg7 : arg7.IsWhole) (arg8 : Memref sig .tc .vmem S5000x32 .f32) (harg8 : arg8.IsWhole)
    (x0 x1 : Vec F S5000x64 .f32) (x2 : Vec F S32x64 .f32) (x3 : Vec F S32 .f32) (x4 : Vec F S32x64 .f32) (x5 : Vec F S32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__bi_agg_kernel i arg1 harg1 arg2 harg2 arg3 harg3 arg4 harg4 arg5 harg5 arg6 harg6 arg7 harg7 arg8 harg8) K := by
  simp only [cc0__bi_agg_kernel_eq_skeleton]; unfold cc0__bi_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_Y _)
  iexists _; isplitr
  swap; · iexact H7
  ipureintro
  exact View.read_writes_eq_canon _ _ _ (cover0_Y _)

/-! ## The pipeline's proof data -/

/-- The proof data of pipeline 0 on core `c`: the arrays as the region finds them (`V`); after the body at point
    `t` each input's buffer at its block and each output's at `out0_W` of the six input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of the program: the kernel `cc1__bi_agg_kernel` (pipeline 1), at the entry contents `V`

## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not it was fetched there
    (an unfetched window's block index has not moved since the point before), for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not it was fetched there
    (an unfetched window's block index has not moved since the point before), for any proof data whose array is
    `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not it was fetched there
    (an unfetched window's block index has not moved since the point before), for any proof data whose array is
    `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not it was fetched there
    (an unfetched window's block index has not moved since the point before), for any proof data whose array is
    `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not it was fetched there
    (an unfetched window's block index has not moved since the point before), for any proof data whose array is
    `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether or not it was fetched there
    (an unfetched window's block index has not moved since the point before), for any proof data whose array is
    `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rX1 : Rect S5000x32 := Rect.unit (s := S5000x32) ![0, 0] S5000x32.size inb_S5000x32_S5000x32_0_0
abbrev rW1 : Rect S16x32 := Rect.unit (s := S16x32) ![0, 0] S16x32.size inb_S16x32_S16x32_0_0
abbrev rB1 : Rect S16 := Rect.unit (s := S16) ![0] S16.size inb_S16_S16_0
abbrev rY1 : Rect S5000x16 := Rect.unit (s := S5000x16) ![0, 0] S5000x16.size inb_S5000x16_S5000x16_0_0

/-! ## What the body leaves in each output window's buffer -/

/-- Window 6's staging buffer after the body, as a function of the six input blocks: its one store, of the
    activation sum, over the whole buffer. -/
def out1_6 (x0 x1 : Vec F S5000x32 .f32) (x2 : Vec F S16x32 .f32) (x3 : Vec F S16 .f32) (x4 : Vec F S16x32 .f32) (x5 : Vec F S16 .f32) : Vec F S5000x16 .f32 :=
  View.canon [⟨rY1, k1_pay2 (View.ld x0 rX1) (View.ld x1 rX1) (View.ld x2 rW1) (View.ld x3 rB1) (View.ld x4 rW1) (View.ld x5 rB1)⟩]

/-- Window 7's staging buffer after the body: its one store, of the activation sum divided by its clamped row norm,
    over the whole buffer. -/
def out1_7 (x0 x1 : Vec F S5000x32 .f32) (x2 : Vec F S16x32 .f32) (x3 : Vec F S16 .f32) (x4 : Vec F S16x32 .f32) (x5 : Vec F S16 .f32) : Vec F S5000x16 .f32 :=
  View.canon [⟨rY1, k1_pay1 (k1_pay2 (View.ld x0 rX1) (View.ld x1 rX1) (View.ld x2 rW1) (View.ld x3 rB1) (View.ld x4 rW1) (View.ld x5 rB1))
    (k1_pay3 (View.ld x0 rX1) (View.ld x1 rX1) (View.ld x2 rW1) (View.ld x3 rB1) (View.ld x4 rW1) (View.ld x5 rB1))⟩]

/-- A store through the whole rectangle covers the buffer. -/
theorem cover1_Y (p0 : Vec F S5000x16 .f32) (y : S5000x16.Idx) :
    ∃ pc ∈ ([⟨rY1, p0⟩] : List (View.Piece (Elt F) S5000x16 .f32)), y ∈ pc.1.set :=
  View.cover_of_tiled [⟨rY1, p0⟩] S5000x16.size (by rfl) y

/-! ## The body's triple -/

set_option maxHeartbeats 1000000 in
/-- The kernel body on whole staging memrefs — the six inputs' at read contents `x0 … x5`, the two outputs' at
    anything — runs to a continuation that holds the inputs' as they were and the outputs' at `out1_6` and
    `out1_7` of the inputs. The loads of the output buffers that precede the stores read values nothing uses. -/
theorem sound_kernel1 (c : Dev nD) (E : Set ℕ) (i : grid1.Coords) (arg1 : Memref sig .tc .vmem S5000x32 .f32) (harg1 : arg1.IsWhole) (arg2 : Memref sig .tc .vmem S5000x32 .f32) (harg2 : arg2.IsWhole) (arg3 : Memref sig .tc .vmem S16x32 .f32) (harg3 : arg3.IsWhole) (arg4 : Memref sig .tc .vmem S16 .f32) (harg4 : arg4.IsWhole) (arg5 : Memref sig .tc .vmem S16x32 .f32) (harg5 : arg5.IsWhole) (arg6 : Memref sig .tc .vmem S16 .f32) (harg6 : arg6.IsWhole) (arg7 : Memref sig .tc .vmem S5000x16 .f32) (harg7 : arg7.IsWhole) (arg8 : Memref sig .tc .vmem S5000x16 .f32) (harg8 : arg8.IsWhole)
    (x0 x1 : Vec F S5000x32 .f32) (x2 : Vec F S16x32 .f32) (x3 : Vec F S16 .f32) (x4 : Vec F S16x32 .f32) (x5 : Vec F S16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__bi_agg_kernel i arg1 harg1 arg2 harg2 arg3 harg3 arg4 harg4 arg5 harg5 arg6 harg6 arg7 harg7 arg8 harg8) K := by
  simp only [cc1__bi_agg_kernel_eq_skeleton]; unfold cc1__bi_agg_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_Y _)
  iexists _; isplitr
  swap; · iexact H7
  ipureintro
  exact View.read_writes_eq_canon _ _ _ (cover1_Y _)

/-! ## The pipeline's proof data -/

/-- The proof data of pipeline 1 on core `c`: the arrays as the region finds them (`V`); after the body at point
    `t` each input's buffer at its block and each output's at `out1_W` of the six input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The run of the whole program: the buffer contents at every boundary between two segments of the program (a fold from
  the launch memory: a stretch of host operations acts by `StableHlo.after`, a kernel region leaves its arrays at what
  its write-backs fold to and every other buffer as entered), each argument array read back through the fold to its
  launch contents, every pipeline's proof data at its region's entry contents, the seven segments — a host segment per
  stretch, a region record per kernel — over the thread state "every unscoped buffer at the boundary's contents, the
  generator register at some state, nothing owed", the run itself, and the frame it implies.
-/
import proofs.«111316_j86440511799625_1_alg».proof.Proof.Gen.KernelIdeal.Launch
import proofs.«111316_j86440511799625_1_alg».proof.Proof.Gen.KernelIdeal.Skeleton
import proofs.«111316_j86440511799625_1_alg».proof.Proof.Gen.KernelIdeal.Points
import proofs.«111316_j86440511799625_1_alg».proof.Proof.Gen.KernelIdeal.Regions
import proofs.«111316_j86440511799625_1_alg».proof.Proof.KIBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After each of the three closing host stretches; `W7` is what the program returns with. -/
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)

/-! ### The arguments end as launched: no host operation writes one, and a region reads one through an input window
    (whose array is never written back) or does not touch it, so the fold at an argument's buffer walks back to the
    launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2_2 _ hostOps2_2_writes (by decide)
    _ = W5 m ρ c (Proc.devRef .tc main_arg0) := StableHlo.after_of_writes_sub hostOps2_1 _ hostOps2_1_writes (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps2_2 _ hostOps2_2_writes (by decide)
    _ = W5 m ρ c (Proc.devRef .tc main_arg1) := StableHlo.after_of_writes_sub hostOps2_1 _ hostOps2_1_writes (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps2_2 _ hostOps2_2_writes (by decide)
    _ = W5 m ρ c (Proc.devRef .tc main_arg2) := StableHlo.after_of_writes_sub hostOps2_1 _ hostOps2_1_writes (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2_2 _ hostOps2_2_writes (by decide)
    _ = W5 m ρ c (Proc.devRef .tc main_arg3) := StableHlo.after_of_writes_sub hostOps2_1 _ hostOps2_1_writes (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps2_2 _ hostOps2_2_writes (by decide)
    _ = W5 m ρ c (Proc.devRef .tc main_arg4) := StableHlo.after_of_writes_sub hostOps2_1 _ hostOps2_1_writes (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps2_2 _ hostOps2_2_writes (by decide)
    _ = W5 m ρ c (Proc.devRef .tc main_arg5) := StableHlo.after_of_writes_sub hostOps2_1 _ hostOps2_1_writes (by decide)
    _ = W4 m ρ c (Proc.devRef .tc main_arg5) := StableHlo.after_of_writes_sub hostOps2 _ hostOps2_writes (by decide)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps2_2 _ hostOps2_2_writes (by decide)
    _ = W5 m ρ c (Proc.devRef .tc main_arg6) := StableHlo.after_of_writes_sub hostOps2_1 _ hostOps2_1_writes (by decide)
    _ = W4 m ρ c (Proc.devRef .tc main_arg6) := StableHlo.after_of_writes_sub hostOps2 _ hostOps2_writes (by decide)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps2_2 _ hostOps2_2_writes (by decide)
    _ = W5 m ρ c (Proc.devRef .tc main_arg7) := StableHlo.after_of_writes_sub hostOps2_1 _ hostOps2_1_writes (by decide)
    _ = W4 m ρ c (Proc.devRef .tc main_arg7) := StableHlo.after_of_writes_sub hostOps2 _ hostOps2_writes (by decide)
    _ = W3 m ρ c (Proc.devRef .tc main_arg7) := (W4_arr m ρ c 4).trans (((dat1 (V3 m ρ) c).arrAt_in 4 rfl _).trans (A_eq1 (V3 m ρ) c 4))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps2_2 _ hostOps2_2_writes (by decide)
    _ = W5 m ρ c (Proc.devRef .tc main_arg8) := StableHlo.after_of_writes_sub hostOps2_1 _ hostOps2_1_writes (by decide)
    _ = W4 m ρ c (Proc.devRef .tc main_arg8) := StableHlo.after_of_writes_sub hostOps2 _ hostOps2_writes (by decide)
    _ = W3 m ρ c (Proc.devRef .tc main_arg8) := (W4_arr m ρ c 5).trans (((dat1 (V3 m ρ) c).arrAt_in 5 rfl _).trans (A_eq1 (V3 m ρ) c 5))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps2_2 _ hostOps2_2_writes (by decide)
    _ = W5 m ρ c (Proc.devRef .tc main_arg9) := StableHlo.after_of_writes_sub hostOps2_1 _ hostOps2_1_writes (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps2_2 _ hostOps2_2_writes (by decide)
    _ = W5 m ρ c (Proc.devRef .tc main_arg10) := StableHlo.after_of_writes_sub hostOps2_1 _ hostOps2_1_writes (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps2_2 _ hostOps2_2_writes (by decide)
    _ = W5 m ρ c (Proc.devRef .tc main_arg11) := StableHlo.after_of_writes_sub hostOps2_1 _ hostOps2_1_writes (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := StableHlo.after_of_writes_sub hostOps2_2 _ hostOps2_2_writes (by decide)
    _ = W5 m ρ c (Proc.devRef .tc main_arg12) := StableHlo.after_of_writes_sub hostOps2_1 _ hostOps2_1_writes (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := StableHlo.after_of_writes_sub hostOps2_2 _ hostOps2_2_writes (by decide)
    _ = W5 m ρ c (Proc.devRef .tc main_arg13) := StableHlo.after_of_writes_sub hostOps2_1 _ hostOps2_1_writes (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W7_main_arg14 (c : Dev nD) : W7 m ρ c (Proc.devRef .tc main_arg14) = m ((c : Thread nD τ).loc main_arg14) :=
  calc W7 m ρ c (Proc.devRef .tc main_arg14)
    _ = W6 m ρ c (Proc.devRef .tc main_arg14) := StableHlo.after_of_writes_sub hostOps2_2 _ hostOps2_2_writes (by decide)
    _ = W5 m ρ c (Proc.devRef .tc main_arg14) := StableHlo.after_of_writes_sub hostOps2_1 _ hostOps2_1_writes (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-- The last host stretch ends in the last thread state beside the core owing nothing. -/
theorem last_state (c : Dev nD) :
    iprop(StableHlo.held (c : Thread nD τ) (Pipeline.ucRefs τ sig) (W7 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- a library lemma stated over a pinned configuration unifies with the printed one only when unification may unfold
-- plain definitions in a metavariable's type
set_option backward.isDefEq.respectTransparency.types false in
/-- Region 0 over the thread state: entered from every unscoped buffer at `W1`, left at `W2`. Its arrays are
    split out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Region 1 over the thread state: entered from every unscoped buffer at `W3`, left at `W4`. Its arrays are
    split out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 7 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]

-- the launch theorem's implicit arguments are found by unifying its conclusion with this one, which takes unfolding
-- plain definitions in a metavariable's type
set_option backward.isDefEq.respectTransparency.types false in
/-- THE RUN: at the compiled mesh, from any memory with zero counters, every weakly fair execution of the program on
    the TensorCores terminates, nothing faulting, and in every final state each core's every unscoped buffer holds the
    last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every weakly fair execution terminates, nothing faulting, and every final state has the fifteen
    argument arrays as launched — the run, each argument's buffer read through the fold back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c)⟩) (run_all m ρ)

/-- info: 'Cert.KernelIdeal.Hand.frame' depends on axioms: [propext, Classical.choice, Quot.sound] -/
#guard_msgs in #print axioms frame

end Cert.KernelIdeal.Hand

end
-- ==== Proof.RefOps.lean ====
import proofs.«111316_j86440511799625_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first aggregation: the source index wrapped into range, the rows of the embedding gathered at it, each scaled by its edge weight, and the scaled rows summed into their destination rows. -/
abbrev opsA0 : List (HloOp τ sig (Elt F)) :=
  [ StableHlo.nullary main_c (constantI S_ 32 0#32),
    StableHlo.unary main_c main_v0 (broadcastInDim S1000000 ![] bcast_S_S1000000 : (⟨S_, .i32⟩ : BufTy).Contents (Elt F) → (⟨S1000000, .i32⟩ : BufTy).Contents (Elt F)),
    StableHlo.binary main_arg10 main_v0 main_v1 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v2 (broadcastInDim S1000000 ![] bcast_S_S1000000 : (⟨S_, .i32⟩ : BufTy).Contents (Elt F) → (⟨S1000000, .i32⟩ : BufTy).Contents (Elt F)),
    StableHlo.binary main_arg10 main_v2 main_v3 (addi : (⟨S1000000, .i32⟩ : BufTy).Contents (Elt F) → (⟨S1000000, .i32⟩ : BufTy).Contents (Elt F) → (⟨S1000000, .i32⟩ : BufTy).Contents (Elt F)),
    StableHlo.ternary main_v1 main_v3 main_arg10 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v4 main_v5 (broadcastInDim S1000000x1 ![0] bcast_S1000000_S1000000x1_0 : (⟨S1000000, .i32⟩ : BufTy).Contents (Elt F) → (⟨S1000000x1, .i32⟩ : BufTy).Contents (Elt F)),
    StableHlo.binary main_arg0 main_v5 main_v6 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_arg9 main_v7 (broadcastInDim S1000000x1 ![0] bcast_S1000000_S1000000x1_0 : (⟨S1000000, .f32⟩ : BufTy).Contents (Elt F) → (⟨S1000000x1, .f32⟩ : BufTy).Contents (Elt F)),
    StableHlo.unary main_v7 main_v8 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v6 main_v8 main_v9 (mulf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.unary main_cst main_v10 (broadcastInDim S100000x64 ![] bcast_S_S100000x64 : (⟨S_, .f32⟩ : BufTy).Contents (Elt F) → (⟨S100000x64, .f32⟩ : BufTy).Contents (Elt F)),
    StableHlo.unary main_arg11 main_v11 (broadcastInDim S1000000x1 ![0] bcast_S1000000_S1000000x1_0 : (⟨S1000000, .i32⟩ : BufTy).Contents (Elt F) → (⟨S1000000x1, .i32⟩ : BufTy).Contents (Elt F)),
    StableHlo.ternary main_v10 main_v11 main_v9 main_v12 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

/-- The first dense layer on the embedding and its aggregate (two affine maps, each through a leaky rectifier, added) and the row normalisation of the sum. -/
abbrev opsD0 : List (HloOp τ sig (Elt F)) :=
  [ StableHlo.binary main_arg0 main_v12 main_v13 (addf : (⟨S100000x64, .f32⟩ : BufTy).Contents (Elt F) → (⟨S100000x64, .f32⟩ : BufTy).Contents (Elt F) → (⟨S100000x64, .f32⟩ : BufTy).Contents (Elt F)),
    StableHlo.unary main_arg1 main_v14 ((transpose S64x32 [1, 0] · transposes_S32x64_S64x32_1_0) : (⟨S32x64, .f32⟩ : BufTy).Contents (Elt F) → (⟨S64x32, .f32⟩ : BufTy).Contents (Elt F)),
    StableHlo.binary main_v13 main_v14 main_v15 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg2 main_v16 (broadcastInDim S1x32 ![1] bcast_S32_S1x32_1 : (⟨S32, .f32⟩ : BufTy).Contents (Elt F) → (⟨S1x32, .f32⟩ : BufTy).Contents (Elt F)),
    StableHlo.unary main_v16 main_v17 (broadcastInDim S100000x32 ![0, 1] bcast_S1x32_S100000x32_0_1 : (⟨S1x32, .f32⟩ : BufTy).Contents (Elt F) → (⟨S100000x32, .f32⟩ : BufTy).Contents (Elt F)),
    StableHlo.binary main_v15 main_v17 main_v18 (addf : (⟨S100000x32, .f32⟩ : BufTy).Contents (Elt F) → (⟨S100000x32, .f32⟩ : BufTy).Contents (Elt F) → (⟨S100000x32, .f32⟩ : BufTy).Contents (Elt F)),
    StableHlo.nullary main_cst_1 (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S100000x32, .f32⟩) (broadcastInDim S100000x32 ![] bcast_S_S100000x32),
    StableHlo.TRef.binary (.of main_v18 : StableHlo.TRef sig ⟨S100000x32, .f32⟩) (.of main_call0_v0 : StableHlo.TRef sig ⟨S100000x32, .f32⟩) (.of main_call0_v1 : StableHlo.TRef sig ⟨S100000x32, .i1⟩) (cmpf .oge),
    StableHlo.TRef.unary (.of main_cst_1 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S100000x32, .f32⟩) (broadcastInDim S100000x32 ![] bcast_S_S100000x32),
    StableHlo.TRef.binary (.of main_call0_v3 : StableHlo.TRef sig ⟨S100000x32, .f32⟩) (.of main_v18 : StableHlo.TRef sig ⟨S100000x32, .f32⟩) (.of main_call0_v4 : StableHlo.TRef sig ⟨S100000x32, .f32⟩) mulf,
    StableHlo.TRef.ternary (.of main_call0_v1 : StableHlo.TRef sig ⟨S100000x32, .i1⟩) (.of main_v18 : StableHlo.TRef sig ⟨S100000x32, .f32⟩) (.of main_call0_v4 : StableHlo.TRef sig ⟨S100000x32, .f32⟩) (.of main_v19 : StableHlo.TRef sig ⟨S100000x32, .f32⟩) select,
    StableHlo.binary main_arg0 main_v12 main_v20 (mulf : (⟨S100000x64, .f32⟩ : BufTy).Contents (Elt F) → (⟨S100000x64, .f32⟩ : BufTy).Contents (Elt F) → (⟨S100000x64, .f32⟩ : BufTy).Contents (Elt F)),
    StableHlo.unary main_arg3 main_v21 ((transpose S64x32 [1, 0] · transposes_S32x64_S64x32_1_0) : (⟨S32x64, .f32⟩ : BufTy).Contents (Elt F) → (⟨S64x32, .f32⟩ : BufTy).Contents (Elt F)),
    StableHlo.binary main_v20 main_v21 main_v22 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg4 main_v23 (broadcastInDim S1x32 ![1] bcast_S32_S1x32_1 : (⟨S32, .f32⟩ : BufTy).Contents (Elt F) → (⟨S1x32, .f32⟩ : BufTy).Contents (Elt F)),
    StableHlo.unary main_v23 main_v24 (broadcastInDim S100000x32 ![0, 1] bcast_S1x32_S100000x32_0_1 : (⟨S1x32, .f32⟩ : BufTy).Contents (Elt F) → (⟨S100000x32, .f32⟩ : BufTy).Contents (Elt F)),
    StableHlo.binary main_v22 main_v24 main_v25 (addf : (⟨S100000x32, .f32⟩ : BufTy).Contents (Elt F) → (⟨S100000x32, .f32⟩ : BufTy).Contents (Elt F) → (⟨S100000x32, .f32⟩ : BufTy).Contents (Elt F)),
    StableHlo.nullary main_cst_2 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x32, .f32⟩) (broadcastInDim S100000x32 ![] bcast_S_S100000x32),
    StableHlo.TRef.binary (.of main_v25 : StableHlo.TRef sig ⟨S100000x32, .f32⟩) (.of main_call1_v0 : StableHlo.TRef sig ⟨S100000x32, .f32⟩) (.of main_call1_v1 : StableHlo.TRef sig ⟨S100000x32, .i1⟩) (cmpf .oge),
    StableHlo.TRef.unary (.of main_cst_2 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S100000x32, .f32⟩) (broadcastInDim S100000x32 ![] bcast_S_S100000x32),
    StableHlo.TRef.binary (.of main_call1_v3 : StableHlo.TRef sig ⟨S100000x32, .f32⟩) (.of main_v25 : StableHlo.TRef sig ⟨S100000x32, .f32⟩) (.of main_call1_v4 : StableHlo.TRef sig ⟨S100000x32, .f32⟩) mulf,
    StableHlo.TRef.ternary (.of main_call1_v1 : StableHlo.TRef sig ⟨S100000x32, .i1⟩) (.of main_v25 : StableHlo.TRef sig ⟨S100000x32, .f32⟩) (.of main_call1_v4 : StableHlo.TRef sig ⟨S100000x32, .f32⟩) (.of main_v26 : StableHlo.TRef sig ⟨S100000x32, .f32⟩) select,
    StableHlo.binary main_v19 main_v26 main_v27 (addf : (⟨S100000x32, .f32⟩ : BufTy).Contents (Elt F) → (⟨S100000x32, .f32⟩ : BufTy).Contents (Elt F) → (⟨S100000x32, .f32⟩ : BufTy).Contents (Elt F)),
    StableHlo.binary main_v27 main_v27 main_v28 (mulf : (⟨S100000x32, .f32⟩ : BufTy).Contents (Elt F) → (⟨S100000x32, .f32⟩ : BufTy).Contents (Elt F) → (⟨S100000x32, .f32⟩ : BufTy).Contents (Elt F)),
    StableHlo.nullary main_cst_3 (constant S_ .f32 0x00000000#32),
    StableHlo.binary main_v28 main_cst_3 main_v29 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    StableHlo.unary main_v29 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (Host.sqrt : (⟨S100000x1, .f32⟩ : BufTy).Contents (Elt F) → (⟨S100000x1, .f32⟩ : BufTy).Contents (Elt F)),
    StableHlo.nullary main_cst_4 (constant S_ .f32 0x2B8CBCCC#32),
    StableHlo.unary main_cst_4 main_v32 (broadcastInDim S100000x1 ![] bcast_S_S100000x1 : (⟨S_, .f32⟩ : BufTy).Contents (Elt F) → (⟨S100000x1, .f32⟩ : BufTy).Contents (Elt F)),
    StableHlo.binary main_v31 main_v32 main_v33 (maximumf : (⟨S100000x1, .f32⟩ : BufTy).Contents (Elt F) → (⟨S100000x1, .f32⟩ : BufTy).Contents (Elt F) → (⟨S100000x1, .f32⟩ : BufTy).Contents (Elt F)),
    StableHlo.unary main_v33 main_v34 (broadcastInDim S100000x32 ![0, 1] bcast_S100000x1_S100000x32_0_1 : (⟨S100000x1, .f32⟩ : BufTy).Contents (Elt F) → (⟨S100000x32, .f32⟩ : BufTy).Contents (Elt F)),
    StableHlo.binary main_v27 main_v34 main_v35 (Host.divf : (⟨S100000x32, .f32⟩ : BufTy).Contents (Elt F) → (⟨S100000x32, .f32⟩ : BufTy).Contents (Elt F) → (⟨S100000x32, .f32⟩ : BufTy).Contents (Elt F)) ]

/-- The second aggregation, of the first layer's output. -/
abbrev opsA1 : List (HloOp τ sig (Elt F)) :=
  [ StableHlo.nullary main_c_5 (constantI S_ 32 0#32),
    StableHlo.unary main_c_5 main_v36 (broadcastInDim S1000000 ![] bcast_S_S1000000 : (⟨S_, .i32⟩ : BufTy).Contents (Elt F) → (⟨S1000000, .i32⟩ : BufTy).Contents (Elt F)),
    StableHlo.binary main_arg10 main_v36 main_v37 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v38 (broadcastInDim S1000000 ![] bcast_S_S1000000 : (⟨S_, .i32⟩ : BufTy).Contents (Elt F) → (⟨S1000000, .i32⟩ : BufTy).Contents (Elt F)),
    StableHlo.binary main_arg10 main_v38 main_v39 (addi : (⟨S1000000, .i32⟩ : BufTy).Contents (Elt F) → (⟨S1000000, .i32⟩ : BufTy).Contents (Elt F) → (⟨S1000000, .i32⟩ : BufTy).Contents (Elt F)),
    StableHlo.ternary main_v37 main_v39 main_arg10 main_v40 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v40 main_v41 (broadcastInDim S1000000x1 ![0] bcast_S1000000_S1000000x1_0 : (⟨S1000000, .i32⟩ : BufTy).Contents (Elt F) → (⟨S1000000x1, .i32⟩ : BufTy).Contents (Elt F)),
    StableHlo.binary main_v27 main_v41 main_v42 ((fun x i => Host.gather gather_S100000x32_S1000000x1_S1000000x32_1_0_n_n_0_1_132 x i) : (⟨S100000x32, .f32⟩ : BufTy).Contents (Elt F) → (⟨S1000000x1, .i32⟩ : BufTy).Contents (Elt F) → (⟨S1000000x32, .f32⟩ : BufTy).Contents (Elt F)),
    StableHlo.unary main_arg9 main_v43 (broadcastInDim S1000000x1 ![0] bcast_S1000000_S1000000x1_0 : (⟨S1000000, .f32⟩ : BufTy).Contents (Elt F) → (⟨S1000000x1, .f32⟩ : BufTy).Contents (Elt F)),
    StableHlo.unary main_v43 main_v44 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v42 main_v44 main_v45 (mulf : (⟨S1000000x32, .f32⟩ : BufTy).Contents (Elt F) → (⟨S1000000x32, .f32⟩ : BufTy).Contents (Elt F) → (⟨S1000000x32, .f32⟩ : BufTy).Contents (Elt F)),
    StableHlo.nullary main_cst_7 (constant S_ .f32 0x00000000#32),
    StableHlo.unary main_cst_7 main_v46 (broadcastInDim S100000x32 ![] bcast_S_S100000x32 : (⟨S_, .f32⟩ : BufTy).Contents (Elt F) → (⟨S100000x32, .f32⟩ : BufTy).Contents (Elt F)),
    StableHlo.unary main_arg11 main_v47 (broadcastInDim S1000000x1 ![0] bcast_S1000000_S1000000x1_0 : (⟨S1000000, .i32⟩ : BufTy).Contents (Elt F) → (⟨S1000000x1, .i32⟩ : BufTy).Contents (Elt F)),
    StableHlo.ternary main_v46 main_v47 main_v45 main_v48 ((fun x i u => Host.scatterAdd scatter_S100000x32_S1000000x1_S1000000x32_1_0_0_1 x i u) : (⟨S100000x32, .f32⟩ : BufTy).Contents (Elt F) → (⟨S1000000x1, .i32⟩ : BufTy).Contents (Elt F) → (⟨S1000000x32, .f32⟩ : BufTy).Contents (Elt F) → (⟨S100000x32, .f32⟩ : BufTy).Contents (Elt F)) ]

/-- The second dense layer and its row normalisation. -/
abbrev opsD1 : List (HloOp τ sig (Elt F)) :=
  [ StableHlo.binary main_v27 main_v48 main_v49 (addf : (⟨S100000x32, .f32⟩ : BufTy).Contents (Elt F) → (⟨S100000x32, .f32⟩ : BufTy).Contents (Elt F) → (⟨S100000x32, .f32⟩ : BufTy).Contents (Elt F)),
    StableHlo.unary main_arg5 main_v50 ((transpose S32x16 [1, 0] · transposes_S16x32_S32x16_1_0) : (⟨S16x32, .f32⟩ : BufTy).Contents (Elt F) → (⟨S32x16, .f32⟩ : BufTy).Contents (Elt F)),
    StableHlo.binary main_v49 main_v50 main_v51 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg6 main_v52 (broadcastInDim S1x16 ![1] bcast_S16_S1x16_1 : (⟨S16, .f32⟩ : BufTy).Contents (Elt F) → (⟨S1x16, .f32⟩ : BufTy).Contents (Elt F)),
    StableHlo.unary main_v52 main_v53 (broadcastInDim S100000x16 ![0, 1] bcast_S1x16_S100000x16_0_1 : (⟨S1x16, .f32⟩ : BufTy).Contents (Elt F) → (⟨S100000x16, .f32⟩ : BufTy).Contents (Elt F)),
    StableHlo.binary main_v51 main_v53 main_v54 (addf : (⟨S100000x16, .f32⟩ : BufTy).Contents (Elt F) → (⟨S100000x16, .f32⟩ : BufTy).Contents (Elt F) → (⟨S100000x16, .f32⟩ : BufTy).Contents (Elt F)),
    StableHlo.nullary main_cst_8 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x16, .f32⟩) (broadcastInDim S100000x16 ![] bcast_S_S100000x16),
    StableHlo.TRef.binary (.of main_v54 : StableHlo.TRef sig ⟨S100000x16, .f32⟩) (.of main_call2_v0 : StableHlo.TRef sig ⟨S100000x16, .f32⟩) (.of main_call2_v1 : StableHlo.TRef sig ⟨S100000x16, .i1⟩) (cmpf .oge),
    StableHlo.TRef.unary (.of main_cst_8 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S100000x16, .f32⟩) (broadcastInDim S100000x16 ![] bcast_S_S100000x16),
    StableHlo.TRef.binary (.of main_call2_v3 : StableHlo.TRef sig ⟨S100000x16, .f32⟩) (.of main_v54 : StableHlo.TRef sig ⟨S100000x16, .f32⟩) (.of main_call2_v4 : StableHlo.TRef sig ⟨S100000x16, .f32⟩) mulf,
    StableHlo.TRef.ternary (.of main_call2_v1 : StableHlo.TRef sig ⟨S100000x16, .i1⟩) (.of main_v54 : StableHlo.TRef sig ⟨S100000x16, .f32⟩) (.of main_call2_v4 : StableHlo.TRef sig ⟨S100000x16, .f32⟩) (.of main_v55 : StableHlo.TRef sig ⟨S100000x16, .f32⟩) select,
    StableHlo.binary main_v27 main_v48 main_v56 (mulf : (⟨S100000x32, .f32⟩ : BufTy).Contents (Elt F) → (⟨S100000x32, .f32⟩ : BufTy).Contents (Elt F) → (⟨S100000x32, .f32⟩ : BufTy).Contents (Elt F)),
    StableHlo.unary main_arg7 main_v57 ((transpose S32x16 [1, 0] · transposes_S16x32_S32x16_1_0) : (⟨S16x32, .f32⟩ : BufTy).Contents (Elt F) → (⟨S32x16, .f32⟩ : BufTy).Contents (Elt F)),
    StableHlo.binary main_v56 main_v57 main_v58 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg8 main_v59 (broadcastInDim S1x16 ![1] bcast_S16_S1x16_1 : (⟨S16, .f32⟩ : BufTy).Contents (Elt F) → (⟨S1x16, .f32⟩ : BufTy).Contents (Elt F)),
    StableHlo.unary main_v59 main_v60 (broadcastInDim S100000x16 ![0, 1] bcast_S1x16_S100000x16_0_1 : (⟨S1x16, .f32⟩ : BufTy).Contents (Elt F) → (⟨S100000x16, .f32⟩ : BufTy).Contents (Elt F)),
    StableHlo.binary main_v58 main_v60 main_v61 (addf : (⟨S100000x16, .f32⟩ : BufTy).Contents (Elt F) → (⟨S100000x16, .f32⟩ : BufTy).Contents (Elt F) → (⟨S100000x16, .f32⟩ : BufTy).Contents (Elt F)),
    StableHlo.nullary main_cst_9 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x16, .f32⟩) (broadcastInDim S100000x16 ![] bcast_S_S100000x16),
    StableHlo.TRef.binary (.of main_v61 : StableHlo.TRef sig ⟨S100000x16, .f32⟩) (.of main_call3_v0 : StableHlo.TRef sig ⟨S100000x16, .f32⟩) (.of main_call3_v1 : StableHlo.TRef sig ⟨S100000x16, .i1⟩) (cmpf .oge),
    StableHlo.TRef.unary (.of main_cst_9 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S100000x16, .f32⟩) (broadcastInDim S100000x16 ![] bcast_S_S100000x16),
    StableHlo.TRef.binary (.of main_call3_v3 : StableHlo.TRef sig ⟨S100000x16, .f32⟩) (.of main_v61 : StableHlo.TRef sig ⟨S100000x16, .f32⟩) (.of main_call3_v4 : StableHlo.TRef sig ⟨S100000x16, .f32⟩) mulf,
    StableHlo.TRef.ternary (.of main_call3_v1 : StableHlo.TRef sig ⟨S100000x16, .i1⟩) (.of main_v61 : StableHlo.TRef sig ⟨S100000x16, .f32⟩) (.of main_call3_v4 : StableHlo.TRef sig ⟨S100000x16, .f32⟩) (.of main_v62 : StableHlo.TRef sig ⟨S100000x16, .f32⟩) select,
    StableHlo.binary main_v55 main_v62 main_v63 (addf : (⟨S100000x16, .f32⟩ : BufTy).Contents (Elt F) → (⟨S100000x16, .f32⟩ : BufTy).Contents (Elt F) → (⟨S100000x16, .f32⟩ : BufTy).Contents (Elt F)),
    StableHlo.binary main_v63 main_v63 main_v64 (mulf : (⟨S100000x16, .f32⟩ : BufTy).Contents (Elt F) → (⟨S100000x16, .f32⟩ : BufTy).Contents (Elt F) → (⟨S100000x16, .f32⟩ : BufTy).Contents (Elt F)),
    StableHlo.nullary main_cst_10 (constant S_ .f32 0x00000000#32),
    StableHlo.binary main_v64 main_cst_10 main_v65 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    StableHlo.unary main_v65 main_v66 (broadcastInDim S100000x1 ![0] bcast_S100000_S100000x1_0 : (⟨S100000, .f32⟩ : BufTy).Contents (Elt F) → (⟨S100000x1, .f32⟩ : BufTy).Contents (Elt F)),
    StableHlo.unary main_v66 main_v67 (Host.sqrt : (⟨S100000x1, .f32⟩ : BufTy).Contents (Elt F) → (⟨S100000x1, .f32⟩ : BufTy).Contents (Elt F)),
    StableHlo.nullary main_cst_11 (constant S_ .f32 0x2B8CBCCC#32),
    StableHlo.unary main_cst_11 main_v68 (broadcastInDim S100000x1 ![] bcast_S_S100000x1 : (⟨S_, .f32⟩ : BufTy).Contents (Elt F) → (⟨S100000x1, .f32⟩ : BufTy).Contents (Elt F)),
    StableHlo.binary main_v67 main_v68 main_v69 (maximumf : (⟨S100000x1, .f32⟩ : BufTy).Contents (Elt F) → (⟨S100000x1, .f32⟩ : BufTy).Contents (Elt F) → (⟨S100000x1, .f32⟩ : BufTy).Contents (Elt F)),
    StableHlo.unary main_v69 main_v70 (broadcastInDim S100000x16 ![0, 1] bcast_S100000x1_S100000x16_0_1 : (⟨S100000x1, .f32⟩ : BufTy).Contents (Elt F) → (⟨S100000x16, .f32⟩ : BufTy).Contents (Elt F)),
    StableHlo.binary main_v63 main_v70 main_v71 (Host.divf : (⟨S100000x16, .f32⟩ : BufTy).Contents (Elt F) → (⟨S100000x16, .f32⟩ : BufTy).Contents (Elt F) → (⟨S100000x16, .f32⟩ : BufTy).Contents (Elt F)) ]

/-- The tail: the three tables joined side by side, the rows of the join gathered at the three index lists, the pairwise scores, the softplus of their difference summed, and the scaled sum of half squared norms. -/
abbrev opsT : List (HloOp τ sig (Elt F)) :=
  [ StableHlo.nary ![main_arg0, main_v35, main_v71] main_v72 (fun u => concatenate S100000x112 1 [⟨S100000x64, u 0⟩, ⟨S100000x32, u 1⟩, ⟨S100000x16, u 2⟩] concatenates_S100000x64_S100000x32_S100000x16_S100000x112_d1),
    StableHlo.nullary main_c_12 (constantI S_ 32 0#32),
    StableHlo.unary main_c_12 main_v73 (broadcastInDim S8192 ![] bcast_S_S8192 : (⟨S_, .i32⟩ : BufTy).Contents (Elt F) → (⟨S8192, .i32⟩ : BufTy).Contents (Elt F)),
    StableHlo.binary main_arg12 main_v73 main_v74 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 100000#32),
    StableHlo.unary main_c_13 main_v75 (broadcastInDim S8192 ![] bcast_S_S8192 : (⟨S_, .i32⟩ : BufTy).Contents (Elt F) → (⟨S8192, .i32⟩ : BufTy).Contents (Elt F)),
    StableHlo.binary main_arg12 main_v75 main_v76 (addi : (⟨S8192, .i32⟩ : BufTy).Contents (Elt F) → (⟨S8192, .i32⟩ : BufTy).Contents (Elt F) → (⟨S8192, .i32⟩ : BufTy).Contents (Elt F)),
    StableHlo.ternary main_v74 main_v76 main_arg12 main_v77 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v77 main_v78 (broadcastInDim S8192x1 ![0] bcast_S8192_S8192x1_0 : (⟨S8192, .i32⟩ : BufTy).Contents (Elt F) → (⟨S8192x1, .i32⟩ : BufTy).Contents (Elt F)),
    StableHlo.binary main_v72 main_v78 main_v79 ((fun x i => Host.gather gather_S100000x112_S8192x1_S8192x112_1_0_n_n_0_1_1112 x i) : (⟨S100000x112, .f32⟩ : BufTy).Contents (Elt F) → (⟨S8192x1, .i32⟩ : BufTy).Contents (Elt F) → (⟨S8192x112, .f32⟩ : BufTy).Contents (Elt F)),
    StableHlo.nullary main_c_14 (constantI S_ 32 0#32),
    StableHlo.unary main_c_14 main_v80 (broadcastInDim S8192 ![] bcast_S_S8192 : (⟨S_, .i32⟩ : BufTy).Contents (Elt F) → (⟨S8192, .i32⟩ : BufTy).Contents (Elt F)),
    StableHlo.binary main_arg13 main_v80 main_v81 (cmpi .slt : (⟨S8192, .i32⟩ : BufTy).Contents (Elt F) → (⟨S8192, .i32⟩ : BufTy).Contents (Elt F) → (⟨S8192, .i1⟩ : BufTy).Contents (Elt F)),
    StableHlo.nullary main_c_15 (constantI S_ 32 100000#32),
    StableHlo.unary main_c_15 main_v82 (broadcastInDim S8192 ![] bcast_S_S8192 : (⟨S_, .i32⟩ : BufTy).Contents (Elt F) → (⟨S8192, .i32⟩ : BufTy).Contents (Elt F)),
    StableHlo.binary main_arg13 main_v82 main_v83 (addi : (⟨S8192, .i32⟩ : BufTy).Contents (Elt F) → (⟨S8192, .i32⟩ : BufTy).Contents (Elt F) → (⟨S8192, .i32⟩ : BufTy).Contents (Elt F)),
    StableHlo.ternary main_v81 main_v83 main_arg13 main_v84 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v84 main_v85 (broadcastInDim S8192x1 ![0] bcast_S8192_S8192x1_0 : (⟨S8192, .i32⟩ : BufTy).Contents (Elt F) → (⟨S8192x1, .i32⟩ : BufTy).Contents (Elt F)),
    StableHlo.binary main_v72 main_v85 main_v86 ((fun x i => Host.gather gather_S100000x112_S8192x1_S8192x112_1_0_n_n_0_1_1112 x i) : (⟨S100000x112, .f32⟩ : BufTy).Contents (Elt F) → (⟨S8192x1, .i32⟩ : BufTy).Contents (Elt F) → (⟨S8192x112, .f32⟩ : BufTy).Contents (Elt F)),
    StableHlo.nullary main_c_16 (constantI S_ 32 0#32),
    StableHlo.unary main_c_16 main_v87 (broadcastInDim S8192 ![] bcast_S_S8192 : (⟨S_, .i32⟩ : BufTy).Contents (Elt F) → (⟨S8192, .i32⟩ : BufTy).Contents (Elt F)),
    StableHlo.binary main_arg14 main_v87 main_v88 (cmpi .slt : (⟨S8192, .i32⟩ : BufTy).Contents (Elt F) → (⟨S8192, .i32⟩ : BufTy).Contents (Elt F) → (⟨S8192, .i1⟩ : BufTy).Contents (Elt F)),
    StableHlo.nullary main_c_17 (constantI S_ 32 100000#32),
    StableHlo.unary main_c_17 main_v89 (broadcastInDim S8192 ![] bcast_S_S8192 : (⟨S_, .i32⟩ : BufTy).Contents (Elt F) → (⟨S8192, .i32⟩ : BufTy).Contents (Elt F)),
    StableHlo.binary main_arg14 main_v89 main_v90 (addi : (⟨S8192, .i32⟩ : BufTy).Contents (Elt F) → (⟨S8192, .i32⟩ : BufTy).Contents (Elt F) → (⟨S8192, .i32⟩ : BufTy).Contents (Elt F)),
    StableHlo.ternary main_v88 main_v90 main_arg14 main_v91 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v91 main_v92 (broadcastInDim S8192x1 ![0] bcast_S8192_S8192x1_0 : (⟨S8192, .i32⟩ : BufTy).Contents (Elt F) → (⟨S8192x1, .i32⟩ : BufTy).Contents (Elt F)),
    StableHlo.binary main_v72 main_v92 main_v93 ((fun x i => Host.gather gather_S100000x112_S8192x1_S8192x112_1_0_n_n_0_1_1112 x i) : (⟨S100000x112, .f32⟩ : BufTy).Contents (Elt F) → (⟨S8192x1, .i32⟩ : BufTy).Contents (Elt F) → (⟨S8192x112, .f32⟩ : BufTy).Contents (Elt F)),
    StableHlo.binary main_v79 main_v86 main_v94 (mulf : (⟨S8192x112, .f32⟩ : BufTy).Contents (Elt F) → (⟨S8192x112, .f32⟩ : BufTy).Contents (Elt F) → (⟨S8192x112, .f32⟩ : BufTy).Contents (Elt F)),
    StableHlo.nullary main_cst_18 (constant S_ .f32 0x00000000#32),
    StableHlo.binary main_v94 main_cst_18 main_v95 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)),
    StableHlo.binary main_v79 main_v93 main_v96 (mulf : (⟨S8192x112, .f32⟩ : BufTy).Contents (Elt F) → (⟨S8192x112, .f32⟩ : BufTy).Contents (Elt F) → (⟨S8192x112, .f32⟩ : BufTy).Contents (Elt F)),
    StableHlo.nullary main_cst_19 (constant S_ .f32 0x00000000#32),
    StableHlo.binary main_v96 main_cst_19 main_v97 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)),
    StableHlo.binary main_v95 main_v97 main_v98 (subf : (⟨S8192, .f32⟩ : BufTy).Contents (Elt F) → (⟨S8192, .f32⟩ : BufTy).Contents (Elt F) → (⟨S8192, .f32⟩ : BufTy).Contents (Elt F)),
    StableHlo.unary main_v98 main_v99 (Host.negf : (⟨S8192, .f32⟩ : BufTy).Contents (Elt F) → (⟨S8192, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S8192, .f32⟩) (broadcastInDim S8192 ![] bcast_S_S8192),
    StableHlo.TRef.binary (.of main_v99 : StableHlo.TRef sig ⟨S8192, .f32⟩) (.of main_call4_v0 : StableHlo.TRef sig ⟨S8192, .f32⟩) (.of main_call4_v1 : StableHlo.TRef sig ⟨S8192, .f32⟩) maximumf,
    StableHlo.TRef.unary (.of main_call4_cst : StableHlo.TRef sig ⟨S_, .f32⟩) (.of main_call4_v2 : StableHlo.TRef sig ⟨S8192, .f32⟩) (broadcastInDim S8192 ![] bcast_S_S8192),
    StableHlo.TRef.binary (.of main_v99 : StableHlo.TRef sig ⟨S8192, .f32⟩) (.of main_call4_v2 : StableHlo.TRef sig ⟨S8192, .f32⟩) (.of main_call4_v3 : StableHlo.TRef sig ⟨S8192, .f32⟩) subf,
    StableHlo.TRef.binary (.of main_call4_v3 : StableHlo.TRef sig ⟨S8192, .f32⟩) (.of main_call4_v3 : StableHlo.TRef sig ⟨S8192, .f32⟩) (.of main_call4_v4 : StableHlo.TRef sig ⟨S8192, .i1⟩) (cmpf .une),
    StableHlo.TRef.unary (.of main_call4_cst : StableHlo.TRef sig ⟨S_, .f32⟩) (.of main_call4_v5 : StableHlo.TRef sig ⟨S8192, .f32⟩) (broadcastInDim S8192 ![] bcast_S_S8192),
    StableHlo.TRef.binary (.of main_v99 : StableHlo.TRef sig ⟨S8192, .f32⟩) (.of main_call4_v5 : StableHlo.TRef sig ⟨S8192, .f32⟩) (.of main_call4_v6 : StableHlo.TRef sig ⟨S8192, .f32⟩) addf,
    StableHlo.TRef.unary (.of main_call4_v3 : StableHlo.TRef sig ⟨S8192, .f32⟩) (.of main_call4_v7 : StableHlo.TRef sig ⟨S8192, .f32⟩) Host.absf,
    StableHlo.TRef.unary (.of main_call4_v7 : StableHlo.TRef sig ⟨S8192, .f32⟩) (.of main_call4_v8 : StableHlo.TRef sig ⟨S8192, .f32⟩) Host.negf,
    StableHlo.TRef.unary (.of main_call4_v8 : StableHlo.TRef sig ⟨S8192, .f32⟩) (.of main_call4_v9 : StableHlo.TRef sig ⟨S8192, .f32⟩) Host.exp,
    StableHlo.TRef.unary (.of main_call4_v9 : StableHlo.TRef sig ⟨S8192, .f32⟩) (.of main_call4_v10 : StableHlo.TRef sig ⟨S8192, .f32⟩) Host.log1p,
    StableHlo.TRef.binary (.of main_call4_v1 : StableHlo.TRef sig ⟨S8192, .f32⟩) (.of main_call4_v10 : StableHlo.TRef sig ⟨S8192, .f32⟩) (.of main_call4_v11 : StableHlo.TRef sig ⟨S8192, .f32⟩) addf,
    StableHlo.TRef.ternary (.of main_call4_v4 : StableHlo.TRef sig ⟨S8192, .i1⟩) (.of main_call4_v6 : StableHlo.TRef sig ⟨S8192, .f32⟩) (.of main_call4_v11 : StableHlo.TRef sig ⟨S8192, .f32⟩) (.of main_v100 : StableHlo.TRef sig ⟨S8192, .f32⟩) select,
    StableHlo.nullary main_cst_20 (constant S_ .f32 0x00000000#32),
    StableHlo.binary main_v100 main_cst_20 main_v101 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v79 main_v79 main_v102 (mulf : (⟨S8192x112, .f32⟩ : BufTy).Contents (Elt F) → (⟨S8192x112, .f32⟩ : BufTy).Contents (Elt F) → (⟨S8192x112, .f32⟩ : BufTy).Contents (Elt F)),
    StableHlo.nullary main_cst_21 (constant S_ .f32 0x00000000#32),
    StableHlo.binary main_v102 main_cst_21 main_v103 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)),
    StableHlo.nullary main_cst_22 (constant S_ .f32 0x40000000#32),
    StableHlo.unary main_cst_22 main_v104 (broadcastInDim S8192 ![] bcast_S_S8192 : (⟨S_, .f32⟩ : BufTy).Contents (Elt F) → (⟨S8192, .f32⟩ : BufTy).Contents (Elt F)),
    StableHlo.binary main_v103 main_v104 main_v105 (Host.divf : (⟨S8192, .f32⟩ : BufTy).Contents (Elt F) → (⟨S8192, .f32⟩ : BufTy).Contents (Elt F) → (⟨S8192, .f32⟩ : BufTy).Contents (Elt F)),
    StableHlo.nullary main_cst_23 (constant S_ .f32 0x00000000#32),
    StableHlo.binary main_v105 main_cst_23 main_v106 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v86 main_v86 main_v107 (mulf : (⟨S8192x112, .f32⟩ : BufTy).Contents (Elt F) → (⟨S8192x112, .f32⟩ : BufTy).Contents (Elt F) → (⟨S8192x112, .f32⟩ : BufTy).Contents (Elt F)),
    StableHlo.nullary main_cst_24 (constant S_ .f32 0x00000000#32),
    StableHlo.binary main_v107 main_cst_24 main_v108 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)),
    StableHlo.nullary main_cst_25 (constant S_ .f32 0x40000000#32),
    StableHlo.unary main_cst_25 main_v109 (broadcastInDim S8192 ![] bcast_S_S8192 : (⟨S_, .f32⟩ : BufTy).Contents (Elt F) → (⟨S8192, .f32⟩ : BufTy).Contents (Elt F)),
    StableHlo.binary main_v108 main_v109 main_v110 (Host.divf : (⟨S8192, .f32⟩ : BufTy).Contents (Elt F) → (⟨S8192, .f32⟩ : BufTy).Contents (Elt F) → (⟨S8192, .f32⟩ : BufTy).Contents (Elt F)),
    StableHlo.nullary main_cst_26 (constant S_ .f32 0x00000000#32),
    StableHlo.binary main_v110 main_cst_26 main_v111 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v106 main_v111 main_v112 (addf : (⟨S_, .f32⟩ : BufTy).Contents (Elt F) → (⟨S_, .f32⟩ : BufTy).Contents (Elt F) → (⟨S_, .f32⟩ : BufTy).Contents (Elt F)),
    StableHlo.binary main_v93 main_v93 main_v113 (mulf : (⟨S8192x112, .f32⟩ : BufTy).Contents (Elt F) → (⟨S8192x112, .f32⟩ : BufTy).Contents (Elt F) → (⟨S8192x112, .f32⟩ : BufTy).Contents (Elt F)),
    StableHlo.nullary main_cst_27 (constant S_ .f32 0x00000000#32),
    StableHlo.binary main_v113 main_cst_27 main_v114 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)),
    StableHlo.nullary main_cst_28 (constant S_ .f32 0x40000000#32),
    StableHlo.unary main_cst_28 main_v115 (broadcastInDim S8192 ![] bcast_S_S8192 : (⟨S_, .f32⟩ : BufTy).Contents (Elt F) → (⟨S8192, .f32⟩ : BufTy).Contents (Elt F)),
    StableHlo.binary main_v114 main_v115 main_v116 (Host.divf : (⟨S8192, .f32⟩ : BufTy).Contents (Elt F) → (⟨S8192, .f32⟩ : BufTy).Contents (Elt F) → (⟨S8192, .f32⟩ : BufTy).Contents (Elt F)),
    StableHlo.nullary main_cst_29 (constant S_ .f32 0x00000000#32),
    StableHlo.binary main_v116 main_cst_29 main_v117 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v112 main_v117 main_v118 (addf : (⟨S_, .f32⟩ : BufTy).Contents (Elt F) → (⟨S_, .f32⟩ : BufTy).Contents (Elt F) → (⟨S_, .f32⟩ : BufTy).Contents (Elt F)),
    StableHlo.nullary main_cst_30 (constant S_ .f32 0x3727C5AC#32),
    StableHlo.binary main_cst_30 main_v118 main_v119 (mulf : (⟨S_, .f32⟩ : BufTy).Contents (Elt F) → (⟨S_, .f32⟩ : BufTy).Contents (Elt F) → (⟨S_, .f32⟩ : BufTy).Contents (Elt F)) ]

/-- The whole program: the five stretches in order. -/
abbrev ops : List (HloOp τ sig (Elt F)) := opsA0 ++ opsD0 ++ opsA1 ++ opsD1 ++ opsT

/-- The operations of the first window the printed program is cut into, each call replaced by its callee's operations over the call's own buffers. -/
abbrev opsP0 : List (HloOp τ sig (Elt F)) :=
  [ StableHlo.nullary main_c (constantI S_ 32 0#32),
    StableHlo.unary main_c main_v0 (broadcastInDim S1000000 ![] bcast_S_S1000000 : (⟨S_, .i32⟩ : BufTy).Contents (Elt F) → (⟨S1000000, .i32⟩ : BufTy).Contents (Elt F)),
    StableHlo.binary main_arg10 main_v0 main_v1 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v2 (broadcastInDim S1000000 ![] bcast_S_S1000000 : (⟨S_, .i32⟩ : BufTy).Contents (Elt F) → (⟨S1000000, .i32⟩ : BufTy).Contents (Elt F)),
    StableHlo.binary main_arg10 main_v2 main_v3 (addi : (⟨S1000000, .i32⟩ : BufTy).Contents (Elt F) → (⟨S1000000, .i32⟩ : BufTy).Contents (Elt F) → (⟨S1000000, .i32⟩ : BufTy).Contents (Elt F)),
    StableHlo.ternary main_v1 main_v3 main_arg10 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v4 main_v5 (broadcastInDim S1000000x1 ![0] bcast_S1000000_S1000000x1_0 : (⟨S1000000, .i32⟩ : BufTy).Contents (Elt F) → (⟨S1000000x1, .i32⟩ : BufTy).Contents (Elt F)),
    StableHlo.binary main_arg0 main_v5 main_v6 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_arg9 main_v7 (broadcastInDim S1000000x1 ![0] bcast_S1000000_S1000000x1_0 : (⟨S1000000, .f32⟩ : BufTy).Contents (Elt F) → (⟨S1000000x1, .f32⟩ : BufTy).Contents (Elt F)),
    StableHlo.unary main_v7 main_v8 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v6 main_v8 main_v9 (mulf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.unary main_cst main_v10 (broadcastInDim S100000x64 ![] bcast_S_S100000x64 : (⟨S_, .f32⟩ : BufTy).Contents (Elt F) → (⟨S100000x64, .f32⟩ : BufTy).Contents (Elt F)),
    StableHlo.unary main_arg11 main_v11 (broadcastInDim S1000000x1 ![0] bcast_S1000000_S1000000x1_0 : (⟨S1000000, .i32⟩ : BufTy).Contents (Elt F) → (⟨S1000000x1, .i32⟩ : BufTy).Contents (Elt F)),
    StableHlo.ternary main_v10 main_v11 main_v9 main_v12 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.binary main_arg0 main_v12 main_v13 (addf : (⟨S100000x64, .f32⟩ : BufTy).Contents (Elt F) → (⟨S100000x64, .f32⟩ : BufTy).Contents (Elt F) → (⟨S100000x64, .f32⟩ : BufTy).Contents (Elt F)),
    StableHlo.unary main_arg1 main_v14 ((transpose S64x32 [1, 0] · transposes_S32x64_S64x32_1_0) : (⟨S32x64, .f32⟩ : BufTy).Contents (Elt F) → (⟨S64x32, .f32⟩ : BufTy).Contents (Elt F)),
    StableHlo.binary main_v13 main_v14 main_v15 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg2 main_v16 (broadcastInDim S1x32 ![1] bcast_S32_S1x32_1 : (⟨S32, .f32⟩ : BufTy).Contents (Elt F) → (⟨S1x32, .f32⟩ : BufTy).Contents (Elt F)),
    StableHlo.unary main_v16 main_v17 (broadcastInDim S100000x32 ![0, 1] bcast_S1x32_S100000x32_0_1 : (⟨S1x32, .f32⟩ : BufTy).Contents (Elt F) → (⟨S100000x32, .f32⟩ : BufTy).Contents (Elt F)),
    StableHlo.binary main_v15 main_v17 main_v18 (addf : (⟨S100000x32, .f32⟩ : BufTy).Contents (Elt F) → (⟨S100000x32, .f32⟩ : BufTy).Contents (Elt F) → (⟨S100000x32, .f32⟩ : BufTy).Contents (Elt F)),
    StableHlo.nullary main_cst_1 (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S100000x32, .f32⟩) (broadcastInDim S100000x32 ![] bcast_S_S100000x32),
    StableHlo.TRef.binary (.of main_v18 : StableHlo.TRef sig ⟨S100000x32, .f32⟩) (.of main_call0_v0 : StableHlo.TRef sig ⟨S100000x32, .f32⟩) (.of main_call0_v1 : StableHlo.TRef sig ⟨S100000x32, .i1⟩) (cmpf .oge),
    StableHlo.TRef.unary (.of main_cst_1 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S100000x32, .f32⟩) (broadcastInDim S100000x32 ![] bcast_S_S100000x32),
    StableHlo.TRef.binary (.of main_call0_v3 : StableHlo.TRef sig ⟨S100000x32, .f32⟩) (.of main_v18 : StableHlo.TRef sig ⟨S100000x32, .f32⟩) (.of main_call0_v4 : StableHlo.TRef sig ⟨S100000x32, .f32⟩) mulf,
    StableHlo.TRef.ternary (.of main_call0_v1 : StableHlo.TRef sig ⟨S100000x32, .i1⟩) (.of main_v18 : StableHlo.TRef sig ⟨S100000x32, .f32⟩) (.of main_call0_v4 : StableHlo.TRef sig ⟨S100000x32, .f32⟩) (.of main_v19 : StableHlo.TRef sig ⟨S100000x32, .f32⟩) select,
    StableHlo.binary main_arg0 main_v12 main_v20 (mulf : (⟨S100000x64, .f32⟩ : BufTy).Contents (Elt F) → (⟨S100000x64, .f32⟩ : BufTy).Contents (Elt F) → (⟨S100000x64, .f32⟩ : BufTy).Contents (Elt F)),
    StableHlo.unary main_arg3 main_v21 ((transpose S64x32 [1, 0] · transposes_S32x64_S64x32_1_0) : (⟨S32x64, .f32⟩ : BufTy).Contents (Elt F) → (⟨S64x32, .f32⟩ : BufTy).Contents (Elt F)),
    StableHlo.binary main_v20 main_v21 main_v22 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg4 main_v23 (broadcastInDim S1x32 ![1] bcast_S32_S1x32_1 : (⟨S32, .f32⟩ : BufTy).Contents (Elt F) → (⟨S1x32, .f32⟩ : BufTy).Contents (Elt F)),
    StableHlo.unary main_v23 main_v24 (broadcastInDim S100000x32 ![0, 1] bcast_S1x32_S100000x32_0_1 : (⟨S1x32, .f32⟩ : BufTy).Contents (Elt F) → (⟨S100000x32, .f32⟩ : BufTy).Contents (Elt F)),
    StableHlo.binary main_v22 main_v24 main_v25 (addf : (⟨S100000x32, .f32⟩ : BufTy).Contents (Elt F) → (⟨S100000x32, .f32⟩ : BufTy).Contents (Elt F) → (⟨S100000x32, .f32⟩ : BufTy).Contents (Elt F)),
    StableHlo.nullary main_cst_2 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x32, .f32⟩) (broadcastInDim S100000x32 ![] bcast_S_S100000x32),
    StableHlo.TRef.binary (.of main_v25 : StableHlo.TRef sig ⟨S100000x32, .f32⟩) (.of main_call1_v0 : StableHlo.TRef sig ⟨S100000x32, .f32⟩) (.of main_call1_v1 : StableHlo.TRef sig ⟨S100000x32, .i1⟩) (cmpf .oge),
    StableHlo.TRef.unary (.of main_cst_2 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S100000x32, .f32⟩) (broadcastInDim S100000x32 ![] bcast_S_S100000x32),
    StableHlo.TRef.binary (.of main_call1_v3 : StableHlo.TRef sig ⟨S100000x32, .f32⟩) (.of main_v25 : StableHlo.TRef sig ⟨S100000x32, .f32⟩) (.of main_call1_v4 : StableHlo.TRef sig ⟨S100000x32, .f32⟩) mulf,
    StableHlo.TRef.ternary (.of main_call1_v1 : StableHlo.TRef sig ⟨S100000x32, .i1⟩) (.of main_v25 : StableHlo.TRef sig ⟨S100000x32, .f32⟩) (.of main_call1_v4 : StableHlo.TRef sig ⟨S100000x32, .f32⟩) (.of main_v26 : StableHlo.TRef sig ⟨S100000x32, .f32⟩) select,
    StableHlo.binary main_v19 main_v26 main_v27 (addf : (⟨S100000x32, .f32⟩ : BufTy).Contents (Elt F) → (⟨S100000x32, .f32⟩ : BufTy).Contents (Elt F) → (⟨S100000x32, .f32⟩ : BufTy).Contents (Elt F)),
    StableHlo.binary main_v27 main_v27 main_v28 (mulf : (⟨S100000x32, .f32⟩ : BufTy).Contents (Elt F) → (⟨S100000x32, .f32⟩ : BufTy).Contents (Elt F) → (⟨S100000x32, .f32⟩ : BufTy).Contents (Elt F)),
    StableHlo.nullary main_cst_3 (constant S_ .f32 0x00000000#32),
    StableHlo.binary main_v28 main_cst_3 main_v29 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    StableHlo.unary main_v29 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (Host.sqrt : (⟨S100000x1, .f32⟩ : BufTy).Contents (Elt F) → (⟨S100000x1, .f32⟩ : BufTy).Contents (Elt F)),
    StableHlo.nullary main_cst_4 (constant S_ .f32 0x2B8CBCCC#32),
    StableHlo.unary main_cst_4 main_v32 (broadcastInDim S100000x1 ![] bcast_S_S100000x1 : (⟨S_, .f32⟩ : BufTy).Contents (Elt F) → (⟨S100000x1, .f32⟩ : BufTy).Contents (Elt F)),
    StableHlo.binary main_v31 main_v32 main_v33 (maximumf : (⟨S100000x1, .f32⟩ : BufTy).Contents (Elt F) → (⟨S100000x1, .f32⟩ : BufTy).Contents (Elt F) → (⟨S100000x1, .f32⟩ : BufTy).Contents (Elt F)),
    StableHlo.unary main_v33 main_v34 (broadcastInDim S100000x32 ![0, 1] bcast_S100000x1_S100000x32_0_1 : (⟨S100000x1, .f32⟩ : BufTy).Contents (Elt F) → (⟨S100000x32, .f32⟩ : BufTy).Contents (Elt F)),
    StableHlo.binary main_v27 main_v34 main_v35 (Host.divf : (⟨S100000x32, .f32⟩ : BufTy).Contents (Elt F) → (⟨S100000x32, .f32⟩ : BufTy).Contents (Elt F) → (⟨S100000x32, .f32⟩ : BufTy).Contents (Elt F)),
    StableHlo.nullary main_c_5 (constantI S_ 32 0#32),
    StableHlo.unary main_c_5 main_v36 (broadcastInDim S1000000 ![] bcast_S_S1000000 : (⟨S_, .i32⟩ : BufTy).Contents (Elt F) → (⟨S1000000, .i32⟩ : BufTy).Contents (Elt F)),
    StableHlo.binary main_arg10 main_v36 main_v37 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 100000#32),
    StableHlo.unary main_c_6 main_v38 (broadcastInDim S1000000 ![] bcast_S_S1000000 : (⟨S_, .i32⟩ : BufTy).Contents (Elt F) → (⟨S1000000, .i32⟩ : BufTy).Contents (Elt F)),
    StableHlo.binary main_arg10 main_v38 main_v39 (addi : (⟨S1000000, .i32⟩ : BufTy).Contents (Elt F) → (⟨S1000000, .i32⟩ : BufTy).Contents (Elt F) → (⟨S1000000, .i32⟩ : BufTy).Contents (Elt F)),
    StableHlo.ternary main_v37 main_v39 main_arg10 main_v40 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v40 main_v41 (broadcastInDim S1000000x1 ![0] bcast_S1000000_S1000000x1_0 : (⟨S1000000, .i32⟩ : BufTy).Contents (Elt F) → (⟨S1000000x1, .i32⟩ : BufTy).Contents (Elt F)),
    StableHlo.binary main_v27 main_v41 main_v42 ((fun x i => Host.gather gather_S100000x32_S1000000x1_S1000000x32_1_0_n_n_0_1_132 x i) : (⟨S100000x32, .f32⟩ : BufTy).Contents (Elt F) → (⟨S1000000x1, .i32⟩ : BufTy).Contents (Elt F) → (⟨S1000000x32, .f32⟩ : BufTy).Contents (Elt F)),
    StableHlo.unary main_arg9 main_v43 (broadcastInDim S1000000x1 ![0] bcast_S1000000_S1000000x1_0 : (⟨S1000000, .f32⟩ : BufTy).Contents (Elt F) → (⟨S1000000x1, .f32⟩ : BufTy).Contents (Elt F)),
    StableHlo.unary main_v43 main_v44 (broadcastInDim S1000000x32 ![0, 1] bcast_S1000000x1_S1000000x32_0_1 : (⟨S1000000x1, .f32⟩ : BufTy).Contents (Elt F) → (⟨S1000000x32, .f32⟩ : BufTy).Contents (Elt F)),
    StableHlo.binary main_v42 main_v44 main_v45 (mulf : (⟨S1000000x32, .f32⟩ : BufTy).Contents (Elt F) → (⟨S1000000x32, .f32⟩ : BufTy).Contents (Elt F) → (⟨S1000000x32, .f32⟩ : BufTy).Contents (Elt F)),
    StableHlo.nullary main_cst_7 (constant S_ .f32 0x00000000#32),
    StableHlo.unary main_cst_7 main_v46 (broadcastInDim S100000x32 ![] bcast_S_S100000x32 : (⟨S_, .f32⟩ : BufTy).Contents (Elt F) → (⟨S100000x32, .f32⟩ : BufTy).Contents (Elt F)),
    StableHlo.unary main_arg11 main_v47 (broadcastInDim S1000000x1 ![0] bcast_S1000000_S1000000x1_0 : (⟨S1000000, .i32⟩ : BufTy).Contents (Elt F) → (⟨S1000000x1, .i32⟩ : BufTy).Contents (Elt F)),
    StableHlo.ternary main_v46 main_v47 main_v45 main_v48 ((fun x i u => Host.scatterAdd scatter_S100000x32_S1000000x1_S1000000x32_1_0_0_1 x i u) : (⟨S100000x32, .f32⟩ : BufTy).Contents (Elt F) → (⟨S1000000x1, .i32⟩ : BufTy).Contents (Elt F) → (⟨S1000000x32, .f32⟩ : BufTy).Contents (Elt F) → (⟨S100000x32, .f32⟩ : BufTy).Contents (Elt F)),
    StableHlo.binary main_v27 main_v48 main_v49 (addf : (⟨S100000x32, .f32⟩ : BufTy).Contents (Elt F) → (⟨S100000x32, .f32⟩ : BufTy).Contents (Elt F) → (⟨S100000x32, .f32⟩ : BufTy).Contents (Elt F)) ]

/-- The operations of the second window the printed program is cut into, each call replaced by its callee's operations over the call's own buffers. -/
abbrev opsP1 : List (HloOp τ sig (Elt F)) :=
  [ StableHlo.unary main_arg5 main_v50 ((transpose S32x16 [1, 0] · transposes_S16x32_S32x16_1_0) : (⟨S16x32, .f32⟩ : BufTy).Contents (Elt F) → (⟨S32x16, .f32⟩ : BufTy).Contents (Elt F)),
    StableHlo.binary main_v49 main_v50 main_v51 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg6 main_v52 (broadcastInDim S1x16 ![1] bcast_S16_S1x16_1 : (⟨S16, .f32⟩ : BufTy).Contents (Elt F) → (⟨S1x16, .f32⟩ : BufTy).Contents (Elt F)),
    StableHlo.unary main_v52 main_v53 (broadcastInDim S100000x16 ![0, 1] bcast_S1x16_S100000x16_0_1 : (⟨S1x16, .f32⟩ : BufTy).Contents (Elt F) → (⟨S100000x16, .f32⟩ : BufTy).Contents (Elt F)),
    StableHlo.binary main_v51 main_v53 main_v54 (addf : (⟨S100000x16, .f32⟩ : BufTy).Contents (Elt F) → (⟨S100000x16, .f32⟩ : BufTy).Contents (Elt F) → (⟨S100000x16, .f32⟩ : BufTy).Contents (Elt F)),
    StableHlo.nullary main_cst_8 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x16, .f32⟩) (broadcastInDim S100000x16 ![] bcast_S_S100000x16),
    StableHlo.TRef.binary (.of main_v54 : StableHlo.TRef sig ⟨S100000x16, .f32⟩) (.of main_call2_v0 : StableHlo.TRef sig ⟨S100000x16, .f32⟩) (.of main_call2_v1 : StableHlo.TRef sig ⟨S100000x16, .i1⟩) (cmpf .oge),
    StableHlo.TRef.unary (.of main_cst_8 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S100000x16, .f32⟩) (broadcastInDim S100000x16 ![] bcast_S_S100000x16),
    StableHlo.TRef.binary (.of main_call2_v3 : StableHlo.TRef sig ⟨S100000x16, .f32⟩) (.of main_v54 : StableHlo.TRef sig ⟨S100000x16, .f32⟩) (.of main_call2_v4 : StableHlo.TRef sig ⟨S100000x16, .f32⟩) mulf,
    StableHlo.TRef.ternary (.of main_call2_v1 : StableHlo.TRef sig ⟨S100000x16, .i1⟩) (.of main_v54 : StableHlo.TRef sig ⟨S100000x16, .f32⟩) (.of main_call2_v4 : StableHlo.TRef sig ⟨S100000x16, .f32⟩) (.of main_v55 : StableHlo.TRef sig ⟨S100000x16, .f32⟩) select,
    StableHlo.binary main_v27 main_v48 main_v56 (mulf : (⟨S100000x32, .f32⟩ : BufTy).Contents (Elt F) → (⟨S100000x32, .f32⟩ : BufTy).Contents (Elt F) → (⟨S100000x32, .f32⟩ : BufTy).Contents (Elt F)),
    StableHlo.unary main_arg7 main_v57 ((transpose S32x16 [1, 0] · transposes_S16x32_S32x16_1_0) : (⟨S16x32, .f32⟩ : BufTy).Contents (Elt F) → (⟨S32x16, .f32⟩ : BufTy).Contents (Elt F)),
    StableHlo.binary main_v56 main_v57 main_v58 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    StableHlo.unary main_arg8 main_v59 (broadcastInDim S1x16 ![1] bcast_S16_S1x16_1 : (⟨S16, .f32⟩ : BufTy).Contents (Elt F) → (⟨S1x16, .f32⟩ : BufTy).Contents (Elt F)),
    StableHlo.unary main_v59 main_v60 (broadcastInDim S100000x16 ![0, 1] bcast_S1x16_S100000x16_0_1 : (⟨S1x16, .f32⟩ : BufTy).Contents (Elt F) → (⟨S100000x16, .f32⟩ : BufTy).Contents (Elt F)),
    StableHlo.binary main_v58 main_v60 main_v61 (addf : (⟨S100000x16, .f32⟩ : BufTy).Contents (Elt F) → (⟨S100000x16, .f32⟩ : BufTy).Contents (Elt F) → (⟨S100000x16, .f32⟩ : BufTy).Contents (Elt F)),
    StableHlo.nullary main_cst_9 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x16, .f32⟩) (broadcastInDim S100000x16 ![] bcast_S_S100000x16),
    StableHlo.TRef.binary (.of main_v61 : StableHlo.TRef sig ⟨S100000x16, .f32⟩) (.of main_call3_v0 : StableHlo.TRef sig ⟨S100000x16, .f32⟩) (.of main_call3_v1 : StableHlo.TRef sig ⟨S100000x16, .i1⟩) (cmpf .oge),
    StableHlo.TRef.unary (.of main_cst_9 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S100000x16, .f32⟩) (broadcastInDim S100000x16 ![] bcast_S_S100000x16),
    StableHlo.TRef.binary (.of main_call3_v3 : StableHlo.TRef sig ⟨S100000x16, .f32⟩) (.of main_v61 : StableHlo.TRef sig ⟨S100000x16, .f32⟩) (.of main_call3_v4 : StableHlo.TRef sig ⟨S100000x16, .f32⟩) mulf,
    StableHlo.TRef.ternary (.of main_call3_v1 : StableHlo.TRef sig ⟨S100000x16, .i1⟩) (.of main_v61 : StableHlo.TRef sig ⟨S100000x16, .f32⟩) (.of main_call3_v4 : StableHlo.TRef sig ⟨S100000x16, .f32⟩) (.of main_v62 : StableHlo.TRef sig ⟨S100000x16, .f32⟩) select,
    StableHlo.binary main_v55 main_v62 main_v63 (addf : (⟨S100000x16, .f32⟩ : BufTy).Contents (Elt F) → (⟨S100000x16, .f32⟩ : BufTy).Contents (Elt F) → (⟨S100000x16, .f32⟩ : BufTy).Contents (Elt F)),
    StableHlo.binary main_v63 main_v63 main_v64 (mulf : (⟨S100000x16, .f32⟩ : BufTy).Contents (Elt F) → (⟨S100000x16, .f32⟩ : BufTy).Contents (Elt F) → (⟨S100000x16, .f32⟩ : BufTy).Contents (Elt F)),
    StableHlo.nullary main_cst_10 (constant S_ .f32 0x00000000#32),
    StableHlo.binary main_v64 main_cst_10 main_v65 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    StableHlo.unary main_v65 main_v66 (broadcastInDim S100000x1 ![0] bcast_S100000_S100000x1_0 : (⟨S100000, .f32⟩ : BufTy).Contents (Elt F) → (⟨S100000x1, .f32⟩ : BufTy).Contents (Elt F)),
    StableHlo.unary main_v66 main_v67 (Host.sqrt : (⟨S100000x1, .f32⟩ : BufTy).Contents (Elt F) → (⟨S100000x1, .f32⟩ : BufTy).Contents (Elt F)),
    StableHlo.nullary main_cst_11 (constant S_ .f32 0x2B8CBCCC#32),
    StableHlo.unary main_cst_11 main_v68 (broadcastInDim S100000x1 ![] bcast_S_S100000x1 : (⟨S_, .f32⟩ : BufTy).Contents (Elt F) → (⟨S100000x1, .f32⟩ : BufTy).Contents (Elt F)),
    StableHlo.binary main_v67 main_v68 main_v69 (maximumf : (⟨S100000x1, .f32⟩ : BufTy).Contents (Elt F) → (⟨S100000x1, .f32⟩ : BufTy).Contents (Elt F) → (⟨S100000x1, .f32⟩ : BufTy).Contents (Elt F)),
    StableHlo.unary main_v69 main_v70 (broadcastInDim S100000x16 ![0, 1] bcast_S100000x1_S100000x16_0_1 : (⟨S100000x1, .f32⟩ : BufTy).Contents (Elt F) → (⟨S100000x16, .f32⟩ : BufTy).Contents (Elt F)),
    StableHlo.binary main_v63 main_v70 main_v71 (Host.divf : (⟨S100000x16, .f32⟩ : BufTy).Contents (Elt F) → (⟨S100000x16, .f32⟩ : BufTy).Contents (Elt F) → (⟨S100000x16, .f32⟩ : BufTy).Contents (Elt F)),
    StableHlo.nary ![main_arg0, main_v35, main_v71] main_v72 (fun u => concatenate S100000x112 1 [⟨S100000x64, u 0⟩, ⟨S100000x32, u 1⟩, ⟨S100000x16, u 2⟩] concatenates_S100000x64_S100000x32_S100000x16_S100000x112_d1),
    StableHlo.nullary main_c_12 (constantI S_ 32 0#32),
    StableHlo.unary main_c_12 main_v73 (broadcastInDim S8192 ![] bcast_S_S8192 : (⟨S_, .i32⟩ : BufTy).Contents (Elt F) → (⟨S8192, .i32⟩ : BufTy).Contents (Elt F)),
    StableHlo.binary main_arg12 main_v73 main_v74 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 100000#32),
    StableHlo.unary main_c_13 main_v75 (broadcastInDim S8192 ![] bcast_S_S8192 : (⟨S_, .i32⟩ : BufTy).Contents (Elt F) → (⟨S8192, .i32⟩ : BufTy).Contents (Elt F)),
    StableHlo.binary main_arg12 main_v75 main_v76 (addi : (⟨S8192, .i32⟩ : BufTy).Contents (Elt F) → (⟨S8192, .i32⟩ : BufTy).Contents (Elt F) → (⟨S8192, .i32⟩ : BufTy).Contents (Elt F)),
    StableHlo.ternary main_v74 main_v76 main_arg12 main_v77 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v77 main_v78 (broadcastInDim S8192x1 ![0] bcast_S8192_S8192x1_0 : (⟨S8192, .i32⟩ : BufTy).Contents (Elt F) → (⟨S8192x1, .i32⟩ : BufTy).Contents (Elt F)),
    StableHlo.binary main_v72 main_v78 main_v79 ((fun x i => Host.gather gather_S100000x112_S8192x1_S8192x112_1_0_n_n_0_1_1112 x i) : (⟨S100000x112, .f32⟩ : BufTy).Contents (Elt F) → (⟨S8192x1, .i32⟩ : BufTy).Contents (Elt F) → (⟨S8192x112, .f32⟩ : BufTy).Contents (Elt F)),
    StableHlo.nullary main_c_14 (constantI S_ 32 0#32),
    StableHlo.unary main_c_14 main_v80 (broadcastInDim S8192 ![] bcast_S_S8192 : (⟨S_, .i32⟩ : BufTy).Contents (Elt F) → (⟨S8192, .i32⟩ : BufTy).Contents (Elt F)),
    StableHlo.binary main_arg13 main_v80 main_v81 (cmpi .slt : (⟨S8192, .i32⟩ : BufTy).Contents (Elt F) → (⟨S8192, .i32⟩ : BufTy).Contents (Elt F) → (⟨S8192, .i1⟩ : BufTy).Contents (Elt F)),
    StableHlo.nullary main_c_15 (constantI S_ 32 100000#32),
    StableHlo.unary main_c_15 main_v82 (broadcastInDim S8192 ![] bcast_S_S8192 : (⟨S_, .i32⟩ : BufTy).Contents (Elt F) → (⟨S8192, .i32⟩ : BufTy).Contents (Elt F)),
    StableHlo.binary main_arg13 main_v82 main_v83 (addi : (⟨S8192, .i32⟩ : BufTy).Contents (Elt F) → (⟨S8192, .i32⟩ : BufTy).Contents (Elt F) → (⟨S8192, .i32⟩ : BufTy).Contents (Elt F)),
    StableHlo.ternary main_v81 main_v83 main_arg13 main_v84 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v84 main_v85 (broadcastInDim S8192x1 ![0] bcast_S8192_S8192x1_0 : (⟨S8192, .i32⟩ : BufTy).Contents (Elt F) → (⟨S8192x1, .i32⟩ : BufTy).Contents (Elt F)),
    StableHlo.binary main_v72 main_v85 main_v86 ((fun x i => Host.gather gather_S100000x112_S8192x1_S8192x112_1_0_n_n_0_1_1112 x i) : (⟨S100000x112, .f32⟩ : BufTy).Contents (Elt F) → (⟨S8192x1, .i32⟩ : BufTy).Contents (Elt F) → (⟨S8192x112, .f32⟩ : BufTy).Contents (Elt F)),
    StableHlo.nullary main_c_16 (constantI S_ 32 0#32),
    StableHlo.unary main_c_16 main_v87 (broadcastInDim S8192 ![] bcast_S_S8192 : (⟨S_, .i32⟩ : BufTy).Contents (Elt F) → (⟨S8192, .i32⟩ : BufTy).Contents (Elt F)),
    StableHlo.binary main_arg14 main_v87 main_v88 (cmpi .slt : (⟨S8192, .i32⟩ : BufTy).Contents (Elt F) → (⟨S8192, .i32⟩ : BufTy).Contents (Elt F) → (⟨S8192, .i1⟩ : BufTy).Contents (Elt F)),
    StableHlo.nullary main_c_17 (constantI S_ 32 100000#32),
    StableHlo.unary main_c_17 main_v89 (broadcastInDim S8192 ![] bcast_S_S8192 : (⟨S_, .i32⟩ : BufTy).Contents (Elt F) → (⟨S8192, .i32⟩ : BufTy).Contents (Elt F)),
    StableHlo.binary main_arg14 main_v89 main_v90 (addi : (⟨S8192, .i32⟩ : BufTy).Contents (Elt F) → (⟨S8192, .i32⟩ : BufTy).Contents (Elt F) → (⟨S8192, .i32⟩ : BufTy).Contents (Elt F)),
    StableHlo.ternary main_v88 main_v90 main_arg14 main_v91 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v91 main_v92 (broadcastInDim S8192x1 ![0] bcast_S8192_S8192x1_0 : (⟨S8192, .i32⟩ : BufTy).Contents (Elt F) → (⟨S8192x1, .i32⟩ : BufTy).Contents (Elt F)),
    StableHlo.binary main_v72 main_v92 main_v93 ((fun x i => Host.gather gather_S100000x112_S8192x1_S8192x112_1_0_n_n_0_1_1112 x i) : (⟨S100000x112, .f32⟩ : BufTy).Contents (Elt F) → (⟨S8192x1, .i32⟩ : BufTy).Contents (Elt F) → (⟨S8192x112, .f32⟩ : BufTy).Contents (Elt F)),
    StableHlo.binary main_v79 main_v86 main_v94 (mulf : (⟨S8192x112, .f32⟩ : BufTy).Contents (Elt F) → (⟨S8192x112, .f32⟩ : BufTy).Contents (Elt F) → (⟨S8192x112, .f32⟩ : BufTy).Contents (Elt F)),
    StableHlo.nullary main_cst_18 (constant S_ .f32 0x00000000#32),
    StableHlo.binary main_v94 main_cst_18 main_v95 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)),
    StableHlo.binary main_v79 main_v93 main_v96 (mulf : (⟨S8192x112, .f32⟩ : BufTy).Contents (Elt F) → (⟨S8192x112, .f32⟩ : BufTy).Contents (Elt F) → (⟨S8192x112, .f32⟩ : BufTy).Contents (Elt F)),
    StableHlo.nullary main_cst_19 (constant S_ .f32 0x00000000#32),
    StableHlo.binary main_v96 main_cst_19 main_v97 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)) ]

/-- The operations of the third window the printed program is cut into, each call replaced by its callee's operations over the call's own buffers. -/
abbrev opsP2 : List (HloOp τ sig (Elt F)) :=
  [ StableHlo.binary main_v95 main_v97 main_v98 (subf : (⟨S8192, .f32⟩ : BufTy).Contents (Elt F) → (⟨S8192, .f32⟩ : BufTy).Contents (Elt F) → (⟨S8192, .f32⟩ : BufTy).Contents (Elt F)),
    StableHlo.unary main_v98 main_v99 (Host.negf : (⟨S8192, .f32⟩ : BufTy).Contents (Elt F) → (⟨S8192, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S8192, .f32⟩) (broadcastInDim S8192 ![] bcast_S_S8192),
    StableHlo.TRef.binary (.of main_v99 : StableHlo.TRef sig ⟨S8192, .f32⟩) (.of main_call4_v0 : StableHlo.TRef sig ⟨S8192, .f32⟩) (.of main_call4_v1 : StableHlo.TRef sig ⟨S8192, .f32⟩) maximumf,
    StableHlo.TRef.unary (.of main_call4_cst : StableHlo.TRef sig ⟨S_, .f32⟩) (.of main_call4_v2 : StableHlo.TRef sig ⟨S8192, .f32⟩) (broadcastInDim S8192 ![] bcast_S_S8192),
    StableHlo.TRef.binary (.of main_v99 : StableHlo.TRef sig ⟨S8192, .f32⟩) (.of main_call4_v2 : StableHlo.TRef sig ⟨S8192, .f32⟩) (.of main_call4_v3 : StableHlo.TRef sig ⟨S8192, .f32⟩) subf,
    StableHlo.TRef.binary (.of main_call4_v3 : StableHlo.TRef sig ⟨S8192, .f32⟩) (.of main_call4_v3 : StableHlo.TRef sig ⟨S8192, .f32⟩) (.of main_call4_v4 : StableHlo.TRef sig ⟨S8192, .i1⟩) (cmpf .une),
    StableHlo.TRef.unary (.of main_call4_cst : StableHlo.TRef sig ⟨S_, .f32⟩) (.of main_call4_v5 : StableHlo.TRef sig ⟨S8192, .f32⟩) (broadcastInDim S8192 ![] bcast_S_S8192),
    StableHlo.TRef.binary (.of main_v99 : StableHlo.TRef sig ⟨S8192, .f32⟩) (.of main_call4_v5 : StableHlo.TRef sig ⟨S8192, .f32⟩) (.of main_call4_v6 : StableHlo.TRef sig ⟨S8192, .f32⟩) addf,
    StableHlo.TRef.unary (.of main_call4_v3 : StableHlo.TRef sig ⟨S8192, .f32⟩) (.of main_call4_v7 : StableHlo.TRef sig ⟨S8192, .f32⟩) Host.absf,
    StableHlo.TRef.unary (.of main_call4_v7 : StableHlo.TRef sig ⟨S8192, .f32⟩) (.of main_call4_v8 : StableHlo.TRef sig ⟨S8192, .f32⟩) Host.negf,
    StableHlo.TRef.unary (.of main_call4_v8 : StableHlo.TRef sig ⟨S8192, .f32⟩) (.of main_call4_v9 : StableHlo.TRef sig ⟨S8192, .f32⟩) Host.exp,
    StableHlo.TRef.unary (.of main_call4_v9 : StableHlo.TRef sig ⟨S8192, .f32⟩) (.of main_call4_v10 : StableHlo.TRef sig ⟨S8192, .f32⟩) Host.log1p,
    StableHlo.TRef.binary (.of main_call4_v1 : StableHlo.TRef sig ⟨S8192, .f32⟩) (.of main_call4_v10 : StableHlo.TRef sig ⟨S8192, .f32⟩) (.of main_call4_v11 : StableHlo.TRef sig ⟨S8192, .f32⟩) addf,
    StableHlo.TRef.ternary (.of main_call4_v4 : StableHlo.TRef sig ⟨S8192, .i1⟩) (.of main_call4_v6 : StableHlo.TRef sig ⟨S8192, .f32⟩) (.of main_call4_v11 : StableHlo.TRef sig ⟨S8192, .f32⟩) (.of main_v100 : StableHlo.TRef sig ⟨S8192, .f32⟩) select,
    StableHlo.nullary main_cst_20 (constant S_ .f32 0x00000000#32),
    StableHlo.binary main_v100 main_cst_20 main_v101 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v79 main_v79 main_v102 (mulf : (⟨S8192x112, .f32⟩ : BufTy).Contents (Elt F) → (⟨S8192x112, .f32⟩ : BufTy).Contents (Elt F) → (⟨S8192x112, .f32⟩ : BufTy).Contents (Elt F)),
    StableHlo.nullary main_cst_21 (constant S_ .f32 0x00000000#32),
    StableHlo.binary main_v102 main_cst_21 main_v103 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)),
    StableHlo.nullary main_cst_22 (constant S_ .f32 0x40000000#32),
    StableHlo.unary main_cst_22 main_v104 (broadcastInDim S8192 ![] bcast_S_S8192 : (⟨S_, .f32⟩ : BufTy).Contents (Elt F) → (⟨S8192, .f32⟩ : BufTy).Contents (Elt F)),
    StableHlo.binary main_v103 main_v104 main_v105 (Host.divf : (⟨S8192, .f32⟩ : BufTy).Contents (Elt F) → (⟨S8192, .f32⟩ : BufTy).Contents (Elt F) → (⟨S8192, .f32⟩ : BufTy).Contents (Elt F)),
    StableHlo.nullary main_cst_23 (constant S_ .f32 0x00000000#32),
    StableHlo.binary main_v105 main_cst_23 main_v106 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v86 main_v86 main_v107 (mulf : (⟨S8192x112, .f32⟩ : BufTy).Contents (Elt F) → (⟨S8192x112, .f32⟩ : BufTy).Contents (Elt F) → (⟨S8192x112, .f32⟩ : BufTy).Contents (Elt F)),
    StableHlo.nullary main_cst_24 (constant S_ .f32 0x00000000#32),
    StableHlo.binary main_v107 main_cst_24 main_v108 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)),
    StableHlo.nullary main_cst_25 (constant S_ .f32 0x40000000#32),
    StableHlo.unary main_cst_25 main_v109 (broadcastInDim S8192 ![] bcast_S_S8192 : (⟨S_, .f32⟩ : BufTy).Contents (Elt F) → (⟨S8192, .f32⟩ : BufTy).Contents (Elt F)),
    StableHlo.binary main_v108 main_v109 main_v110 (Host.divf : (⟨S8192, .f32⟩ : BufTy).Contents (Elt F) → (⟨S8192, .f32⟩ : BufTy).Contents (Elt F) → (⟨S8192, .f32⟩ : BufTy).Contents (Elt F)),
    StableHlo.nullary main_cst_26 (constant S_ .f32 0x00000000#32),
    StableHlo.binary main_v110 main_cst_26 main_v111 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v106 main_v111 main_v112 (addf : (⟨S_, .f32⟩ : BufTy).Contents (Elt F) → (⟨S_, .f32⟩ : BufTy).Contents (Elt F) → (⟨S_, .f32⟩ : BufTy).Contents (Elt F)),
    StableHlo.binary main_v93 main_v93 main_v113 (mulf : (⟨S8192x112, .f32⟩ : BufTy).Contents (Elt F) → (⟨S8192x112, .f32⟩ : BufTy).Contents (Elt F) → (⟨S8192x112, .f32⟩ : BufTy).Contents (Elt F)),
    StableHlo.nullary main_cst_27 (constant S_ .f32 0x00000000#32),
    StableHlo.binary main_v113 main_cst_27 main_v114 ((fun x v => Host.reduceAdd x v reducesTo_S8192x112_S8192_d1 h_S_) : (⟨S8192x112, .f32⟩ : BufTy).Contents (Elt F) → (⟨S_, .f32⟩ : BufTy).Contents (Elt F) → (⟨S8192, .f32⟩ : BufTy).Contents (Elt F)),
    StableHlo.nullary main_cst_28 (constant S_ .f32 0x40000000#32),
    StableHlo.unary main_cst_28 main_v115 (broadcastInDim S8192 ![] bcast_S_S8192 : (⟨S_, .f32⟩ : BufTy).Contents (Elt F) → (⟨S8192, .f32⟩ : BufTy).Contents (Elt F)),
    StableHlo.binary main_v114 main_v115 main_v116 (Host.divf : (⟨S8192, .f32⟩ : BufTy).Contents (Elt F) → (⟨S8192, .f32⟩ : BufTy).Contents (Elt F) → (⟨S8192, .f32⟩ : BufTy).Contents (Elt F)),
    StableHlo.nullary main_cst_29 (constant S_ .f32 0x00000000#32),
    StableHlo.binary main_v116 main_cst_29 main_v117 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.binary main_v112 main_v117 main_v118 (addf : (⟨S_, .f32⟩ : BufTy).Contents (Elt F) → (⟨S_, .f32⟩ : BufTy).Contents (Elt F) → (⟨S_, .f32⟩ : BufTy).Contents (Elt F)),
    StableHlo.nullary main_cst_30 (constant S_ .f32 0x3727C5AC#32),
    StableHlo.binary main_cst_30 main_v118 main_v119 (mulf : (⟨S_, .f32⟩ : BufTy).Contents (Elt F) → (⟨S_, .f32⟩ : BufTy).Contents (Elt F) → (⟨S_, .f32⟩ : BufTy).Contents (Elt F)) ]

/-- The three windows in order are the five stretches in order: the same operations, cut at other places. -/
theorem ops_eq : (opsP0 ++ (opsP1 ++ opsP2) : List (HloOp τ sig (Elt F))) = ops := rfl

-- seventy-two binds re-associated: the rewrite under the chain recurses once per statement
set_option maxRecDepth 4096 in
/-- The first window is the straight line of its operations: the callees unfolded at their calls, both sides are one
    chain of steps once sequencing is re-associated. -/
theorem part0_eq (c : Dev nD) : main_part0 (F := F) c = seq opsP0 := by
  simp only [main_part0, fn_leaky_relu.body, fn_where.body, seq, bind_assoc, pure_bind]
  rfl

set_option maxRecDepth 4096 in
theorem part1_eq (c : Dev nD) : main_part1 (F := F) c = seq opsP1 := by
  simp only [main_part1, fn_leaky_relu_0.body, fn_where_1.body, seq, bind_assoc, pure_bind]
  rfl

set_option maxRecDepth 4096 in
theorem part2_eq (c : Dev nD) : main_part2 (F := F) c = seq opsP2 := by
  simp only [main_part2, fn_softplus.body, seq, bind_assoc, pure_bind]

/-- The program is the straight line of its operations. -/
theorem main_eq (c : Dev nD) : main (F := F) c = seq ops := by
  have h : main (F := F) c = (seq opsP0 >>= fun _ => seq opsP1 >>= fun _ => seq opsP2) := by
    rw [← part0_eq c, ← part1_eq c, ← part2_eq c]; rfl
  rw [h, ← seq_append, ← seq_append]
  exact congrArg seq ops_eq

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

theorem opsA0_sub : (opsA0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsA0_fresh : (opsA0 : List (HloOp τ sig (Elt F))).Forall fun op => op.fresh = ∅ :=
  ⟨rfl, rfl, rfl, rfl, rfl, rfl, rfl, rfl, rfl, rfl, rfl, rfl, rfl, rfl, rfl, rfl⟩

theorem opsD0_sub : (opsD0 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsD0_fresh : (opsD0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsA1_sub : (opsA1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem opsA1_fresh : (opsA1 : List (HloOp τ sig (Elt F))).Forall fun op => op.fresh = ∅ :=
  ⟨rfl, rfl, rfl, rfl, rfl, rfl, rfl, rfl, rfl, rfl, rfl, rfl, rfl, rfl, rfl, rfl⟩

theorem opsD1_sub : (opsD1 : List (HloOp τ sig (Elt F))).Forall fun op => op.bufs ⊆ tcRefs τ sig :=
  ⟨binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsD1_fresh : (opsD1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsT_sub : (opsT : List (HloOp τ sig (Elt F))).Forall fun op => op.bufs ⊆ tcRefs τ sig :=
  ⟨nary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., binary_bufs_sub .., binary_bufs_sub .., nullary_bufs_sub .., binary_bufs_sub .., nullary_bufs_sub .., unary_bufs_sub .., binary_bufs_sub .., nullary_bufs_sub .., binary_bufs_sub .., binary_bufs_sub .., nullary_bufs_sub .., binary_bufs_sub .., nullary_bufs_sub .., unary_bufs_sub .., binary_bufs_sub .., nullary_bufs_sub .., binary_bufs_sub .., binary_bufs_sub .., binary_bufs_sub .., nullary_bufs_sub .., binary_bufs_sub .., nullary_bufs_sub .., unary_bufs_sub .., binary_bufs_sub .., nullary_bufs_sub .., binary_bufs_sub .., binary_bufs_sub .., nullary_bufs_sub .., binary_bufs_sub ..⟩
theorem opsT_fresh : (opsT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- A property of every operation of two lines holds of every operation of their concatenation. -/
theorem forall_append {α : Type _} {p : α → Prop} : ∀ {l₁ l₂ : List α}, l₁.Forall p → l₂.Forall p → (l₁ ++ l₂).Forall p := by
  intro l₁ l₂ h₁ h₂
  rw [List.forall_iff_forall_mem] at h₁ h₂ ⊢
  intro a ha
  rcases List.mem_append.mp ha with h | h
  · exact h₁ a h
  · exact h₂ a h

theorem ops_sub : (ops : List (HloOp τ sig (Elt F))).Forall fun op => op.bufs ⊆ tcRefs τ sig :=
  forall_append (forall_append (forall_append (forall_append opsA0_sub opsD0_sub) opsA1_sub) opsD1_sub) opsT_sub

theorem ops_fresh : ∀ op ∈ (ops : List (HloOp τ sig (Elt F))), op.fresh = ∅ :=
  List.forall_iff_forall_mem.mp
    (forall_append (forall_append (forall_append (forall_append opsA0_fresh opsD0_fresh) opsA1_fresh) opsD1_fresh) opsT_fresh)

/-! ## The contents after the program, stretch by stretch -/

/-- The contents after two lines run one after the other: the second's, from the first's. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

theorem after_ops (V : Valuation τ sig (Elt F)) :
    after ops V = after opsT (after opsD1 (after opsA1 (after opsD0 (after opsA0 V)))) := by
  simp only [ops, after_append]

/-! ## What each stretch writes -/

/-- The references the operations of this stretch write. -/
abbrev opsA0_W : List (Ref sig .tc) := [main_c, main_v0, main_v1, main_c_0, main_v2, main_v3, main_v4, main_v5, main_v6, main_v7, main_v8, main_v9, main_cst, main_v10, main_v11, main_v12]
theorem opsA0_writes : (opsA0 : List (HloOp τ sig (Elt F))).Forall fun op => op.writes ⊆ (opsA0_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide)⟩
/-- A buffer the stretch does not write keeps its contents. -/
theorem opsA0_keep (V : Valuation τ sig (Elt F)) (r : Ref sig .tc) (h : r ∉ opsA0_W) :
    after opsA0 V (Proc.devRef .tc r) = V (Proc.devRef .tc r) :=
  after_of_writes_sub opsA0 V opsA0_writes h

/-- The references the operations of this stretch write. -/
abbrev opsD0_W : List (Ref sig .tc) := [main_v13, main_v14, main_v15, main_v16, main_v17, main_v18, main_cst_1, main_call0_cst, main_call0_v0, main_call0_v1, main_call0_v2, main_call0_v3, main_call0_v4, main_v19, main_v20, main_v21, main_v22, main_v23, main_v24, main_v25, main_cst_2, main_call1_cst, main_call1_v0, main_call1_v1, main_call1_v2, main_call1_v3, main_call1_v4, main_v26, main_v27, main_v28, main_cst_3, main_v29, main_v30, main_v31, main_cst_4, main_v32, main_v33, main_v34, main_v35]
theorem opsD0_writes : (opsD0 : List (HloOp τ sig (Elt F))).Forall fun op => op.writes ⊆ (opsD0_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide)⟩
/-- A buffer the stretch does not write keeps its contents. -/
theorem opsD0_keep (V : Valuation τ sig (Elt F)) (r : Ref sig .tc) (h : r ∉ opsD0_W) :
    after opsD0 V (Proc.devRef .tc r) = V (Proc.devRef .tc r) :=
  after_of_writes_sub opsD0 V opsD0_writes h

/-- The references the operations of this stretch write. -/
abbrev opsA1_W : List (Ref sig .tc) := [main_c_5, main_v36, main_v37, main_c_6, main_v38, main_v39, main_v40, main_v41, main_v42, main_v43, main_v44, main_v45, main_cst_7, main_v46, main_v47, main_v48]
theorem opsA1_writes : (opsA1 : List (HloOp τ sig (Elt F))).Forall fun op => op.writes ⊆ (opsA1_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide)⟩
/-- A buffer the stretch does not write keeps its contents. -/
theorem opsA1_keep (V : Valuation τ sig (Elt F)) (r : Ref sig .tc) (h : r ∉ opsA1_W) :
    after opsA1 V (Proc.devRef .tc r) = V (Proc.devRef .tc r) :=
  after_of_writes_sub opsA1 V opsA1_writes h

/-- The references the operations of this stretch write. -/
abbrev opsD1_W : List (Ref sig .tc) := [main_v49, main_v50, main_v51, main_v52, main_v53, main_v54, main_cst_8, main_call2_cst, main_call2_v0, main_call2_v1, main_call2_v2, main_call2_v3, main_call2_v4, main_v55, main_v56, main_v57, main_v58, main_v59, main_v60, main_v61, main_cst_9, main_call3_cst, main_call3_v0, main_call3_v1, main_call3_v2, main_call3_v3, main_call3_v4, main_v62, main_v63, main_v64, main_cst_10, main_v65, main_v66, main_v67, main_cst_11, main_v68, main_v69, main_v70, main_v71]
theorem opsD1_writes : (opsD1 : List (HloOp τ sig (Elt F))).Forall fun op => op.writes ⊆ (opsD1_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide)⟩
/-- A buffer the stretch does not write keeps its contents. -/
theorem opsD1_keep (V : Valuation τ sig (Elt F)) (r : Ref sig .tc) (h : r ∉ opsD1_W) :
    after opsD1 V (Proc.devRef .tc r) = V (Proc.devRef .tc r) :=
  after_of_writes_sub opsD1 V opsD1_writes h

/-- The references the operations of this stretch write. -/
abbrev opsT_W : List (Ref sig .tc) := [main_v72, main_c_12, main_v73, main_v74, main_c_13, main_v75, main_v76, main_v77, main_v78, main_v79, main_c_14, main_v80, main_v81, main_c_15, main_v82, main_v83, main_v84, main_v85, main_v86, main_c_16, main_v87, main_v88, main_c_17, main_v89, main_v90, main_v91, main_v92, main_v93, main_v94, main_cst_18, main_v95, main_v96, main_cst_19, main_v97, main_v98, main_v99, main_call4_cst, main_call4_v0, main_call4_v1, main_call4_v2, main_call4_v3, main_call4_v4, main_call4_v5, main_call4_v6, main_call4_v7, main_call4_v8, main_call4_v9, main_call4_v10, main_call4_v11, main_v100, main_cst_20, main_v101, main_v102, main_cst_21, main_v103, main_cst_22, main_v104, main_v105, main_cst_23, main_v106, main_v107, main_cst_24, main_v108, main_cst_25, main_v109, main_v110, main_cst_26, main_v111, main_v112, main_v113, main_cst_27, main_v114, main_cst_28, main_v115, main_v116, main_cst_29, main_v117, main_v118, main_cst_30, main_v119]
theorem opsT_writes : (opsT : List (HloOp τ sig (Elt F))).Forall fun op => op.writes ⊆ (opsT_W.map (Proc.devRef (τ := τ) .tc)).toFinset := by
  simp only [List.Forall]; exact ⟨by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide), by simp only [nullary_writes, unary_writes, binary_writes, ternary_writes, nary_writes, Finset.singleton_subset_iff, List.mem_toFinset]; exact List.mem_map_of_mem (by decide)⟩
/-- A buffer the stretch does not write keeps its contents. -/
theorem opsT_keep (V : Valuation τ sig (Elt F)) (r : Ref sig .tc) (h : r ∉ opsT_W) :
    after opsT V (Proc.devRef .tc r) = V (Proc.devRef .tc r) :=
  after_of_writes_sub opsT V opsT_writes h

end Cert.ReferenceIdeal.Hand

end
-- ==== Proof.RefRun.lean ====
import proofs.«111316_j86440511799625_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer none of the five stretches writes holds after the program what it held before. -/
theorem ops_keep (V : Valuation τ sig (Elt F)) (r : Ref sig .tc) (h0 : r ∉ opsA0_W) (h1 : r ∉ opsD0_W) (h2 : r ∉ opsA1_W)
    (h3 : r ∉ opsD1_W) (h4 : r ∉ opsT_W) : after ops V (Proc.devRef .tc r) = V (Proc.devRef .tc r) := by
  rw [after_ops, opsT_keep _ r h4, opsD1_keep _ r h3, opsA1_keep _ r h2, opsD0_keep _ r h1, opsA0_keep _ r h0]

/-- On every device, for any float values, from any memory with zero counters: every weakly fair execution of the
    program terminates, and every final state has each buffer at the operations' fold over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

-- membership of a reference in a list of eighty, decided: the comparison recurses past the default depth
set_option maxRecDepth 4096 in
/-- No operation writes an argument: every argument ends holding its launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_arg0).trans (ops_keep _ main_arg0 (by decide) (by decide) (by decide) (by decide) (by decide)),
      (h c main_arg1).trans (ops_keep _ main_arg1 (by decide) (by decide) (by decide) (by decide) (by decide)),
      (h c main_arg2).trans (ops_keep _ main_arg2 (by decide) (by decide) (by decide) (by decide) (by decide)),
      (h c main_arg3).trans (ops_keep _ main_arg3 (by decide) (by decide) (by decide) (by decide) (by decide)),
      (h c main_arg4).trans (ops_keep _ main_arg4 (by decide) (by decide) (by decide) (by decide) (by decide)),
      (h c main_arg5).trans (ops_keep _ main_arg5 (by decide) (by decide) (by decide) (by decide) (by decide)),
      (h c main_arg6).trans (ops_keep _ main_arg6 (by decide) (by decide) (by decide) (by decide) (by decide)),
      (h c main_arg7).trans (ops_keep _ main_arg7 (by decide) (by decide) (by decide) (by decide) (by decide)),
      (h c main_arg8).trans (ops_keep _ main_arg8 (by decide) (by decide) (by decide) (by decide) (by decide)),
      (h c main_arg9).trans (ops_keep _ main_arg9 (by decide) (by decide) (by decide) (by decide) (by decide)),
      (h c main_arg10).trans (ops_keep _ main_arg10 (by decide) (by decide) (by decide) (by decide) (by decide)),
      (h c main_arg11).trans (ops_keep _ main_arg11 (by decide) (by decide) (by decide) (by decide) (by decide)),
      (h c main_arg12).trans (ops_keep _ main_arg12 (by decide) (by decide) (by decide) (by decide) (by decide)),
      (h c main_arg13).trans (ops_keep _ main_arg13 (by decide) (by decide) (by decide) (by decide) (by decide)),
      (h c main_arg14).trans (ops_keep _ main_arg14 (by decide) (by decide) (by decide) (by decide) (by decide))⟩)
    (run_raw m ρ)

end Cert.ReferenceIdeal.Hand

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.LayerSpec.lean ====
/-
  The mathematics both programs compute in one dense layer, stated index by index over the extended reals and over
  literal shapes only (no program is imported).

  For node features `x` and aggregated neighbour features `e` (both `[M, K]`), weights `w₁ w₂ : [N, K]` and biases
  `b₁ b₂ : [N]`, the layer's raw output at row `r`, column `j` is
      leaky (∑ₖ (x r k + e r k) · w₁ j k + b₁ j) + leaky (∑ₖ (x r k · e r k) · w₂ j k + b₂ j),
  where `leaky z` is `z` when `z ≥ 0` and `slope · z` otherwise, and the normalised output divides each row by
  `max (√(∑ₗ raw r l ²)) ε`. The slope and `ε` are kept as their binary words: both programs carry the same words,
  so they are never evaluated.
-/
import Idealize.ShloMosaic.PureOps.Ideal.Laws
import Idealize.ShloMosaic.Lib.ValueIdx

noncomputable section

namespace Cert.LayerSpec

open Idealize.ShloMosaic Idealize.ShloMosaic.ValueIdx

/-- The leaky rectifier on the extended reals: the identity on `z ≥ 0`, the slope word times `z` below. -/
def leaky (z : EReal) : EReal :=
  Scalar.select (FloatOps.cmpf (F := Ideal) (φ := .f32) .oge z (Ideal.ofBits .f32 0x00000000#32)) z
    (Ideal.ofBits .f32 0x3C23D70A#32 * z)

/-- One affine map: row `r` of `x` against row `j` of `w`, plus the bias. -/
def lin {M K N : ℕ} (x : (⟨2, ![M, K]⟩ : Shape).Idx → EReal) (w : (⟨2, ![N, K]⟩ : Shape).Idx → EReal)
    (b : (⟨1, ![N]⟩ : Shape).Idx → EReal) (r : Fin M) (j : Fin N) : EReal :=
  ∑ k : Fin K, x (ix2 r k) * w (ix2 j k) + b (ix1 j)

/-- The layer's raw output: the rectified affine map of the sum `x + e` plus that of the product `x · e`. -/
def raw {M K N : ℕ} (x e : (⟨2, ![M, K]⟩ : Shape).Idx → EReal) (w₁ : (⟨2, ![N, K]⟩ : Shape).Idx → EReal)
    (b₁ : (⟨1, ![N]⟩ : Shape).Idx → EReal) (w₂ : (⟨2, ![N, K]⟩ : Shape).Idx → EReal) (b₂ : (⟨1, ![N]⟩ : Shape).Idx → EReal)
    (r : Fin M) (j : Fin N) : EReal :=
  leaky (lin (fun i => x i + e i) w₁ b₁ r j) + leaky (lin (fun i => x i * e i) w₂ b₂ r j)

/-- A row's divisor: its Euclidean norm, floored at the word `ε`. -/
def denom {M N : ℕ} (R : Fin M → Fin N → EReal) (r : Fin M) : EReal :=
  max (Ideal.sqrt (∑ l : Fin N, R r l * R r l)) (Ideal.ofBits .f32 0x2B8CBCCC#32)

/-- The row-normalised output. -/
def normed {M N : ℕ} (R : Fin M → Fin N → EReal) (r : Fin M) (j : Fin N) : EReal :=
  Ideal.div (R r j) (denom R r)

/-- An array given by its entries at (row, column). -/
def ofCoords {M N : ℕ} (f : Fin M → Fin N → EReal) : (⟨2, ![M, N]⟩ : Shape).Idx → EReal := fun i => f (i 0) (i 1)

/-- Such an array read at the index with coordinates `(a, b)` is the entry at `(a, b)`. -/
theorem ofCoords_ix2 {M N : ℕ} (f : Fin M → Fin N → EReal) (a : Fin M) (b : Fin N) : ofCoords f (ix2 a b) = f a b := rfl

/-- Two arrays that agree at every pair of coordinates are equal. -/
theorem ext_ix2 {M N : ℕ} {α : Type} (f g : (⟨2, ![M, N]⟩ : Shape).Idx → α) (h : ∀ a b, f (ix2 a b) = g (ix2 a b)) : f = g := by
  funext i; rw [eq_ix2 i]; exact h _ _

end Cert.LayerSpec

end
-- ==== Proof.KPay0.lean ====
/-
  The first layer's kernel body, read at an index of its output block, over the extended reals.

  The body holds a block of 5000 rows of the node features `x` and of the aggregated features `e`, the two weight
  matrices and the two biases. Rounding to the narrower format is the identity on the extended reals, so its two block
  products into a zero accumulator are, at row `y` and column `j`, the plain sums `∑ₖ a y k · w j k` over the 64
  contracted positions (the transposed weight read back at `(j, k)`), the bias row is `b j` on every row, and the
  row's sum of squares is the sum over the 32 columns. Hence the three values the body stores from are the layer's
  raw output, the floored row norm, and their quotient, exactly as `LayerSpec` states them.
-/
import proofs.«111316_j86440511799625_1_alg».proof.Proof.Gen.KernelIdeal.Skeleton
import proofs.«111316_j86440511799625_1_alg».proof.Proof.LibLayout
import proofs.«111316_j86440511799625_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay0

open Cert.KernelIdeal Cert.KernelIdeal.Gen Idealize.ShloMosaic Idealize.ShloMosaic.ValueIdx Cert.LayerSpec

/-- The block product's dimension numbers: rows × 64 against 64 × 32. -/
abbrev dK := dot_S5000x64_S64x32_S5000x32_1_0_0_1_n_n

/-- A block product into a zero accumulator, read at `(y, j)`: the contraction index is its one coordinate `k`, the left
    operand is read at `(y, k)`, the transposed weight at `(k, j)`, that is the weight at `(j, k)`. -/
theorem mm_apply (a : FVec Ideal S5000x64 .f32) (w : FVec Ideal S32x64 .f32) (y : Fin 5000) (j : Fin 32) :
    matmul dK none (truncf .bf16 a bitsLt_bf16_f32)
      (transpose S64x32 [1, 0] (truncf .bf16 w bitsLt_bf16_f32) transposes_S32x64_p1_0_S64x32)
      (constant S5000x32 .f32 0x00000000#32) (ix2 y j) = ∑ k : Fin 64, a (ix2 y k) * w (ix2 j k) := by
  simp only [matmul]
  refine (Ideal.matmul_constant_zero_apply dK none _ _ (ix2 y j)).trans ?_
  rw [← Equiv.sum_comp (contrEquiv1 dK 64 rfl rfl).symm]
  refine Finset.sum_congr rfl fun k _ => ?_
  have hl : dK.lhsIdx (ix2 y j) ((contrEquiv1 dK 64 rfl rfl).symm k) = ix2 y k := by
    funext c; apply Fin.ext
    match c with
    | ⟨0, _⟩ => rfl
    | ⟨1, _⟩ => exact (dK.lhsIdx_val_of_single rfl _ _).trans (contrEquiv1_symm_val dK 64 rfl rfl k)
  have hr : dK.rhsIdx (ix2 y j) ((contrEquiv1 dK 64 rfl rfl).symm k) = ix2 k j := by
    funext c; apply Fin.ext
    match c with
    | ⟨0, _⟩ => exact (dK.rhsIdx_val_of_single rfl _ _).trans (contrEquiv1_symm_val dK 64 rfl rfl k)
    | ⟨1, _⟩ => rfl
  rw [hl, hr]
  refine congrArg (a (ix2 y k) * ·) ?_
  exact transpose_ix2_apply (a := 32) (b := 64) w transposes_S32x64_p1_0_S64x32 k j

/-- The bias, laid out as one row and repeated down the block, reads `b j` at every row. -/
theorem bias_apply (b : FVec Ideal S32 .f32) (y : Fin 5000) (j : Fin 32) :
    broadcastTo S5000x32 (shapeCast S1x32 b shapeCasts_S32_S1x32) broadcasts_S1x32_S5000x32 (ix2 y j) = b (ix1 j) :=
  (broadcastTo_1b_ab_apply (a := 5000) (b := 32) _ broadcasts_S1x32_S5000x32 y j).trans
    (shapeCast_a_1a_apply (a := 32) b shapeCasts_S32_S1x32 0 j)

/-- The value stored into the raw output's block is the layer's raw output of the loaded blocks. -/
theorem raw_apply (v0 v1 : Vec Ideal S5000x64 .f32) (v3 : Vec Ideal S32x64 .f32) (v4 : Vec Ideal S32 .f32)
    (v5 : Vec Ideal S32x64 .f32) (v6 : Vec Ideal S32 .f32) (y : Fin 5000) (j : Fin 32) :
    k0_pay2 (F := Ideal) v0 v1 v3 v4 v5 v6 (ix2 y j) = raw v0 v1 v3 v4 v5 v6 y j := by
  unfold k0_pay2
  dsimp only
  rw [shapeCast_self]
  simp only [addf_apply, select_apply, cmpf_apply, mulf_apply, broadcast_apply, bias_apply]
  rw [mm_apply (addf v0 v1) v3 y j, mm_apply (mulf v0 v1) v5 y j]
  rfl

/-- The divisor the body forms — the row's sum of squares, kept as a column, its root floored at `ε`, repeated across
    the columns — is the floored norm of the raw output's row. -/
theorem denom_apply (v0 v1 : Vec Ideal S5000x64 .f32) (v3 : Vec Ideal S32x64 .f32) (v4 : Vec Ideal S32 .f32)
    (v5 : Vec Ideal S32x64 .f32) (v6 : Vec Ideal S32 .f32) (y : Fin 5000) (j : Fin 32) :
    k0_pay3 (F := Ideal) v0 v1 v3 v4 v5 v6 (ix2 y j) = denom (raw v0 v1 v3 v4 v5 v6) y := by
  unfold k0_pay3
  dsimp only
  refine (Cert.LibLayout.broadcastTo_a1_ab_apply (a := 5000) (b := 32) _ broadcasts_S5000x1_S5000x32 y j).trans ?_
  simp only [maximumf_apply, broadcast_apply]
  show max (Ideal.sqrt (shapeCast S5000x1 _ shapeCasts_S5000_S5000x1 (ix2 y (0 : Fin 1)))) _ = _
  rw [Cert.LibLayout.shapeCast_a_a1_apply (a := 5000)]
  unfold denom
  refine congrArg (fun s => max (Ideal.sqrt s) _) ?_
  refine (Cert.LibLayout.lane_sum_apply (a := 5000) (b := 32) _ 0x00000000#32 reduces_S5000x32_S5000 (.inl rfl) rfl y).trans ?_
  refine Finset.sum_congr rfl fun l _ => ?_
  rw [mulf_apply, raw_apply]

/-- The value stored into the normalised output's block is the raw output divided by its row's floored norm. -/
theorem normed_apply (v0 v1 : Vec Ideal S5000x64 .f32) (v3 : Vec Ideal S32x64 .f32) (v4 : Vec Ideal S32 .f32)
    (v5 : Vec Ideal S32x64 .f32) (v6 : Vec Ideal S32 .f32) (y : Fin 5000) (j : Fin 32) :
    k0_pay1 (F := Ideal) (k0_pay2 v0 v1 v3 v4 v5 v6) (k0_pay3 v0 v1 v3 v4 v5 v6) (ix2 y j)
      = normed (raw v0 v1 v3 v4 v5 v6) y j := by
  unfold k0_pay1
  rw [divf_apply, raw_apply, denom_apply]
  rfl

end Cert.KernelIdeal.Pay0

end
-- ==== Proof.KPay1.lean ====
/-
  The second layer's kernel body, read at an index of its output block, over the extended reals.

  Same mathematics as the first layer with 32 input and 16 output features: a block of 5000 rows of the first layer's
  raw output `x` and of its aggregate `e`; the block products are sums over 32 contracted positions, the row's sum of
  squares a sum over 16 columns. Here the body keeps the floored norm as a column and repeats it across the columns
  only where it divides.
-/
import proofs.«111316_j86440511799625_1_alg».proof.Proof.Gen.KernelIdeal.Skeleton
import proofs.«111316_j86440511799625_1_alg».proof.Proof.LibLayout
import proofs.«111316_j86440511799625_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay1

open Cert.KernelIdeal Cert.KernelIdeal.Gen Idealize.ShloMosaic Idealize.ShloMosaic.ValueIdx Cert.LayerSpec

/-- The block product's dimension numbers: rows × 32 against 32 × 16. -/
abbrev dK := dot_S5000x32_S32x16_S5000x16_1_0_0_1_n_n

/-- A block product into a zero accumulator, read at `(y, j)`: the sum over the one contracted coordinate `k` of the
    left operand at `(y, k)` times the weight at `(j, k)`. -/
theorem mm_apply (a : FVec Ideal S5000x32 .f32) (w : FVec Ideal S16x32 .f32) (y : Fin 5000) (j : Fin 16) :
    matmul dK none (truncf .bf16 a bitsLt_bf16_f32)
      (transpose S32x16 [1, 0] (truncf .bf16 w bitsLt_bf16_f32) transposes_S16x32_p1_0_S32x16)
      (constant S5000x16 .f32 0x00000000#32) (ix2 y j) = ∑ k : Fin 32, a (ix2 y k) * w (ix2 j k) := by
  simp only [matmul]
  refine (Ideal.matmul_constant_zero_apply dK none _ _ (ix2 y j)).trans ?_
  rw [← Equiv.sum_comp (contrEquiv1 dK 32 rfl rfl).symm]
  refine Finset.sum_congr rfl fun k _ => ?_
  have hl : dK.lhsIdx (ix2 y j) ((contrEquiv1 dK 32 rfl rfl).symm k) = ix2 y k := by
    funext c; apply Fin.ext
    match c with
    | ⟨0, _⟩ => rfl
    | ⟨1, _⟩ => exact (dK.lhsIdx_val_of_single rfl _ _).trans (contrEquiv1_symm_val dK 32 rfl rfl k)
  have hr : dK.rhsIdx (ix2 y j) ((contrEquiv1 dK 32 rfl rfl).symm k) = ix2 k j := by
    funext c; apply Fin.ext
    match c with
    | ⟨0, _⟩ => exact (dK.rhsIdx_val_of_single rfl _ _).trans (contrEquiv1_symm_val dK 32 rfl rfl k)
    | ⟨1, _⟩ => rfl
  rw [hl, hr]
  refine congrArg (a (ix2 y k) * ·) ?_
  exact transpose_ix2_apply (a := 16) (b := 32) w transposes_S16x32_p1_0_S32x16 k j

/-- The bias, laid out as one row and repeated down the block, reads `b j` at every row. -/
theorem bias_apply (b : FVec Ideal S16 .f32) (y : Fin 5000) (j : Fin 16) :
    broadcastTo S5000x16 (shapeCast S1x16 b shapeCasts_S16_S1x16) broadcasts_S1x16_S5000x16 (ix2 y j) = b (ix1 j) :=
  (broadcastTo_1b_ab_apply (a := 5000) (b := 16) _ broadcasts_S1x16_S5000x16 y j).trans
    (shapeCast_a_1a_apply (a := 16) b shapeCasts_S16_S1x16 0 j)

/-- The value stored into the raw output's block is the layer's raw output of the loaded blocks. -/
theorem raw_apply (v0 v2 : Vec Ideal S5000x32 .f32) (v4 : Vec Ideal S16x32 .f32) (v5 : Vec Ideal S16 .f32)
    (v6 : Vec Ideal S16x32 .f32) (v7 : Vec Ideal S16 .f32) (y : Fin 5000) (j : Fin 16) :
    k1_pay2 (F := Ideal) v0 v2 v4 v5 v6 v7 (ix2 y j) = raw v0 v2 v4 v5 v6 v7 y j := by
  unfold k1_pay2
  dsimp only
  rw [shapeCast_self, shapeCast_self]
  simp only [addf_apply, select_apply, cmpf_apply, mulf_apply, broadcast_apply, bias_apply]
  rw [mm_apply (addf v0 v2) v4 y j, mm_apply (mulf v0 v2) v6 y j]
  rfl

/-- The column the body keeps — the row's sum of squares, its root floored at `ε` — is the floored norm of the raw
    output's row. -/
theorem denom_apply (v0 v2 : Vec Ideal S5000x32 .f32) (v4 : Vec Ideal S16x32 .f32) (v5 : Vec Ideal S16 .f32)
    (v6 : Vec Ideal S16x32 .f32) (v7 : Vec Ideal S16 .f32) (y : Fin 5000) :
    k1_pay3 (F := Ideal) v0 v2 v4 v5 v6 v7 (ix2 y (0 : Fin 1)) = denom (raw v0 v2 v4 v5 v6 v7) y := by
  unfold k1_pay3
  simp only [maximumf_apply, broadcast_apply]
  show max (Ideal.sqrt (shapeCast S5000x1 _ shapeCasts_S5000_S5000x1 (ix2 y (0 : Fin 1)))) _ = _
  rw [Cert.LibLayout.shapeCast_a_a1_apply (a := 5000)]
  unfold denom
  refine congrArg (fun s => max (Ideal.sqrt s) _) ?_
  refine (Cert.LibLayout.lane_sum_apply (a := 5000) (b := 16) _ 0x00000000#32 reduces_S5000x16_S5000 (.inl rfl) rfl y).trans ?_
  refine Finset.sum_congr rfl fun l _ => ?_
  rw [mulf_apply, raw_apply]

/-- The value stored into the normalised output's block is the raw output divided by its row's floored norm. -/
theorem normed_apply (v0 v2 : Vec Ideal S5000x32 .f32) (v4 : Vec Ideal S16x32 .f32) (v5 : Vec Ideal S16 .f32)
    (v6 : Vec Ideal S16x32 .f32) (v7 : Vec Ideal S16 .f32) (y : Fin 5000) (j : Fin 16) :
    k1_pay1 (F := Ideal) (k1_pay2 v0 v2 v4 v5 v6 v7) (k1_pay3 v0 v2 v4 v5 v6 v7) (ix2 y j)
      = normed (raw v0 v2 v4 v5 v6 v7) y j := by
  unfold k1_pay1
  rw [divf_apply, raw_apply]
  refine congrArg (Ideal.div _) ?_
  exact (Cert.LibLayout.broadcastTo_a1_ab_apply (a := 5000) (b := 16) _ broadcasts_S5000x1_S5000x16 y j).trans
    (denom_apply v0 v2 v4 v5 v6 v7 y)

end Cert.KernelIdeal.Pay1

end
-- ==== Proof.LayerRows.lean ====
/-
  The layer's raw and normalised outputs at a row depend on that row only.

  `raw x e w₁ b₁ w₂ b₂ r j` reads `x` and `e` at the indices `(r, k)` alone, and `denom R r`, `normed R r j` read `R` on
  row `r` alone. So the output computed from a block of rows, at a row of the block, is the output computed from the
  whole arrays at the row the block's row sits at — whatever the two arrays' numbers of rows.
-/
import proofs.«111316_j86440511799625_1_alg».proof.Proof.LayerSpec

noncomputable section

namespace Cert.LayerSpec

open Idealize.ShloMosaic Idealize.ShloMosaic.ValueIdx

/-- Two pairs of feature arrays that agree along a row of each — row `r'` of `x'`, `e'` against row `r` of `x`, `e` —
    give the same raw output on those rows, under the same weights and biases. -/
theorem raw_congr_row {M M' K N : ℕ} (x e : (⟨2, ![M, K]⟩ : Shape).Idx → EReal) (x' e' : (⟨2, ![M', K]⟩ : Shape).Idx → EReal)
    (w₁ : (⟨2, ![N, K]⟩ : Shape).Idx → EReal) (b₁ : (⟨1, ![N]⟩ : Shape).Idx → EReal)
    (w₂ : (⟨2, ![N, K]⟩ : Shape).Idx → EReal) (b₂ : (⟨1, ![N]⟩ : Shape).Idx → EReal) (r : Fin M) (r' : Fin M')
    (hx : ∀ k, x' (ix2 r' k) = x (ix2 r k)) (he : ∀ k, e' (ix2 r' k) = e (ix2 r k)) (j : Fin N) :
    raw x' e' w₁ b₁ w₂ b₂ r' j = raw x e w₁ b₁ w₂ b₂ r j := by
  unfold raw lin
  simp only [hx, he]

/-- Two tables that agree along a row of each have the same divisor on those rows. -/
theorem denom_congr_row {M M' N : ℕ} (R : Fin M → Fin N → EReal) (R' : Fin M' → Fin N → EReal) (r : Fin M) (r' : Fin M')
    (h : ∀ l, R' r' l = R r l) : denom R' r' = denom R r := by
  unfold denom
  simp only [h]

/-- Two tables that agree along a row of each have the same normalised entries on those rows. -/
theorem normed_congr_row {M M' N : ℕ} (R : Fin M → Fin N → EReal) (R' : Fin M' → Fin N → EReal) (r : Fin M) (r' : Fin M')
    (h : ∀ l, R' r' l = R r l) (j : Fin N) : normed R' r' j = normed R r j := by
  unfold normed
  rw [h j, denom_congr_row R R' r r' h]

end Cert.LayerSpec

end
-- ==== Proof.KIVal.lean ====
/-
  From blocks to arrays, over the extended reals. Each kernel region writes its two outputs back block by block — point
  `t` of the grid writes rows `5000·t … 5000·t + 4999` —, and what it writes is the layer's raw (resp. normalised) output
  computed from the input windows' blocks at that point. A row of the layer's output reads only that row of the two
  feature arrays, and the weights' and biases' windows are the whole arrays at every point; so each block written is
  the matching block of ONE whole-array function of the arrays the region finds, and since the twenty blocks tile the
  array, the array after the region IS that function.
-/
import proofs.«111316_j86440511799625_1_alg».proof.Proof.KIBody
import proofs.«111316_j86440511799625_1_alg».proof.Proof.KPay0
import proofs.«111316_j86440511799625_1_alg».proof.Proof.KPay1
import proofs.«111316_j86440511799625_1_alg».proof.Proof.LayerRows
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx Cert.LayerSpec

-- the TensorCore's buffer contents when a region is entered
variable (V : (c : Dev nD) → (b : Ref sig .tc) → Buf (Elt Ideal) ((c : Thread nD τ).loc b))

/-- The zero offsets of a whole-buffer access, on two axes and on one. -/
theorem zeros2 : (![0, 0] : Fin 2 → Nat) = fun _ => 0 := funext fun a => by fin_cases a <;> rfl
theorem zeros1 : (![0] : Fin 1 → Nat) = fun _ => 0 := funext fun a => by fin_cases a <;> rfl

/-! # Region 0 -/

/-- The printed index maps, decided once over the grid's twenty points: windows 0, 1, 6 and 7 are at block `(t, 0)`,
    windows 2 to 5 at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The layer's raw output as ONE array, a function of the six arrays the region finds. -/
abbrev rawArr0 (c : Dev nD) : S100000x32.Idx → EReal :=
  ofCoords (raw (M := 100000) (K := 64) (N := 32) (V c main_arg0) (V c main_v12) (V c main_arg1) (V c main_arg2) (V c main_arg3) (V c main_arg4))

/-- The layer's normalised output as one array. -/
abbrev normedArr0 (c : Dev nD) : S100000x32.Idx → EReal :=
  ofCoords (normed (raw (M := 100000) (K := 64) (N := 32) (V c main_arg0) (V c main_v12) (V c main_arg1) (V c main_arg2) (V c main_arg3) (V c main_arg4)))

/-- The value stored at an index `y` of the raw output's block is the raw output of whole arrays at an index `i` in the
    same column, when the two feature blocks' row `y 0` is the arrays' row `i 0` and the weights and biases are the arrays'. -/
theorem raw_point0 (x0 x1 : Vec Ideal S5000x64 .f32) (x2 : Vec Ideal S32x64 .f32) (x3 : Vec Ideal S32 .f32) (x4 : Vec Ideal S32x64 .f32) (x5 : Vec Ideal S32 .f32)
    (A0 A1 : S100000x64.Idx → EReal) (A2 : S32x64.Idx → EReal) (A3 : S32.Idx → EReal) (A4 : S32x64.Idx → EReal) (A5 : S32.Idx → EReal)
    (y : S5000x32.Idx) (i : S100000x32.Idx) (hcol : (i 1).val = (y 1).val)
    (h0 : ∀ k : Fin 64, x0 (ix2 (y 0) k) = A0 (ix2 (i 0) k)) (h1 : ∀ k : Fin 64, x1 (ix2 (y 0) k) = A1 (ix2 (i 0) k))
    (h2 : x2 = A2) (h3 : x3 = A3) (h4 : x4 = A4) (h5 : x5 = A5) :
    k0_pay2 (F := Ideal) x0 x1 x2 x3 x4 x5 y = ofCoords (raw A0 A1 A2 A3 A4 A5) i := by
  subst h2 h3 h4 h5
  have hj : i 1 = y 1 := Fin.ext hcol
  refine (congrArg (k0_pay2 (F := Ideal) x0 x1 x2 x3 x4 x5) (eq_ix2 y)).trans ((Pay0.raw_apply x0 x1 x2 x3 x4 x5 (y 0) (y 1)).trans ?_)
  show raw x0 x1 x2 x3 x4 x5 (y 0) (y 1) = raw A0 A1 x2 x3 x4 x5 (i 0) (i 1)
  rw [hj]
  exact raw_congr_row A0 A1 x0 x1 x2 x3 x4 x5 (i 0) (y 0) h0 h1 (y 1)

/-- The same of the value stored into the normalised output's block: a row's divisor reads that row of the raw output only. -/
theorem normed_point0 (x0 x1 : Vec Ideal S5000x64 .f32) (x2 : Vec Ideal S32x64 .f32) (x3 : Vec Ideal S32 .f32) (x4 : Vec Ideal S32x64 .f32) (x5 : Vec Ideal S32 .f32)
    (A0 A1 : S100000x64.Idx → EReal) (A2 : S32x64.Idx → EReal) (A3 : S32.Idx → EReal) (A4 : S32x64.Idx → EReal) (A5 : S32.Idx → EReal)
    (y : S5000x32.Idx) (i : S100000x32.Idx) (hcol : (i 1).val = (y 1).val)
    (h0 : ∀ k : Fin 64, x0 (ix2 (y 0) k) = A0 (ix2 (i 0) k)) (h1 : ∀ k : Fin 64, x1 (ix2 (y 0) k) = A1 (ix2 (i 0) k))
    (h2 : x2 = A2) (h3 : x3 = A3) (h4 : x4 = A4) (h5 : x5 = A5) :
    k0_pay1 (F := Ideal) (k0_pay2 x0 x1 x2 x3 x4 x5) (k0_pay3 x0 x1 x2 x3 x4 x5) y = ofCoords (normed (raw A0 A1 A2 A3 A4 A5)) i := by
  subst h2 h3 h4 h5
  have hj : i 1 = y 1 := Fin.ext hcol
  refine (congrArg (k0_pay1 (F := Ideal) (k0_pay2 x0 x1 x2 x3 x4 x5) (k0_pay3 x0 x1 x2 x3 x4 x5)) (eq_ix2 y)).trans
    ((Pay0.normed_apply x0 x1 x2 x3 x4 x5 (y 0) (y 1)).trans ?_)
  show normed (raw x0 x1 x2 x3 x4 x5) (y 0) (y 1) = normed (raw A0 A1 x2 x3 x4 x5) (i 0) (i 1)
  rw [hj]
  exact normed_congr_row (raw A0 A1 x2 x3 x4 x5) (raw x0 x1 x2 x3 x4 x5) (i 0) (y 0)
    (fun l => raw_congr_row A0 A1 x0 x1 x2 x3 x4 x5 (i 0) (y 0) h0 h1 l) (y 1)

/-- Window 2's block is its whole array at every point: its block index is zero on every axis. -/
theorem whole0_2 (c : Dev nD) (t : Fin cfg0.N) : (Hand.iblk0 V c 2 t : S32x64.Idx → EReal) = V c main_arg1 := by
  obtain ⟨e00, e01, e10, e11, e20, e21, e30, e40, e41, e50, e60, e61, e70, e71⟩ := idx_facts0 t
  funext j
  show V c main_arg1 (((cfg0.win 2).blk t).view.emb j) = V c main_arg1 j
  refine congrArg (V c main_arg1) ?_
  funext a; apply Fin.ext
  match a with
  | ⟨0, _⟩ => show win0_2.index t (0 : Fin 2) * 32 + 1 * (j 0).val = (j 0).val; omega
  | ⟨1, _⟩ => show win0_2.index t (1 : Fin 2) * 64 + 1 * (j 1).val = (j 1).val; omega

/-- Window 3's block is its whole array at every point: its block index is zero on every axis. -/
theorem whole0_3 (c : Dev nD) (t : Fin cfg0.N) : (Hand.iblk0 V c 3 t : S32.Idx → EReal) = V c main_arg2 := by
  obtain ⟨e00, e01, e10, e11, e20, e21, e30, e40, e41, e50, e60, e61, e70, e71⟩ := idx_facts0 t
  funext j
  show V c main_arg2 (((cfg0.win 3).blk t).view.emb j) = V c main_arg2 j
  refine congrArg (V c main_arg2) ?_
  funext a; apply Fin.ext
  match a with
  | ⟨0, _⟩ => show win0_3.index t (0 : Fin 1) * 32 + 1 * (j 0).val = (j 0).val; omega

/-- Window 4's block is its whole array at every point: its block index is zero on every axis. -/
theorem whole0_4 (c : Dev nD) (t : Fin cfg0.N) : (Hand.iblk0 V c 4 t : S32x64.Idx → EReal) = V c main_arg3 := by
  obtain ⟨e00, e01, e10, e11, e20, e21, e30, e40, e41, e50, e60, e61, e70, e71⟩ := idx_facts0 t
  funext j
  show V c main_arg3 (((cfg0.win 4).blk t).view.emb j) = V c main_arg3 j
  refine congrArg (V c main_arg3) ?_
  funext a; apply Fin.ext
  match a with
  | ⟨0, _⟩ => show win0_4.index t (0 : Fin 2) * 32 + 1 * (j 0).val = (j 0).val; omega
  | ⟨1, _⟩ => show win0_4.index t (1 : Fin 2) * 64 + 1 * (j 1).val = (j 1).val; omega

/-- Window 5's block is its whole array at every point: its block index is zero on every axis. -/
theorem whole0_5 (c : Dev nD) (t : Fin cfg0.N) : (Hand.iblk0 V c 5 t : S32.Idx → EReal) = V c main_arg4 := by
  obtain ⟨e00, e01, e10, e11, e20, e21, e30, e40, e41, e50, e60, e61, e70, e71⟩ := idx_facts0 t
  funext j
  show V c main_arg4 (((cfg0.win 5).blk t).view.emb j) = V c main_arg4 j
  refine congrArg (V c main_arg4) ?_
  funext a; apply Fin.ext
  match a with
  | ⟨0, _⟩ => show win0_5.index t (0 : Fin 1) * 32 + 1 * (j 0).val = (j 0).val; omega

/-- What point `t` writes back to window 6's array is block `t` of `rawArr0`: the block's row `y` sits at row
    `5000 · t + y` of the array, where windows 0 and 1 have their rows too, and the weights and biases are whole. -/
theorem flushed0_6_eq (c : Dev nD) (t : Fin cfg0.N) :
    (Hand.dat0 (F := Ideal) V c).flushed 6 t = ((cfg0.win 6).blk t).view.read (Elt Ideal) (rawArr0 V c) := by
  show (cfg0.win 6).cut (grid0.coords t) ((Hand.dat0 (F := Ideal) V c).after 6 t) = _
  rw [Hand.after0_6]
  unfold Hand.out0_6
  rw [View.canon_unit_zero zeros2]
  simp only [View.ld_unit_zero (S := S5000x64) zeros2, View.ld_unit_zero (S := S32x64) zeros2, View.ld_unit_zero (S := S32) zeros1]
  obtain ⟨e00, e01, e10, e11, e20, e21, e30, e40, e41, e50, e60, e61, e70, e71⟩ := idx_facts0 t
  funext y
  refine raw_point0 (Hand.iblk0 V c 0 t) (Hand.iblk0 V c 1 t) (Hand.iblk0 V c 2 t) (Hand.iblk0 V c 3 t) (Hand.iblk0 V c 4 t) (Hand.iblk0 V c 5 t)
    (V c main_arg0) (V c main_v12) (V c main_arg1) (V c main_arg2) (V c main_arg3) (V c main_arg4) y (((cfg0.win 6).blk t).view.emb y) ?_ ?_ ?_
    (whole0_2 V c t) (whole0_3 V c t) (whole0_4 V c t) (whole0_5 V c t)
  · show win0_6.index t (1 : Fin 2) * 32 + 1 * (y 1).val = (y 1).val; omega
  · intro k
    show V c main_arg0 (((cfg0.win 0).blk t).view.emb (ix2 (y 0) k : S5000x64.Idx)) = V c main_arg0 _
    refine congrArg (V c main_arg0) ?_
    funext a; apply Fin.ext
    match a with
    | ⟨0, _⟩ => show win0_0.index t (0 : Fin 2) * 5000 + 1 * (y 0).val = win0_6.index t (0 : Fin 2) * 5000 + 1 * (y 0).val; omega
    | ⟨1, _⟩ => show win0_0.index t (1 : Fin 2) * 64 + 1 * k.val = k.val; omega
  · intro k
    show V c main_v12 (((cfg0.win 1).blk t).view.emb (ix2 (y 0) k : S5000x64.Idx)) = V c main_v12 _
    refine congrArg (V c main_v12) ?_
    funext a; apply Fin.ext
    match a with
    | ⟨0, _⟩ => show win0_1.index t (0 : Fin 2) * 5000 + 1 * (y 0).val = win0_6.index t (0 : Fin 2) * 5000 + 1 * (y 0).val; omega
    | ⟨1, _⟩ => show win0_1.index t (1 : Fin 2) * 64 + 1 * k.val = k.val; omega

/-- What point `t` writes back to window 7's array is block `t` of `normedArr0`: the block's row `y` sits at row
    `5000 · t + y` of the array, where windows 0 and 1 have their rows too, and the weights and biases are whole. -/
theorem flushed0_7_eq (c : Dev nD) (t : Fin cfg0.N) :
    (Hand.dat0 (F := Ideal) V c).flushed 7 t = ((cfg0.win 7).blk t).view.read (Elt Ideal) (normedArr0 V c) := by
  show (cfg0.win 7).cut (grid0.coords t) ((Hand.dat0 (F := Ideal) V c).after 7 t) = _
  rw [Hand.after0_7]
  unfold Hand.out0_7
  rw [View.canon_unit_zero zeros2]
  simp only [View.ld_unit_zero (S := S5000x64) zeros2, View.ld_unit_zero (S := S32x64) zeros2, View.ld_unit_zero (S := S32) zeros1]
  obtain ⟨e00, e01, e10, e11, e20, e21, e30, e40, e41, e50, e60, e61, e70, e71⟩ := idx_facts0 t
  funext y
  refine normed_point0 (Hand.iblk0 V c 0 t) (Hand.iblk0 V c 1 t) (Hand.iblk0 V c 2 t) (Hand.iblk0 V c 3 t) (Hand.iblk0 V c 4 t) (Hand.iblk0 V c 5 t)
    (V c main_arg0) (V c main_v12) (V c main_arg1) (V c main_arg2) (V c main_arg3) (V c main_arg4) y (((cfg0.win 7).blk t).view.emb y) ?_ ?_ ?_
    (whole0_2 V c t) (whole0_3 V c t) (whole0_4 V c t) (whole0_5 V c t)
  · show win0_7.index t (1 : Fin 2) * 32 + 1 * (y 1).val = (y 1).val; omega
  · intro k
    show V c main_arg0 (((cfg0.win 0).blk t).view.emb (ix2 (y 0) k : S5000x64.Idx)) = V c main_arg0 _
    refine congrArg (V c main_arg0) ?_
    funext a; apply Fin.ext
    match a with
    | ⟨0, _⟩ => show win0_0.index t (0 : Fin 2) * 5000 + 1 * (y 0).val = win0_7.index t (0 : Fin 2) * 5000 + 1 * (y 0).val; omega
    | ⟨1, _⟩ => show win0_0.index t (1 : Fin 2) * 64 + 1 * k.val = k.val; omega
  · intro k
    show V c main_v12 (((cfg0.win 1).blk t).view.emb (ix2 (y 0) k : S5000x64.Idx)) = V c main_v12 _
    refine congrArg (V c main_v12) ?_
    funext a; apply Fin.ext
    match a with
    | ⟨0, _⟩ => show win0_1.index t (0 : Fin 2) * 5000 + 1 * (y 0).val = win0_7.index t (0 : Fin 2) * 5000 + 1 * (y 0).val; omega
    | ⟨1, _⟩ => show win0_1.index t (1 : Fin 2) * 64 + 1 * k.val = k.val; omega

/-- An index of window 6's array is in point `t`'s block iff each coordinate is in the block's range on its axis. -/
theorem mem_blk0_6 (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v13_0).slice (win0_6.rect t)).set ↔ _
  rw [View.set_slice_whole, Rect.mem_set_unit]
  exact Iff.rfl

/-- The twenty blocks of 5000 rows tile the array: row `r` is in the block of point `r / 5000`. -/
theorem cover0_6 (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  have hq : (i 0).val / 5000 < 20 := by omega
  obtain ⟨t, ht⟩ : ∃ t : Fin cfg0.N, t.val = (i 0).val / 5000 := ⟨⟨(i 0).val / 5000, hq⟩, rfl⟩
  obtain ⟨e00, e01, e10, e11, e20, e21, e30, e40, e41, e50, e60, e61, e70, e71⟩ := idx_facts0 t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 32 ≤ (i 1).val ∧ (i 1).val < win0_6.index t (1 : Fin 2) * 32 + 32; omega

/-- An index of window 7's array is in point `t`'s block iff each coordinate is in the block's range on its axis. -/
theorem mem_blk0_7 (t : Fin cfg0.N) (i : S100000x32.Idx) :
    i ∈ ((cfg0.win 7).blk t).view.set ↔ ∀ a : Fin 2, win0_7.index t a * S5000x32.size a ≤ (i a).val ∧ (i a).val < win0_7.index t a * S5000x32.size a + S5000x32.size a := by
  show i ∈ ((View.whole main_v13_1).slice (win0_7.rect t)).set ↔ _
  rw [View.set_slice_whole, Rect.mem_set_unit]
  exact Iff.rfl

/-- The twenty blocks of 5000 rows tile the array: row `r` is in the block of point `r / 5000`. -/
theorem cover0_7 (i : S100000x32.Idx) : ∃ t : Fin cfg0.N, (cfg0.win 7).flush t = true ∧ i ∈ ((cfg0.win 7).blk t).view.set := by
  have hi0 : (i 0).val < 100000 := (i 0).isLt
  have hi1 : (i 1).val < 32 := (i 1).isLt
  have hq : (i 0).val / 5000 < 20 := by omega
  obtain ⟨t, ht⟩ : ∃ t : Fin cfg0.N, t.val = (i 0).val / 5000 := ⟨⟨(i 0).val / 5000, hq⟩, rfl⟩
  obtain ⟨e00, e01, e10, e11, e20, e21, e30, e40, e41, e50, e60, e61, e70, e71⟩ := idx_facts0 t
  refine ⟨t, flush0_7 t, ?_⟩
  rw [mem_blk0_7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 32 ≤ (i 1).val ∧ (i 1).val < win0_7.index t (1 : Fin 2) * 32 + 32; omega

/-- THE RAW OUTPUT ARRAY after the region: the layer's raw output of the arrays the region finds. -/
theorem final0_6 (c : Dev nD) : (Hand.dat0 (F := Ideal) V c).arrAt 6 cfg0.N
    = ofCoords (raw (V c main_arg0) (V c main_v12) (V c main_arg1) (V c main_arg2) (V c main_arg3) (V c main_arg4)) :=
  (Hand.dat0 (F := Ideal) V c).arrAt_eq_of_cover 6 (rawArr0 V c) (fun t _ => flushed0_6_eq V c t) cover0_6

/-- THE NORMALISED OUTPUT ARRAY after the region: the raw output, each row divided by its floored norm. -/
theorem final0_7 (c : Dev nD) : (Hand.dat0 (F := Ideal) V c).arrAt 7 cfg0.N
    = ofCoords (normed (raw (V c main_arg0) (V c main_v12) (V c main_arg1) (V c main_arg2) (V c main_arg3) (V c main_arg4))) :=
  (Hand.dat0 (F := Ideal) V c).arrAt_eq_of_cover 7 (normedArr0 V c) (fun t _ => flushed0_7_eq V c t) cover0_7

/-! # Region 1 -/

/-- The printed index maps, decided once over the grid's twenty points: windows 0, 1, 6 and 7 are at block `(t, 0)`,
    windows 2 to 5 at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The layer's raw output as ONE array, a function of the six arrays the region finds. -/
abbrev rawArr1 (c : Dev nD) : S100000x16.Idx → EReal :=
  ofCoords (raw (M := 100000) (K := 32) (N := 16) (V c main_v13_0) (V c main_v26) (V c main_arg5) (V c main_arg6) (V c main_arg7) (V c main_arg8))

/-- The layer's normalised output as one array. -/
abbrev normedArr1 (c : Dev nD) : S100000x16.Idx → EReal :=
  ofCoords (normed (raw (M := 100000) (K := 32) (N := 16) (V c main_v13_0) (V c main_v26) (V c main_arg5) (V c main_arg6) (V c main_arg7) (V c main_arg8)))

/-- The value stored at an index `y` of the raw output's block is the raw output of whole arrays at an index `i` in the
    same column, when the two feature blocks' row `y 0` is the arrays' row `i 0` and the weights and biases are the arrays'. -/
theorem raw_point1 (x0 x1 : Vec Ideal S5000x32 .f32) (x2 : Vec Ideal S16x32 .f32) (x3 : Vec Ideal S16 .f32) (x4 : Vec Ideal S16x32 .f32) (x5 : Vec Ideal S16 .f32)
    (A0 A1 : S100000x32.Idx → EReal) (A2 : S16x32.Idx → EReal) (A3 : S16.Idx → EReal) (A4 : S16x32.Idx → EReal) (A5 : S16.Idx → EReal)
    (y : S5000x16.Idx) (i : S100000x16.Idx) (hcol : (i 1).val = (y 1).val)
    (h0 : ∀ k : Fin 32, x0 (ix2 (y 0) k) = A0 (ix2 (i 0) k)) (h1 : ∀ k : Fin 32, x1 (ix2 (y 0) k) = A1 (ix2 (i 0) k))
    (h2 : x2 = A2) (h3 : x3 = A3) (h4 : x4 = A4) (h5 : x5 = A5) :
    k1_pay2 (F := Ideal) x0 x1 x2 x3 x4 x5 y = ofCoords (raw A0 A1 A2 A3 A4 A5) i := by
  subst h2 h3 h4 h5
  have hj : i 1 = y 1 := Fin.ext hcol
  refine (congrArg (k1_pay2 (F := Ideal) x0 x1 x2 x3 x4 x5) (eq_ix2 y)).trans ((Pay1.raw_apply x0 x1 x2 x3 x4 x5 (y 0) (y 1)).trans ?_)
  show raw x0 x1 x2 x3 x4 x5 (y 0) (y 1) = raw A0 A1 x2 x3 x4 x5 (i 0) (i 1)
  rw [hj]
  exact raw_congr_row A0 A1 x0 x1 x2 x3 x4 x5 (i 0) (y 0) h0 h1 (y 1)

/-- The same of the value stored into the normalised output's block: a row's divisor reads that row of the raw output only. -/
theorem normed_point1 (x0 x1 : Vec Ideal S5000x32 .f32) (x2 : Vec Ideal S16x32 .f32) (x3 : Vec Ideal S16 .f32) (x4 : Vec Ideal S16x32 .f32) (x5 : Vec Ideal S16 .f32)
    (A0 A1 : S100000x32.Idx → EReal) (A2 : S16x32.Idx → EReal) (A3 : S16.Idx → EReal) (A4 : S16x32.Idx → EReal) (A5 : S16.Idx → EReal)
    (y : S5000x16.Idx) (i : S100000x16.Idx) (hcol : (i 1).val = (y 1).val)
    (h0 : ∀ k : Fin 32, x0 (ix2 (y 0) k) = A0 (ix2 (i 0) k)) (h1 : ∀ k : Fin 32, x1 (ix2 (y 0) k) = A1 (ix2 (i 0) k))
    (h2 : x2 = A2) (h3 : x3 = A3) (h4 : x4 = A4) (h5 : x5 = A5) :
    k1_pay1 (F := Ideal) (k1_pay2 x0 x1 x2 x3 x4 x5) (k1_pay3 x0 x1 x2 x3 x4 x5) y = ofCoords (normed (raw A0 A1 A2 A3 A4 A5)) i := by
  subst h2 h3 h4 h5
  have hj : i 1 = y 1 := Fin.ext hcol
  refine (congrArg (k1_pay1 (F := Ideal) (k1_pay2 x0 x1 x2 x3 x4 x5) (k1_pay3 x0 x1 x2 x3 x4 x5)) (eq_ix2 y)).trans
    ((Pay1.normed_apply x0 x1 x2 x3 x4 x5 (y 0) (y 1)).trans ?_)
  show normed (raw x0 x1 x2 x3 x4 x5) (y 0) (y 1) = normed (raw A0 A1 x2 x3 x4 x5) (i 0) (i 1)
  rw [hj]
  exact normed_congr_row (raw A0 A1 x2 x3 x4 x5) (raw x0 x1 x2 x3 x4 x5) (i 0) (y 0)
    (fun l => raw_congr_row A0 A1 x0 x1 x2 x3 x4 x5 (i 0) (y 0) h0 h1 l) (y 1)

/-- Window 2's block is its whole array at every point: its block index is zero on every axis. -/
theorem whole1_2 (c : Dev nD) (t : Fin cfg1.N) : (Hand.iblk1 V c 2 t : S16x32.Idx → EReal) = V c main_arg5 := by
  obtain ⟨e00, e01, e10, e11, e20, e21, e30, e40, e41, e50, e60, e61, e70, e71⟩ := idx_facts1 t
  funext j
  show V c main_arg5 (((cfg1.win 2).blk t).view.emb j) = V c main_arg5 j
  refine congrArg (V c main_arg5) ?_
  funext a; apply Fin.ext
  match a with
  | ⟨0, _⟩ => show win1_2.index t (0 : Fin 2) * 16 + 1 * (j 0).val = (j 0).val; omega
  | ⟨1, _⟩ => show win1_2.index t (1 : Fin 2) * 32 + 1 * (j 1).val = (j 1).val; omega

/-- Window 3's block is its whole array at every point: its block index is zero on every axis. -/
theorem whole1_3 (c : Dev nD) (t : Fin cfg1.N) : (Hand.iblk1 V c 3 t : S16.Idx → EReal) = V c main_arg6 := by
  obtain ⟨e00, e01, e10, e11, e20, e21, e30, e40, e41, e50, e60, e61, e70, e71⟩ := idx_facts1 t
  funext j
  show V c main_arg6 (((cfg1.win 3).blk t).view.emb j) = V c main_arg6 j
  refine congrArg (V c main_arg6) ?_
  funext a; apply Fin.ext
  match a with
  | ⟨0, _⟩ => show win1_3.index t (0 : Fin 1) * 16 + 1 * (j 0).val = (j 0).val; omega

/-- Window 4's block is its whole array at every point: its block index is zero on every axis. -/
theorem whole1_4 (c : Dev nD) (t : Fin cfg1.N) : (Hand.iblk1 V c 4 t : S16x32.Idx → EReal) = V c main_arg7 := by
  obtain ⟨e00, e01, e10, e11, e20, e21, e30, e40, e41, e50, e60, e61, e70, e71⟩ := idx_facts1 t
  funext j
  show V c main_arg7 (((cfg1.win 4).blk t).view.emb j) = V c main_arg7 j
  refine congrArg (V c main_arg7) ?_
  funext a; apply Fin.ext
  match a with
  | ⟨0, _⟩ => show win1_4.index t (0 : Fin 2) * 16 + 1 * (j 0).val = (j 0).val; omega
  | ⟨1, _⟩ => show win1_4.index t (1 : Fin 2) * 32 + 1 * (j 1).val = (j 1).val; omega

/-- Window 5's block is its whole array at every point: its block index is zero on every axis. -/
theorem whole1_5 (c : Dev nD) (t : Fin cfg1.N) : (Hand.iblk1 V c 5 t : S16.Idx → EReal) = V c main_arg8 := by
  obtain ⟨e00, e01, e10, e11, e20, e21, e30, e40, e41, e50, e60, e61, e70, e71⟩ := idx_facts1 t
  funext j
  show V c main_arg8 (((cfg1.win 5).blk t).view.emb j) = V c main_arg8 j
  refine congrArg (V c main_arg8) ?_
  funext a; apply Fin.ext
  match a with
  | ⟨0, _⟩ => show win1_5.index t (0 : Fin 1) * 16 + 1 * (j 0).val = (j 0).val; omega

/-- What point `t` writes back to window 6's array is block `t` of `rawArr1`: the block's row `y` sits at row
    `5000 · t + y` of the array, where windows 0 and 1 have their rows too, and the weights and biases are whole. -/
theorem flushed1_6_eq (c : Dev nD) (t : Fin cfg1.N) :
    (Hand.dat1 (F := Ideal) V c).flushed 6 t = ((cfg1.win 6).blk t).view.read (Elt Ideal) (rawArr1 V c) := by
  show (cfg1.win 6).cut (grid1.coords t) ((Hand.dat1 (F := Ideal) V c).after 6 t) = _
  rw [Hand.after1_6]
  unfold Hand.out1_6
  rw [View.canon_unit_zero zeros2]
  simp only [View.ld_unit_zero (S := S5000x32) zeros2, View.ld_unit_zero (S := S16x32) zeros2, View.ld_unit_zero (S := S16) zeros1]
  obtain ⟨e00, e01, e10, e11, e20, e21, e30, e40, e41, e50, e60, e61, e70, e71⟩ := idx_facts1 t
  funext y
  refine raw_point1 (Hand.iblk1 V c 0 t) (Hand.iblk1 V c 1 t) (Hand.iblk1 V c 2 t) (Hand.iblk1 V c 3 t) (Hand.iblk1 V c 4 t) (Hand.iblk1 V c 5 t)
    (V c main_v13_0) (V c main_v26) (V c main_arg5) (V c main_arg6) (V c main_arg7) (V c main_arg8) y (((cfg1.win 6).blk t).view.emb y) ?_ ?_ ?_
    (whole1_2 V c t) (whole1_3 V c t) (whole1_4 V c t) (whole1_5 V c t)
  · show win1_6.index t (1 : Fin 2) * 16 + 1 * (y 1).val = (y 1).val; omega
  · intro k
    show V c main_v13_0 (((cfg1.win 0).blk t).view.emb (ix2 (y 0) k : S5000x32.Idx)) = V c main_v13_0 _
    refine congrArg (V c main_v13_0) ?_
    funext a; apply Fin.ext
    match a with
    | ⟨0, _⟩ => show win1_0.index t (0 : Fin 2) * 5000 + 1 * (y 0).val = win1_6.index t (0 : Fin 2) * 5000 + 1 * (y 0).val; omega
    | ⟨1, _⟩ => show win1_0.index t (1 : Fin 2) * 32 + 1 * k.val = k.val; omega
  · intro k
    show V c main_v26 (((cfg1.win 1).blk t).view.emb (ix2 (y 0) k : S5000x32.Idx)) = V c main_v26 _
    refine congrArg (V c main_v26) ?_
    funext a; apply Fin.ext
    match a with
    | ⟨0, _⟩ => show win1_1.index t (0 : Fin 2) * 5000 + 1 * (y 0).val = win1_6.index t (0 : Fin 2) * 5000 + 1 * (y 0).val; omega
    | ⟨1, _⟩ => show win1_1.index t (1 : Fin 2) * 32 + 1 * k.val = k.val; omega

/-- What point `t` writes back to window 7's array is block `t` of `normedArr1`: the block's row `y` sits at row
    `5000 · t + y` of the array, where windows 0 and 1 have their rows too, and the weights and biases are whole. -/
theorem flushed1_7_eq (c : Dev nD) (t : Fin cfg1.N) :
    (Hand.dat1 (F := Ideal) V c).flushed 7 t = ((cfg1.win 7).blk t).view.read (Elt Ideal) (normedArr1 V c) := by
  show (cfg1.win 7).cut (grid1.coords t) ((Hand.dat1 (F := Ideal) V c).after 7 t) = _
  rw [Hand.after1_7]
  unfold Hand.out1_7
  rw [View.canon_unit_zero zeros2]
  simp only [View.ld_unit_zero (S := S5000x32) zeros2, View.ld_unit_zero (S := S16x32) zeros2, View.ld_unit_zero (S := S16) zeros1]
  obtain ⟨e00, e01, e10, e11, e20, e21, e30, e40, e41, e50, e60, e61, e70, e71⟩ := idx_facts1 t
  funext y
  refine normed_point1 (Hand.iblk1 V c 0 t) (Hand.iblk1 V c 1 t) (Hand.iblk1 V c 2 t) (Hand.iblk1 V c 3 t) (Hand.iblk1 V c 4 t) (Hand.iblk1 V c 5 t)
    (V c main_v13_0) (V c main_v26) (V c main_arg5) (V c main_arg6) (V c main_arg7) (V c main_arg8) y (((cfg1.win 7).blk t).view.emb y) ?_ ?_ ?_
    (whole1_2 V c t) (whole1_3 V c t) (whole1_4 V c t) (whole1_5 V c t)
  · show win1_7.index t (1 : Fin 2) * 16 + 1 * (y 1).val = (y 1).val; omega
  · intro k
    show V c main_v13_0 (((cfg1.win 0).blk t).view.emb (ix2 (y 0) k : S5000x32.Idx)) = V c main_v13_0 _
    refine congrArg (V c main_v13_0) ?_
    funext a; apply Fin.ext
    match a with
    | ⟨0, _⟩ => show win1_0.index t (0 : Fin 2) * 5000 + 1 * (y 0).val = win1_7.index t (0 : Fin 2) * 5000 + 1 * (y 0).val; omega
    | ⟨1, _⟩ => show win1_0.index t (1 : Fin 2) * 32 + 1 * k.val = k.val; omega
  · intro k
    show V c main_v26 (((cfg1.win 1).blk t).view.emb (ix2 (y 0) k : S5000x32.Idx)) = V c main_v26 _
    refine congrArg (V c main_v26) ?_
    funext a; apply Fin.ext
    match a with
    | ⟨0, _⟩ => show win1_1.index t (0 : Fin 2) * 5000 + 1 * (y 0).val = win1_7.index t (0 : Fin 2) * 5000 + 1 * (y 0).val; omega
    | ⟨1, _⟩ => show win1_1.index t (1 : Fin 2) * 32 + 1 * k.val = k.val; omega

/-- An index of window 6's array is in point `t`'s block iff each coordinate is in the block's range on its axis. -/
theorem mem_blk1_6 (t : Fin cfg1.N) (i : S100000x16.Idx) :
    i ∈ ((cfg1.win 6).blk t).view.set ↔ ∀ a : Fin 2, win1_6.index t a * S5000x16.size a ≤ (i a).val ∧ (i a).val < win1_6.index t a * S5000x16.size a + S5000x16.size a := by
  show i ∈ ((View.whole main_v27_0).slice (win1_6.rect t)).set ↔ _
  rw [View.set_slice_whole, Rect.mem_set_unit]
  exact Iff.rfl

/-- The twenty blocks of 5000 rows tile the array: row `r` is in the block of point `r / 5000`. -/
theorem cover1_6 (i : S100000x16.Idx) : ∃ t : Fin cfg1.N, (cfg1.win 6).flush t = true ∧ i ∈ ((cfg1.win 6).blk t).view.set := by
  have hi0 : (i 0).val < 100000 := (i 0).isLt
  have hi1 : (i 1).val < 16 := (i 1).isLt
  have hq : (i 0).val / 5000 < 20 := by omega
  obtain ⟨t, ht⟩ : ∃ t : Fin cfg1.N, t.val = (i 0).val / 5000 := ⟨⟨(i 0).val / 5000, hq⟩, rfl⟩
  obtain ⟨e00, e01, e10, e11, e20, e21, e30, e40, e41, e50, e60, e61, e70, e71⟩ := idx_facts1 t
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 16 ≤ (i 1).val ∧ (i 1).val < win1_6.index t (1 : Fin 2) * 16 + 16; omega

/-- An index of window 7's array is in point `t`'s block iff each coordinate is in the block's range on its axis. -/
theorem mem_blk1_7 (t : Fin cfg1.N) (i : S100000x16.Idx) :
    i ∈ ((cfg1.win 7).blk t).view.set ↔ ∀ a : Fin 2, win1_7.index t a * S5000x16.size a ≤ (i a).val ∧ (i a).val < win1_7.index t a * S5000x16.size a + S5000x16.size a := by
  show i ∈ ((View.whole main_v27_1).slice (win1_7.rect t)).set ↔ _
  rw [View.set_slice_whole, Rect.mem_set_unit]
  exact Iff.rfl

/-- The twenty blocks of 5000 rows tile the array: row `r` is in the block of point `r / 5000`. -/
theorem cover1_7 (i : S100000x16.Idx) : ∃ t : Fin cfg1.N, (cfg1.win 7).flush t = true ∧ i ∈ ((cfg1.win 7).blk t).view.set := by
  have hi0 : (i 0).val < 100000 := (i 0).isLt
  have hi1 : (i 1).val < 16 := (i 1).isLt
  have hq : (i 0).val / 5000 < 20 := by omega
  obtain ⟨t, ht⟩ : ∃ t : Fin cfg1.N, t.val = (i 0).val / 5000 := ⟨⟨(i 0).val / 5000, hq⟩, rfl⟩
  obtain ⟨e00, e01, e10, e11, e20, e21, e30, e40, e41, e50, e60, e61, e70, e71⟩ := idx_facts1 t
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 16 ≤ (i 1).val ∧ (i 1).val < win1_7.index t (1 : Fin 2) * 16 + 16; omega

/-- THE RAW OUTPUT ARRAY after the region: the layer's raw output of the arrays the region finds. -/
theorem final1_6 (c : Dev nD) : (Hand.dat1 (F := Ideal) V c).arrAt 6 cfg1.N
    = ofCoords (raw (V c main_v13_0) (V c main_v26) (V c main_arg5) (V c main_arg6) (V c main_arg7) (V c main_arg8)) :=
  (Hand.dat1 (F := Ideal) V c).arrAt_eq_of_cover 6 (rawArr1 V c) (fun t _ => flushed1_6_eq V c t) cover1_6

/-- THE NORMALISED OUTPUT ARRAY after the region: the raw output, each row divided by its floored norm. -/
theorem final1_7 (c : Dev nD) : (Hand.dat1 (F := Ideal) V c).arrAt 7 cfg1.N
    = ofCoords (normed (raw (V c main_v13_0) (V c main_v26) (V c main_arg5) (V c main_arg6) (V c main_arg7) (V c main_arg8))) :=
  (Hand.dat1 (F := Ideal) V c).arrAt_eq_of_cover 7 (normedArr1 V c) (fun t _ => flushed1_7_eq V c t) cover1_7

end Cert.KernelIdeal.Val

end
-- ==== Proof.RefStages.lean ====
import proofs.«111316_j86440511799625_1_alg».proof.Proof.Gen.ReferenceIdeal
import Idealize.ShloMosaic.PureOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages of the program as functions

Each is the composed term of the operations of one stretch of the program, spelt as the program spells them: the same
operations, records, literals and operand order. -/

/-- An index list of the edges with negative entries moved up by the number of rows (an index counted from the end). -/
def idxWrapE (i : IVec S1000000 32) : IVec S1000000 32 :=
  select (cmpi .slt i (broadcastInDim S1000000 ![] bcast_S_S1000000 (constantI S_ 32 0#32)))
    (addi i (broadcastInDim S1000000 ![] bcast_S_S1000000 (constantI S_ 32 100000#32))) i

/-- The same for an index list of the batch. -/
def idxWrapB (i : IVec S8192 32) : IVec S8192 32 :=
  select (cmpi .slt i (broadcastInDim S8192 ![] bcast_S_S8192 (constantI S_ 32 0#32)))
    (addi i (broadcastInDim S8192 ![] bcast_S_S8192 (constantI S_ 32 100000#32))) i

/-- The first aggregation: row `dst e` of the result is the sum over the edges `e` of `att e` times row `src e` of `x`
    (gather at the wrapped source index, scale by the edge weight, sum into the destination rows from zero). -/
def aggR0 (x : FVec F S100000x64 .f32) (att : FVec F S1000000 .f32) (src dst : IVec S1000000 32) : FVec F S100000x64 .f32 :=
  Host.scatterAdd scatter_S100000x64_S1000000x1_S1000000x64_1_0_0_1
    (broadcastInDim S100000x64 ![] bcast_S_S100000x64 (constant (F := F) S_ .f32 0x00000000#32))
    (broadcastInDim S1000000x1 ![0] bcast_S1000000_S1000000x1_0 dst)
    (mulf (Host.gather gather_S100000x64_S1000000x1_S1000000x64_1_0_n_n_0_1_164 x
        (broadcastInDim S1000000x1 ![0] bcast_S1000000_S1000000x1_0 (idxWrapE src)))
      (broadcastInDim S1000000x64 ![0, 1] bcast_S1000000x1_S1000000x64_0_1
        (broadcastInDim S1000000x1 ![0] bcast_S1000000_S1000000x1_0 att)))

/-- The second aggregation: the same at thirty-two columns. -/
def aggR1 (x : FVec F S100000x32 .f32) (att : FVec F S1000000 .f32) (src dst : IVec S1000000 32) : FVec F S100000x32 .f32 :=
  Host.scatterAdd scatter_S100000x32_S1000000x1_S1000000x32_1_0_0_1
    (broadcastInDim S100000x32 ![] bcast_S_S100000x32 (constant (F := F) S_ .f32 0x00000000#32))
    (broadcastInDim S1000000x1 ![0] bcast_S1000000_S1000000x1_0 dst)
    (mulf (Host.gather gather_S100000x32_S1000000x1_S1000000x32_1_0_n_n_0_1_132 x
        (broadcastInDim S1000000x1 ![0] bcast_S1000000_S1000000x1_0 (idxWrapE src)))
      (broadcastInDim S1000000x32 ![0, 1] bcast_S1000000x1_S1000000x32_0_1
        (broadcastInDim S1000000x1 ![0] bcast_S1000000_S1000000x1_0 att)))

/-- The leaky rectifier at thirty-two columns: `z` where `z ≥ 0`, `slope · z` elsewhere. -/
def leakyR32 (z : FVec F S100000x32 .f32) (slope : FVec F S_ .f32) : FVec F S100000x32 .f32 :=
  select (cmpf .oge z (broadcastInDim S100000x32 ![] bcast_S_S100000x32 (constant (F := F) S_ .f32 0x00000000#32))) z
    (mulf (broadcastInDim S100000x32 ![] bcast_S_S100000x32 (id slope)) z)

/-- The leaky rectifier at sixteen columns. -/
def leakyR16 (z : FVec F S100000x16 .f32) (slope : FVec F S_ .f32) : FVec F S100000x16 .f32 :=
  select (cmpf .oge z (broadcastInDim S100000x16 ![] bcast_S_S100000x16 (constant (F := F) S_ .f32 0x00000000#32))) z
    (mulf (broadcastInDim S100000x16 ![] bcast_S_S100000x16 (id slope)) z)

/-- An affine map of the rows, sixty-four columns to thirty-two: `h · wᵀ + b`. -/
def denseR0 (h : FVec F S100000x64 .f32) (w : FVec F S32x64 .f32) (b : FVec F S32 .f32) : FVec F S100000x32 .f32 :=
  addf (Host.dotGeneral dot_S100000x64_S64x32_S100000x32_1_0_0_1_n_n none h (transpose S64x32 [1, 0] w transposes_S32x64_S64x32_1_0))
    (broadcastInDim S100000x32 ![0, 1] bcast_S1x32_S100000x32_0_1 (broadcastInDim S1x32 ![1] bcast_S32_S1x32_1 b))

/-- An affine map of the rows, thirty-two columns to sixteen. -/
def denseR1 (h : FVec F S100000x32 .f32) (w : FVec F S16x32 .f32) (b : FVec F S16 .f32) : FVec F S100000x16 .f32 :=
  addf (Host.dotGeneral dot_S100000x32_S32x16_S100000x16_1_0_0_1_n_n none h (transpose S32x16 [1, 0] w transposes_S16x32_S32x16_1_0))
    (broadcastInDim S100000x16 ![0, 1] bcast_S1x16_S100000x16_0_1 (broadcastInDim S1x16 ![1] bcast_S16_S1x16_1 b))

/-- The first layer before normalisation: the rectified affine map of `x + e` plus that of `x · e`. -/
def rawR0 (x e : FVec F S100000x64 .f32) (w1 : FVec F S32x64 .f32) (b1 : FVec F S32 .f32) (w2 : FVec F S32x64 .f32)
    (b2 : FVec F S32 .f32) : FVec F S100000x32 .f32 :=
  addf (leakyR32 (denseR0 (addf x e) w1 b1) (constant (F := F) S_ .f32 0x3C23D70A#32))
    (leakyR32 (denseR0 (mulf x e) w2 b2) (constant (F := F) S_ .f32 0x3C23D70A#32))

/-- The second layer before normalisation. -/
def rawR1 (x e : FVec F S100000x32 .f32) (w1 : FVec F S16x32 .f32) (b1 : FVec F S16 .f32) (w2 : FVec F S16x32 .f32)
    (b2 : FVec F S16 .f32) : FVec F S100000x16 .f32 :=
  addf (leakyR16 (denseR1 (addf x e) w1 b1) (constant (F := F) S_ .f32 0x3C23D70A#32))
    (leakyR16 (denseR1 (mulf x e) w2 b2) (constant (F := F) S_ .f32 0x3C23D70A#32))

/-- Each row divided by the larger of its Euclidean norm and a small constant, at thirty-two columns. -/
def normR0 (raw : FVec F S100000x32 .f32) : FVec F S100000x32 .f32 :=
  Host.divf raw (broadcastInDim S100000x32 ![0, 1] bcast_S100000x1_S100000x32_0_1
    (maximumf (Host.sqrt (broadcastInDim S100000x1 ![0] bcast_S100000_S100000x1_0
        (Host.reduceAdd (mulf raw raw) (constant (F := F) S_ .f32 0x00000000#32) reducesTo_S100000x32_S100000_d1 h_S_)))
      (broadcastInDim S100000x1 ![] bcast_S_S100000x1 (constant (F := F) S_ .f32 0x2B8CBCCC#32))))

/-- The same at sixteen columns. -/
def normR1 (raw : FVec F S100000x16 .f32) : FVec F S100000x16 .f32 :=
  Host.divf raw (broadcastInDim S100000x16 ![0, 1] bcast_S100000x1_S100000x16_0_1
    (maximumf (Host.sqrt (broadcastInDim S100000x1 ![0] bcast_S100000_S100000x1_0
        (Host.reduceAdd (mulf raw raw) (constant (F := F) S_ .f32 0x00000000#32) reducesTo_S100000x16_S100000_d1 h_S_)))
      (broadcastInDim S100000x1 ![] bcast_S_S100000x1 (constant (F := F) S_ .f32 0x2B8CBCCC#32))))

/-- The three tables side by side: a hundred and twelve columns. -/
def catR (x : FVec F S100000x64 .f32) (n1 : FVec F S100000x32 .f32) (n2 : FVec F S100000x16 .f32) : FVec F S100000x112 .f32 :=
  concatenate S100000x112 1 [⟨S100000x64, x⟩, ⟨S100000x32, n1⟩, ⟨S100000x16, n2⟩]
    concatenates_S100000x64_S100000x32_S100000x16_S100000x112_d1

/-- The rows of the joined table at an index list of the batch. -/
def gatherRows112 (tbl : FVec F S100000x112 .f32) (i : IVec S8192 32) : FVec F S8192x112 .f32 :=
  Host.gather gather_S100000x112_S8192x1_S8192x112_1_0_n_n_0_1_1112 tbl
    (broadcastInDim S8192x1 ![0] bcast_S8192_S8192x1_0 (idxWrapB i))

/-- Row by row, the sum of the products of two tables' entries. -/
def rowDot (a b : FVec F S8192x112 .f32) : FVec F S8192 .f32 :=
  Host.reduceAdd (mulf a b) (constant (F := F) S_ .f32 0x00000000#32) reducesTo_S8192x112_S8192_d1 h_S_

/-- The softplus as the program computes it: `z` itself where `z − 0` is not a number, else `max z 0 + log1p (exp (−|z − 0|))`. -/
def softplusR (z : FVec F S8192 .f32) : FVec F S8192 .f32 :=
  select (cmpf .une (subf z (broadcastInDim S8192 ![] bcast_S_S8192 (constant (F := F) S_ .f32 0x00000000#32))) (subf z (broadcastInDim S8192 ![] bcast_S_S8192 (constant (F := F) S_ .f32 0x00000000#32))))
    (addf z (broadcastInDim S8192 ![] bcast_S_S8192 (constant (F := F) S_ .f32 0x00000000#32)))
    (addf (maximumf z (broadcastInDim S8192 ![] bcast_S_S8192 (constant (F := F) S_ .f32 0x00000000#32)))
      (Host.log1p (Host.exp (Host.negf (Host.absf (subf z (broadcastInDim S8192 ![] bcast_S_S8192 (constant (F := F) S_ .f32 0x00000000#32))))))))

/-- The sum over the batch of half the squared norm of each row. -/
def halfSqR (g : FVec F S8192x112 .f32) : FVec F S_ .f32 :=
  Host.reduceAdd (Host.divf (rowDot g g) (broadcastInDim S8192 ![] bcast_S_S8192 (constant (F := F) S_ .f32 0x40000000#32)))
    (constant (F := F) S_ .f32 0x00000000#32) reducesTo_S8192_S_d0 h_S_

/-- The first result: the sum over the batch of the softplus of the negated difference of the positive and the
    negative score. -/
def tailR0 (x : FVec F S100000x64 .f32) (n1 : FVec F S100000x32 .f32) (n2 : FVec F S100000x16 .f32) (u p n : IVec S8192 32) :
    FVec F S_ .f32 :=
  Host.reduceAdd
    (softplusR (Host.negf (subf (rowDot (gatherRows112 (catR x n1 n2) u) (gatherRows112 (catR x n1 n2) p))
      (rowDot (gatherRows112 (catR x n1 n2) u) (gatherRows112 (catR x n1 n2) n)))))
    (constant (F := F) S_ .f32 0x00000000#32) reducesTo_S8192_S_d0 h_S_

/-- The second result: a small constant times the sum of the three half squared norms. -/
def tailR1 (x : FVec F S100000x64 .f32) (n1 : FVec F S100000x32 .f32) (n2 : FVec F S100000x16 .f32) (u p n : IVec S8192 32) :
    FVec F S_ .f32 :=
  mulf (constant (F := F) S_ .f32 0x3727C5AC#32)
    (addf (addf (halfSqR (gatherRows112 (catR x n1 n2) u)) (halfSqR (gatherRows112 (catR x n1 n2) p)))
      (halfSqR (gatherRows112 (catR x n1 n2) n)))

end Cert.ReferenceIdeal.Hand

end
-- ==== Proof.LibNary3.lean ====
/-
  A host operation over a literal family of three operand buffers (a three-way concatenate): its result names each
  operand's contents at that operand's own buffer, so that a fold over a list of host operations can go on
  rewriting into the operands' contents.
-/
import Idealize.ShloMosaic.Lib.StableHlo.Run

namespace Cert.LibNary3

open Idealize.ShloMosaic Idealize.ShloMosaic.StableHlo

variable {τ : Topo} {sig : RefSig} {Val : EltTy → Type}

/-- The result of a three-operand `nary` at its own buffer: the function applied to the three operands' contents. -/
theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same, stated for a simp pass (the buffer is matched without indexing). -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- Three pieces joined along an axis: equal pieces give equal joins (a congruence rule, so that an equation between
    arrays can be used inside any of the three pieces). -/
theorem concatenate_triple_congr {α : Type} (t : Shape) (a : Fin t.rank) (s₁ s₂ s₃ : Shape)
    (x x' : s₁.Idx → α) (y y' : s₂.Idx → α) (z z' : s₃.Idx → α) (h : Shape.Concatenates [s₁, s₂, s₃] t a)
    (hx : x = x') (hy : y = y') (hz : z = z') :
    concatenate t a [⟨s₁, x⟩, ⟨s₂, y⟩, ⟨s₃, z⟩] h = concatenate t a [⟨s₁, x'⟩, ⟨s₂, y'⟩, ⟨s₃, z'⟩] h := by
  subst hx hy hz; rfl

/-- The fold of a list of host operations read at one buffer, in one simp pass, with the three-operand statement. -/
macro "after_results3" : tactic =>
  `(tactic| (simp (disch := decide) only [after_cons, after_nil,
      nullary_result', unary_result', binary_result', ternary_result', Cert.LibNary3.nary3_result',
      nullary_result_ne', unary_result_ne', binary_result_ne', ternary_result_ne', nary_result_ne']))

end Cert.LibNary3
-- ==== Proof.KHost.lean ====
import proofs.«111316_j86440511799625_1_alg».proof.Proof.Gen.KernelIdeal.Launch
import proofs.«111316_j86440511799625_1_alg».proof.Proof.RefStages
import proofs.«111316_j86440511799625_1_alg».proof.Proof.LibNary3
import Idealize.ShloMosaic.Lib.StableHlo.Run

set_option maxRecDepth 4096

noncomputable section

namespace Cert.KernelIdeal.Host

open Cert.KernelIdeal Cert.KernelIdeal.Gen Idealize.ShloMosaic Idealize.ShloMosaic.TcCoe Idealize.SL.Sem Idealize.ShloMosaic.StableHlo
open Cert.LibNary3

variable {F : FTy → Type} [FloatOps F]

/-! ## The host stretches of the kernel program, read at their results

The kernel program applies, around its two kernel regions, the same host operations as the reference: each stretch
read at its result buffer is the reference's stage function of the stretch's inputs. -/

attribute [local irreducible] Host.gather Host.scatterAdd Host.reduceAdd Host.sqrt Host.divf Host.exp Host.log1p transpose broadcastInDim concatenate in
/-- After the first host stretch its last buffer holds the aggregate of the embedding along the edges. -/
theorem agg0 (V : Valuation τ sig (Elt F)) :
    after hostOps0 V (Proc.devRef .tc main_v12)
      = Cert.ReferenceIdeal.Hand.aggR0 (V (Proc.devRef .tc main_arg0)) (V (Proc.devRef .tc main_arg9)) (V (Proc.devRef .tc main_arg10)) (V (Proc.devRef .tc main_arg11)) := by
  after_results_simp
  rfl

attribute [local irreducible] Host.gather Host.scatterAdd Host.reduceAdd Host.sqrt Host.divf Host.exp Host.log1p transpose broadcastInDim concatenate in
/-- After the three host stretches of the tail the first result buffer holds the summed softplus of the score
    differences. -/
theorem tail0 (V : Valuation τ sig (Elt F)) :
    after hostOps2_2 (after hostOps2_1 (after hostOps2 V)) (Proc.devRef .tc main_v57)
      = Cert.ReferenceIdeal.Hand.tailR0 (V (Proc.devRef .tc main_arg0)) (V (Proc.devRef .tc main_v13_1)) (V (Proc.devRef .tc main_v27_1)) (V (Proc.devRef .tc main_arg12)) (V (Proc.devRef .tc main_arg13)) (V (Proc.devRef .tc main_arg14)) := by
  after_results3
  rfl

attribute [local irreducible] Host.gather Host.scatterAdd Host.reduceAdd Host.sqrt Host.divf Host.exp Host.log1p transpose broadcastInDim concatenate in
/-- After the three host stretches of the tail the second result buffer holds the scaled sum of the half squared
    norms. -/
theorem tail1 (V : Valuation τ sig (Elt F)) :
    after hostOps2_2 (after hostOps2_1 (after hostOps2 V)) (Proc.devRef .tc main_v75)
      = Cert.ReferenceIdeal.Hand.tailR1 (V (Proc.devRef .tc main_arg0)) (V (Proc.devRef .tc main_v13_1)) (V (Proc.devRef .tc main_v27_1)) (V (Proc.devRef .tc main_arg12)) (V (Proc.devRef .tc main_arg13)) (V (Proc.devRef .tc main_arg14)) := by
  after_results3
  rfl

attribute [local irreducible] Host.gather Host.scatterAdd Host.reduceAdd Host.sqrt Host.divf Host.exp Host.log1p transpose broadcastInDim concatenate in
/-- After the second host stretch its last buffer holds the aggregate of the first layer's output. -/
theorem agg1 (V : Valuation τ sig (Elt F)) :
    after hostOps1 V (Proc.devRef .tc main_v26)
      = Cert.ReferenceIdeal.Hand.aggR1 (V (Proc.devRef .tc main_v13_0)) (V (Proc.devRef .tc main_arg9)) (V (Proc.devRef .tc main_arg10)) (V (Proc.devRef .tc main_arg11)) := by
  after_results_simp
  rfl

end Cert.KernelIdeal.Host

end
-- ==== Proof.RefEqA.lean ====
import proofs.«111316_j86440511799625_1_alg».proof.Proof.RefOps
import proofs.«111316_j86440511799625_1_alg».proof.Proof.RefStages

set_option maxRecDepth 4096
noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The two aggregation stretches, read at their results -/

attribute [local irreducible] Host.gather Host.scatterAdd Host.reduceAdd Host.sqrt Host.divf Host.exp Host.log1p transpose broadcastInDim concatenate in
/-- After the first aggregation stretch its last buffer holds the aggregate of the embedding along the edges. -/
theorem A0_v12 (V : Valuation τ sig (Elt F)) :
    after opsA0 V (Proc.devRef .tc main_v12)
      = aggR0 (V (Proc.devRef .tc main_arg0)) (V (Proc.devRef .tc main_arg9)) (V (Proc.devRef .tc main_arg10)) (V (Proc.devRef .tc main_arg11)) := by
  after_results_simp
  rfl

attribute [local irreducible] Host.gather Host.scatterAdd Host.reduceAdd Host.sqrt Host.divf Host.exp Host.log1p transpose broadcastInDim concatenate in
/-- After the second aggregation stretch its last buffer holds the aggregate of the first layer's output. -/
theorem A1_v48 (V : Valuation τ sig (Elt F)) :
    after opsA1 V (Proc.devRef .tc main_v48)
      = aggR1 (V (Proc.devRef .tc main_v27)) (V (Proc.devRef .tc main_arg9)) (V (Proc.devRef .tc main_arg10)) (V (Proc.devRef .tc main_arg11)) := by
  after_results_simp
  rfl

end Cert.ReferenceIdeal.Hand

end
-- ==== Proof.RefEqD.lean ====
import proofs.«111316_j86440511799625_1_alg».proof.Proof.RefOps
import proofs.«111316_j86440511799625_1_alg».proof.Proof.RefStages

set_option maxRecDepth 4096
noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The two dense stretches, read at their results -/

attribute [local irreducible] Host.gather Host.scatterAdd Host.reduceAdd Host.sqrt Host.divf Host.exp Host.log1p transpose broadcastInDim concatenate in
/-- After the first dense stretch: the layer's output before normalisation. -/
theorem D0_v27 (V : Valuation τ sig (Elt F)) :
    after opsD0 V (Proc.devRef .tc main_v27)
      = rawR0 (V (Proc.devRef .tc main_arg0)) (V (Proc.devRef .tc main_v12)) (V (Proc.devRef .tc main_arg1)) (V (Proc.devRef .tc main_arg2)) (V (Proc.devRef .tc main_arg3)) (V (Proc.devRef .tc main_arg4)) := by
  after_results_simp
  rfl

attribute [local irreducible] Host.gather Host.scatterAdd Host.reduceAdd Host.sqrt Host.divf Host.exp Host.log1p transpose broadcastInDim concatenate in
/-- After the first dense stretch: the layer's output, rows normalised. -/
theorem D0_v35 (V : Valuation τ sig (Elt F)) :
    after opsD0 V (Proc.devRef .tc main_v35)
      = normR0 (rawR0 (V (Proc.devRef .tc main_arg0)) (V (Proc.devRef .tc main_v12)) (V (Proc.devRef .tc main_arg1)) (V (Proc.devRef .tc main_arg2)) (V (Proc.devRef .tc main_arg3)) (V (Proc.devRef .tc main_arg4))) := by
  after_results_simp
  rfl

attribute [local irreducible] Host.gather Host.scatterAdd Host.reduceAdd Host.sqrt Host.divf Host.exp Host.log1p transpose broadcastInDim concatenate in
/-- After the second dense stretch: the layer's output before normalisation. -/
theorem D1_v63 (V : Valuation τ sig (Elt F)) :
    after opsD1 V (Proc.devRef .tc main_v63)
      = rawR1 (V (Proc.devRef .tc main_v27)) (V (Proc.devRef .tc main_v48)) (V (Proc.devRef .tc main_arg5)) (V (Proc.devRef .tc main_arg6)) (V (Proc.devRef .tc main_arg7)) (V (Proc.devRef .tc main_arg8)) := by
  after_results_simp
  rfl

attribute [local irreducible] Host.gather Host.scatterAdd Host.reduceAdd Host.sqrt Host.divf Host.exp Host.log1p transpose broadcastInDim concatenate in
/-- After the second dense stretch: the layer's output, rows normalised. -/
theorem D1_v71 (V : Valuation τ sig (Elt F)) :
    after opsD1 V (Proc.devRef .tc main_v71)
      = normR1 (rawR1 (V (Proc.devRef .tc main_v27)) (V (Proc.devRef .tc main_v48)) (V (Proc.devRef .tc main_arg5)) (V (Proc.devRef .tc main_arg6)) (V (Proc.devRef .tc main_arg7)) (V (Proc.devRef .tc main_arg8))) := by
  after_results_simp
  rfl

end Cert.ReferenceIdeal.Hand

end
-- ==== Proof.RefEqT.lean ====
import proofs.«111316_j86440511799625_1_alg».proof.Proof.RefOps
import proofs.«111316_j86440511799625_1_alg».proof.Proof.RefStages
import proofs.«111316_j86440511799625_1_alg».proof.Proof.LibNary3

set_option maxRecDepth 4096
noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open Cert.LibNary3

/-! ## The tail, read at the two results -/

attribute [local irreducible] Host.gather Host.scatterAdd Host.reduceAdd Host.sqrt Host.divf Host.exp Host.log1p transpose broadcastInDim concatenate in
/-- After the tail the first result buffer holds the summed softplus of the score differences. -/
theorem T_v101 (V : Valuation τ sig (Elt F)) :
    after opsT V (Proc.devRef .tc main_v101)
      = tailR0 (V (Proc.devRef .tc main_arg0)) (V (Proc.devRef .tc main_v35)) (V (Proc.devRef .tc main_v71)) (V (Proc.devRef .tc main_arg12)) (V (Proc.devRef .tc main_arg13)) (V (Proc.devRef .tc main_arg14)) := by
  after_results3
  rfl

attribute [local irreducible] Host.gather Host.scatterAdd Host.reduceAdd Host.sqrt Host.divf Host.exp Host.log1p transpose broadcastInDim concatenate in
/-- After the tail the second result buffer holds the scaled sum of the half squared norms. -/
theorem T_v119 (V : Valuation τ sig (Elt F)) :
    after opsT V (Proc.devRef .tc main_v119)
      = tailR1 (V (Proc.devRef .tc main_arg0)) (V (Proc.devRef .tc main_v35)) (V (Proc.devRef .tc main_v71)) (V (Proc.devRef .tc main_arg12)) (V (Proc.devRef .tc main_arg13)) (V (Proc.devRef .tc main_arg14)) := by
  after_results3
  rfl

end Cert.ReferenceIdeal.Hand

end
-- ==== Proof.RefEqAll.lean ====
import proofs.«111316_j86440511799625_1_alg».proof.Proof.RefEqA
import proofs.«111316_j86440511799625_1_alg».proof.Proof.RefEqD
import proofs.«111316_j86440511799625_1_alg».proof.Proof.RefEqT

set_option maxRecDepth 4096
noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stretches composed: the two results as terms of the arguments -/

/-- The first layer's output before normalisation, of the arguments' contents. -/
abbrev r1Of (V : Valuation τ sig (Elt F)) : FVec F S100000x32 .f32 :=
  rawR0 (V (Proc.devRef .tc main_arg0)) (aggR0 (V (Proc.devRef .tc main_arg0)) (V (Proc.devRef .tc main_arg9)) (V (Proc.devRef .tc main_arg10)) (V (Proc.devRef .tc main_arg11))) (V (Proc.devRef .tc main_arg1)) (V (Proc.devRef .tc main_arg2)) (V (Proc.devRef .tc main_arg3)) (V (Proc.devRef .tc main_arg4))

/-- The second layer's output before normalisation, of the arguments' contents. -/
abbrev r2Of (V : Valuation τ sig (Elt F)) : FVec F S100000x16 .f32 :=
  rawR1 (r1Of V) (aggR1 (r1Of V) (V (Proc.devRef .tc main_arg9)) (V (Proc.devRef .tc main_arg10)) (V (Proc.devRef .tc main_arg11))) (V (Proc.devRef .tc main_arg5)) (V (Proc.devRef .tc main_arg6)) (V (Proc.devRef .tc main_arg7)) (V (Proc.devRef .tc main_arg8))

/-- A buffer the first two stretches do not write holds after them what it held before. -/
theorem keep2 (V : Valuation τ sig (Elt F)) (r : Ref sig .tc) (h0 : r ∉ opsA0_W) (h1 : r ∉ opsD0_W) :
    after opsD0 (after opsA0 V) (Proc.devRef .tc r) = V (Proc.devRef .tc r) := by
  rw [opsD0_keep _ r h1, opsA0_keep _ r h0]

theorem keep3 (V : Valuation τ sig (Elt F)) (r : Ref sig .tc) (h0 : r ∉ opsA0_W) (h1 : r ∉ opsD0_W) (h2 : r ∉ opsA1_W) :
    after opsA1 (after opsD0 (after opsA0 V)) (Proc.devRef .tc r) = V (Proc.devRef .tc r) := by
  rw [opsA1_keep _ r h2, keep2 V r h0 h1]

theorem keep4 (V : Valuation τ sig (Elt F)) (r : Ref sig .tc) (h0 : r ∉ opsA0_W) (h1 : r ∉ opsD0_W) (h2 : r ∉ opsA1_W)
    (h3 : r ∉ opsD1_W) :
    after opsD1 (after opsA1 (after opsD0 (after opsA0 V))) (Proc.devRef .tc r) = V (Proc.devRef .tc r) := by
  rw [opsD1_keep _ r h3, keep3 V r h0 h1 h2]

/-- After the first two stretches: the first layer's output before normalisation. -/
theorem V2_v27 (V : Valuation τ sig (Elt F)) :
    after opsD0 (after opsA0 V) (Proc.devRef .tc main_v27) = r1Of V := by
  rw [D0_v27, A0_v12, opsA0_keep V main_arg0 (by decide), opsA0_keep V main_arg1 (by decide), opsA0_keep V main_arg2 (by decide),
    opsA0_keep V main_arg3 (by decide), opsA0_keep V main_arg4 (by decide)]

/-- After the first two stretches: the first layer's output, rows normalised. -/
theorem V2_v35 (V : Valuation τ sig (Elt F)) :
    after opsD0 (after opsA0 V) (Proc.devRef .tc main_v35) = normR0 (r1Of V) := by
  rw [D0_v35, A0_v12, opsA0_keep V main_arg0 (by decide), opsA0_keep V main_arg1 (by decide), opsA0_keep V main_arg2 (by decide),
    opsA0_keep V main_arg3 (by decide), opsA0_keep V main_arg4 (by decide)]

/-- After the first three stretches: the aggregate of the first layer's output. -/
theorem V3_v48 (V : Valuation τ sig (Elt F)) :
    after opsA1 (after opsD0 (after opsA0 V)) (Proc.devRef .tc main_v48)
      = aggR1 (r1Of V) (V (Proc.devRef .tc main_arg9)) (V (Proc.devRef .tc main_arg10)) (V (Proc.devRef .tc main_arg11)) := by
  rw [A1_v48, V2_v27, keep2 V main_arg9 (by decide) (by decide), keep2 V main_arg10 (by decide) (by decide),
    keep2 V main_arg11 (by decide) (by decide)]

/-- After the first three stretches the first layer's output is still in its buffer. -/
theorem V3_v27 (V : Valuation τ sig (Elt F)) :
    after opsA1 (after opsD0 (after opsA0 V)) (Proc.devRef .tc main_v27) = r1Of V := by
  rw [opsA1_keep _ main_v27 (by decide), V2_v27]

/-- After the first four stretches: the second layer's output before normalisation. -/
theorem V4_v63 (V : Valuation τ sig (Elt F)) :
    after opsD1 (after opsA1 (after opsD0 (after opsA0 V))) (Proc.devRef .tc main_v63) = r2Of V := by
  rw [D1_v63, V3_v27, V3_v48, keep3 V main_arg5 (by decide) (by decide) (by decide), keep3 V main_arg6 (by decide) (by decide) (by decide),
    keep3 V main_arg7 (by decide) (by decide) (by decide), keep3 V main_arg8 (by decide) (by decide) (by decide)]

/-- After the first four stretches: the second layer's output, rows normalised. -/
theorem V4_v71 (V : Valuation τ sig (Elt F)) :
    after opsD1 (after opsA1 (after opsD0 (after opsA0 V))) (Proc.devRef .tc main_v71) = normR1 (r2Of V) := by
  rw [D1_v71, V3_v27, V3_v48, keep3 V main_arg5 (by decide) (by decide) (by decide), keep3 V main_arg6 (by decide) (by decide) (by decide),
    keep3 V main_arg7 (by decide) (by decide) (by decide), keep3 V main_arg8 (by decide) (by decide) (by decide)]

/-- After the first four stretches the first layer's normalised output is still in its buffer. -/
theorem V4_v35 (V : Valuation τ sig (Elt F)) :
    after opsD1 (after opsA1 (after opsD0 (after opsA0 V))) (Proc.devRef .tc main_v35) = normR0 (r1Of V) := by
  rw [opsD1_keep _ main_v35 (by decide), opsA1_keep _ main_v35 (by decide), V2_v35]

/-- The first result of the program, of the arguments' contents. -/
theorem res_v101 (V : Valuation τ sig (Elt F)) :
    after ops V (Proc.devRef .tc main_v101)
      = tailR0 (V (Proc.devRef .tc main_arg0)) (normR0 (r1Of V)) (normR1 (r2Of V)) (V (Proc.devRef .tc main_arg12)) (V (Proc.devRef .tc main_arg13)) (V (Proc.devRef .tc main_arg14)) := by
  rw [after_ops, T_v101, V4_v35, V4_v71, keep4 V main_arg0 (by decide) (by decide) (by decide) (by decide),
    keep4 V main_arg12 (by decide) (by decide) (by decide) (by decide), keep4 V main_arg13 (by decide) (by decide) (by decide) (by decide),
    keep4 V main_arg14 (by decide) (by decide) (by decide) (by decide)]

/-- The second result of the program, of the arguments' contents. -/
theorem res_v119 (V : Valuation τ sig (Elt F)) :
    after ops V (Proc.devRef .tc main_v119)
      = tailR1 (V (Proc.devRef .tc main_arg0)) (normR0 (r1Of V)) (normR1 (r2Of V)) (V (Proc.devRef .tc main_arg12)) (V (Proc.devRef .tc main_arg13)) (V (Proc.devRef .tc main_arg14)) := by
  rw [after_ops, T_v119, V4_v35, V4_v71, keep4 V main_arg0 (by decide) (by decide) (by decide) (by decide),
    keep4 V main_arg12 (by decide) (by decide) (by decide) (by decide), keep4 V main_arg13 (by decide) (by decide) (by decide) (by decide),
    keep4 V main_arg14 (by decide) (by decide) (by decide) (by decide)]

end Cert.ReferenceIdeal.Hand

end
-- ==== Proof.RefRead0.lean ====
/-
  The reference's first layer, read at an index over the extended reals.

  The reference computes the layer on the whole table at once: a product of the `[100000, 64]` table with the
  transposed `[32, 64]` weight, the bias broadcast down the rows, the leaky rectifier as a comparison and a select, and
  the row normalisation as a row sum of squares, a root, a floor at `ε` and a quotient. Read at row `r` and column `j`
  each is what `LayerSpec` states: the product is the sum over the 64 contracted positions, the broadcasts read the
  bias at `j` and the row's divisor at `r`, and the host's sum from zero is the sum over the 32 columns.
-/
import proofs.«111316_j86440511799625_1_alg».proof.Proof.RefStages
import proofs.«111316_j86440511799625_1_alg».proof.Proof.LayerSpec
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read0

open Cert.ReferenceIdeal Cert.ReferenceIdeal.Gen Cert.ReferenceIdeal.Hand Idealize.ShloMosaic Idealize.ShloMosaic.ValueIdx Cert.LayerSpec

/-- The table product's dimension numbers: 100000 × 64 against 64 × 32. -/
abbrev dR := dot_S100000x64_S64x32_S100000x32_1_0_0_1_n_n

/-- The table product read at `(r, j)`: the sum over the one contracted coordinate `k` of the table at `(r, k)` times
    the weight at `(j, k)` (the transposed weight read back). -/
theorem mm_apply (h : FVec Ideal S100000x64 .f32) (w : FVec Ideal S32x64 .f32) (r : Fin 100000) (j : Fin 32) :
    Host.dotGeneral dR none h (transpose S64x32 [1, 0] w transposes_S32x64_S64x32_1_0) (ix2 r j)
      = ∑ k : Fin 64, h (ix2 r k) * w (ix2 j k) := by
  simp only [Host.dotGeneral]
  refine (Ideal.dotGeneral_apply dR none _ _ _ (ix2 r j)).trans ?_
  rw [← Equiv.sum_comp (contrEquiv1 dR 64 rfl rfl).symm]
  refine Finset.sum_congr rfl fun k _ => ?_
  have hl : dR.lhsIdx (ix2 r j) ((contrEquiv1 dR 64 rfl rfl).symm k) = ix2 r k := by
    funext c; apply Fin.ext
    match c with
    | ⟨0, _⟩ => rfl
    | ⟨1, _⟩ => exact (dR.lhsIdx_val_of_single rfl _ _).trans (contrEquiv1_symm_val dR 64 rfl rfl k)
  have hr : dR.rhsIdx (ix2 r j) ((contrEquiv1 dR 64 rfl rfl).symm k) = ix2 k j := by
    funext c; apply Fin.ext
    match c with
    | ⟨0, _⟩ => exact (dR.rhsIdx_val_of_single rfl _ _).trans (contrEquiv1_symm_val dR 64 rfl rfl k)
    | ⟨1, _⟩ => rfl
  rw [hl, hr]
  refine congrArg (h (ix2 r k) * ·) ?_
  exact transpose_ix2_apply (a := 32) (b := 64) w transposes_S32x64_S64x32_1_0 k j

/-- The bias, broadcast to one row and then down the table, reads `b j` at every row. -/
theorem bias_apply (b : FVec Ideal S32 .f32) (r : Fin 100000) (j : Fin 32) :
    broadcastInDim S100000x32 ![0, 1] bcast_S1x32_S100000x32_0_1 (broadcastInDim S1x32 ![1] bcast_S32_S1x32_1 b) (ix2 r j) = b (ix1 j) :=
  (broadcastInDim_apply _ _ _ (ix2 r j) (ix2 (0 : Fin 1) j) fun a => by
      match a with
      | ⟨0, _⟩ => rfl
      | ⟨1, _⟩ => rfl).trans
    (broadcastInDim_apply _ _ b (ix2 (0 : Fin 1) j) (ix1 j) fun a => by
      match a with
      | ⟨0, _⟩ => rfl)

/-- The affine map at `(r, j)`. -/
theorem dense_apply (h : FVec Ideal S100000x64 .f32) (w : FVec Ideal S32x64 .f32) (b : FVec Ideal S32 .f32) (r : Fin 100000) (j : Fin 32) :
    denseR0 h w b (ix2 r j) = lin h w b r j := by
  unfold denseR0 lin
  rw [addf_apply, mm_apply, bias_apply]

/-- The rectifier, spelt as a comparison with a broadcast zero and a select against the broadcast slope times `z`, is
    `leaky` element by element. -/
theorem leaky_apply (z : FVec Ideal S100000x32 .f32) (i : S100000x32.Idx) :
    leakyR32 z (constant (F := Ideal) S_ .f32 0x3C23D70A#32) i = leaky (z i) := rfl

/-- The reference's raw output of the layer is the specification's, index by index. -/
theorem raw_apply (x e : FVec Ideal S100000x64 .f32) (w1 : FVec Ideal S32x64 .f32) (b1 : FVec Ideal S32 .f32)
    (w2 : FVec Ideal S32x64 .f32) (b2 : FVec Ideal S32 .f32) (r : Fin 100000) (j : Fin 32) :
    rawR0 (F := Ideal) x e w1 b1 w2 b2 (ix2 r j) = raw x e w1 b1 w2 b2 r j := by
  unfold rawR0 raw
  rw [addf_apply, leaky_apply, leaky_apply, dense_apply, dense_apply]
  rfl

/-- The host's sum along the columns from the zero word, read at row `r`: the sum of the row's 32 entries. -/
theorem rowsum_apply (v : FVec Ideal S100000x32 .f32) (r : Fin 100000) :
    Host.reduceAdd v (constant (F := Ideal) S_ .f32 0x00000000#32) reducesTo_S100000x32_S100000_d1 h_S_ (ix1 r)
      = ∑ l : Fin 32, v (ix2 r l) := by
  rw [hostReduceAdd_apply]
  refine (Ideal.hostReduceAdd_single reducesTo_S100000x32_S100000_d1 (by decide) v _ (ix1 r)).trans ?_
  rw [constant_apply, Ideal.ofBits_zero_f32, zero_add]
  refine Finset.sum_congr rfl fun l _ => congrArg v ?_
  funext d
  apply Fin.ext
  match d with
  | ⟨0, _⟩ => rfl
  | ⟨1, _⟩ => rfl

/-- The host's square root is the extended reals' root, element by element. -/
theorem hostSqrt_apply {s : Shape} (v : FVec Ideal s .f32) (i : s.Idx) : Host.sqrt v i = Ideal.sqrt (v i) := rfl

/-- The reference's normalised output is the specification's, index by index. -/
theorem normed_apply (R : FVec Ideal S100000x32 .f32) (r : Fin 100000) (j : Fin 32) :
    normR0 (F := Ideal) R (ix2 r j) = normed (fun r l => R (ix2 r l)) r j := by
  unfold normR0 normed denom
  rw [hostDivf_apply]
  refine congrArg (Ideal.div _) ?_
  refine (broadcastInDim_apply _ _ _ (ix2 r j) (ix2 r (0 : Fin 1)) fun a => by
      match a with
      | ⟨0, _⟩ => rfl
      | ⟨1, _⟩ => rfl).trans ?_
  have hsum : broadcastInDim S100000x1 ![0] bcast_S100000_S100000x1_0
      (Host.reduceAdd (mulf R R) (constant (F := Ideal) S_ .f32 0x00000000#32) reducesTo_S100000x32_S100000_d1 h_S_) (ix2 r (0 : Fin 1))
        = ∑ l : Fin 32, R (ix2 r l) * R (ix2 r l) :=
    (broadcastInDim_apply _ _ _ (ix2 r (0 : Fin 1)) (ix1 r) fun a => by
      match a with
      | ⟨0, _⟩ => rfl).trans (by rw [rowsum_apply]; simp only [mulf_apply])
  rw [maximumf_apply, hostSqrt_apply, broadcastInDim_scalar_apply, constant_apply, hsum]

end Cert.ReferenceIdeal.Read0

end
-- ==== Proof.RefRead1.lean ====
/-
  The reference's second layer, read at an index over the extended reals.

  The reference computes the layer on the whole table at once: a product of the `[100000, 32]` table with the
  transposed `[16, 32]` weight, the bias broadcast down the rows, the leaky rectifier as a comparison and a select, and
  the row normalisation as a row sum of squares, a root, a floor at `ε` and a quotient. Read at row `r` and column `j`
  each is what `LayerSpec` states: the product is the sum over the 32 contracted positions, the broadcasts read the
  bias at `j` and the row's divisor at `r`, and the host's sum from zero is the sum over the 16 columns.
-/
import proofs.«111316_j86440511799625_1_alg».proof.Proof.RefStages
import proofs.«111316_j86440511799625_1_alg».proof.Proof.LayerSpec
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Read1

open Cert.ReferenceIdeal Cert.ReferenceIdeal.Gen Cert.ReferenceIdeal.Hand Idealize.ShloMosaic Idealize.ShloMosaic.ValueIdx Cert.LayerSpec

/-- The table product's dimension numbers: 100000 × 32 against 32 × 16. -/
abbrev dR := dot_S100000x32_S32x16_S100000x16_1_0_0_1_n_n

/-- The table product read at `(r, j)`: the sum over the one contracted coordinate `k` of the table at `(r, k)` times
    the weight at `(j, k)` (the transposed weight read back). -/
theorem mm_apply (h : FVec Ideal S100000x32 .f32) (w : FVec Ideal S16x32 .f32) (r : Fin 100000) (j : Fin 16) :
    Host.dotGeneral dR none h (transpose S32x16 [1, 0] w transposes_S16x32_S32x16_1_0) (ix2 r j)
      = ∑ k : Fin 32, h (ix2 r k) * w (ix2 j k) := by
  simp only [Host.dotGeneral]
  refine (Ideal.dotGeneral_apply dR none _ _ _ (ix2 r j)).trans ?_
  rw [← Equiv.sum_comp (contrEquiv1 dR 32 rfl rfl).symm]
  refine Finset.sum_congr rfl fun k _ => ?_
  have hl : dR.lhsIdx (ix2 r j) ((contrEquiv1 dR 32 rfl rfl).symm k) = ix2 r k := by
    funext c; apply Fin.ext
    match c with
    | ⟨0, _⟩ => rfl
    | ⟨1, _⟩ => exact (dR.lhsIdx_val_of_single rfl _ _).trans (contrEquiv1_symm_val dR 32 rfl rfl k)
  have hr : dR.rhsIdx (ix2 r j) ((contrEquiv1 dR 32 rfl rfl).symm k) = ix2 k j := by
    funext c; apply Fin.ext
    match c with
    | ⟨0, _⟩ => exact (dR.rhsIdx_val_of_single rfl _ _).trans (contrEquiv1_symm_val dR 32 rfl rfl k)
    | ⟨1, _⟩ => rfl
  rw [hl, hr]
  refine congrArg (h (ix2 r k) * ·) ?_
  exact transpose_ix2_apply (a := 16) (b := 32) w transposes_S16x32_S32x16_1_0 k j

/-- The bias, broadcast to one row and then down the table, reads `b j` at every row. -/
theorem bias_apply (b : FVec Ideal S16 .f32) (r : Fin 100000) (j : Fin 16) :
    broadcastInDim S100000x16 ![0, 1] bcast_S1x16_S100000x16_0_1 (broadcastInDim S1x16 ![1] bcast_S16_S1x16_1 b) (ix2 r j) = b (ix1 j) :=
  (broadcastInDim_apply _ _ _ (ix2 r j) (ix2 (0 : Fin 1) j) fun a => by
      match a with
      | ⟨0, _⟩ => rfl
      | ⟨1, _⟩ => rfl).trans
    (broadcastInDim_apply _ _ b (ix2 (0 : Fin 1) j) (ix1 j) fun a => by
      match a with
      | ⟨0, _⟩ => rfl)

/-- The affine map at `(r, j)`. -/
theorem dense_apply (h : FVec Ideal S100000x32 .f32) (w : FVec Ideal S16x32 .f32) (b : FVec Ideal S16 .f32) (r : Fin 100000) (j : Fin 16) :
    denseR1 h w b (ix2 r j) = lin h w b r j := by
  unfold denseR1 lin
  rw [addf_apply, mm_apply, bias_apply]

/-- The rectifier, spelt as a comparison with a broadcast zero and a select against the broadcast slope times `z`, is
    `leaky` element by element. -/
theorem leaky_apply (z : FVec Ideal S100000x16 .f32) (i : S100000x16.Idx) :
    leakyR16 z (constant (F := Ideal) S_ .f32 0x3C23D70A#32) i = leaky (z i) := rfl

/-- The reference's raw output of the layer is the specification's, index by index. -/
theorem raw_apply (x e : FVec Ideal S100000x32 .f32) (w1 : FVec Ideal S16x32 .f32) (b1 : FVec Ideal S16 .f32)
    (w2 : FVec Ideal S16x32 .f32) (b2 : FVec Ideal S16 .f32) (r : Fin 100000) (j : Fin 16) :
    rawR1 (F := Ideal) x e w1 b1 w2 b2 (ix2 r j) = raw x e w1 b1 w2 b2 r j := by
  unfold rawR1 raw
  rw [addf_apply, leaky_apply, leaky_apply, dense_apply, dense_apply]
  rfl

/-- The host's sum along the columns from the zero word, read at row `r`: the sum of the row's 16 entries. -/
theorem rowsum_apply (v : FVec Ideal S100000x16 .f32) (r : Fin 100000) :
    Host.reduceAdd v (constant (F := Ideal) S_ .f32 0x00000000#32) reducesTo_S100000x16_S100000_d1 h_S_ (ix1 r)
      = ∑ l : Fin 16, v (ix2 r l) := by
  rw [hostReduceAdd_apply]
  refine (Ideal.hostReduceAdd_single reducesTo_S100000x16_S100000_d1 (by decide) v _ (ix1 r)).trans ?_
  rw [constant_apply, Ideal.ofBits_zero_f32, zero_add]
  refine Finset.sum_congr rfl fun l _ => congrArg v ?_
  funext d
  apply Fin.ext
  match d with
  | ⟨0, _⟩ => rfl
  | ⟨1, _⟩ => rfl

/-- The host's square root is the extended reals' root, element by element. -/
theorem hostSqrt_apply {s : Shape} (v : FVec Ideal s .f32) (i : s.Idx) : Host.sqrt v i = Ideal.sqrt (v i) := rfl

/-- The reference's normalised output is the specification's, index by index. -/
theorem normed_apply (R : FVec Ideal S100000x16 .f32) (r : Fin 100000) (j : Fin 16) :
    normR1 (F := Ideal) R (ix2 r j) = normed (fun r l => R (ix2 r l)) r j := by
  unfold normR1 normed denom
  rw [hostDivf_apply]
  refine congrArg (Ideal.div _) ?_
  refine (broadcastInDim_apply _ _ _ (ix2 r j) (ix2 r (0 : Fin 1)) fun a => by
      match a with
      | ⟨0, _⟩ => rfl
      | ⟨1, _⟩ => rfl).trans ?_
  have hsum : broadcastInDim S100000x1 ![0] bcast_S100000_S100000x1_0
      (Host.reduceAdd (mulf R R) (constant (F := Ideal) S_ .f32 0x00000000#32) reducesTo_S100000x16_S100000_d1 h_S_) (ix2 r (0 : Fin 1))
        = ∑ l : Fin 16, R (ix2 r l) * R (ix2 r l) :=
    (broadcastInDim_apply _ _ _ (ix2 r (0 : Fin 1)) (ix1 r) fun a => by
      match a with
      | ⟨0, _⟩ => rfl).trans (by rw [rowsum_apply]; simp only [mulf_apply])
  rw [maximumf_apply, hostSqrt_apply, broadcastInDim_scalar_apply, constant_apply, hsum]

end Cert.ReferenceIdeal.Read1

end
-- ==== Proof.Whole.lean ====
/-
  Both results as ONE function of the fifteen argument arrays, over the extended reals, and the reference's run read
  as that function.

  Write `A₀ x` for the first aggregation of the table `x` (edge weights `att`, endpoints `src`, `dst`) and `A₁` for the
  second. The first layer's raw output is the array `R₁ = raw x (A₀ x) w₁ b₁ w₂ b₂` and its normalised output
  `N₁ = normed R₁`; the second layer takes `R₁` for its table: `R₂ = raw R₁ (A₁ R₁) w₁' b₁' w₂' b₂'`, `N₂ = normed R₂`.
  The two results are the two closing functions of `(x, N₁, N₂)` and the three index lists of the batch. The reference
  computes the layers on whole tables; read index by index (the two layer modules) its tables are `R₁, N₁, R₂, N₂`.
-/
import proofs.«111316_j86440511799625_1_alg».proof.Proof.RefStages
import proofs.«111316_j86440511799625_1_alg».proof.Proof.RefEqAll
import proofs.«111316_j86440511799625_1_alg».proof.Proof.RefRead0
import proofs.«111316_j86440511799625_1_alg».proof.Proof.RefRead1
import proofs.«111316_j86440511799625_1_alg».proof.Proof.LayerSpec

noncomputable section

namespace Cert.Whole

open Cert.ReferenceIdeal Cert.ReferenceIdeal.Gen Cert.ReferenceIdeal.Hand Cert.LayerSpec
open Idealize.ShloMosaic Idealize.ShloMosaic.ValueIdx Idealize.ShloMosaic.StableHlo

/-- The reference's first raw table is the specification's array. -/
theorem rawR0_eq (x e : FVec Ideal S100000x64 .f32) (w1 : FVec Ideal S32x64 .f32) (b1 : FVec Ideal S32 .f32)
    (w2 : FVec Ideal S32x64 .f32) (b2 : FVec Ideal S32 .f32) :
    rawR0 (F := Ideal) x e w1 b1 w2 b2 = ofCoords (raw x e w1 b1 w2 b2) :=
  ext_ix2 _ _ fun a b => Cert.ReferenceIdeal.Read0.raw_apply x e w1 b1 w2 b2 a b

/-- Normalising an array given by its entries gives the array of the normalised entries. -/
theorem normR0_eq (f : Fin 100000 → Fin 32 → EReal) : normR0 (F := Ideal) (ofCoords f) = ofCoords (normed f) :=
  ext_ix2 _ _ fun a b => Cert.ReferenceIdeal.Read0.normed_apply (ofCoords f) a b

/-- The reference's second raw table is the specification's array. -/
theorem rawR1_eq (x e : FVec Ideal S100000x32 .f32) (w1 : FVec Ideal S16x32 .f32) (b1 : FVec Ideal S16 .f32)
    (w2 : FVec Ideal S16x32 .f32) (b2 : FVec Ideal S16 .f32) :
    rawR1 (F := Ideal) x e w1 b1 w2 b2 = ofCoords (raw x e w1 b1 w2 b2) :=
  ext_ix2 _ _ fun a b => Cert.ReferenceIdeal.Read1.raw_apply x e w1 b1 w2 b2 a b

/-- The same at sixteen columns. -/
theorem normR1_eq (f : Fin 100000 → Fin 16 → EReal) : normR1 (F := Ideal) (ofCoords f) = ofCoords (normed f) :=
  ext_ix2 _ _ fun a b => Cert.ReferenceIdeal.Read1.normed_apply (ofCoords f) a b

section
variable (x : FVec Ideal S100000x64 .f32) (w1 : FVec Ideal S32x64 .f32) (b1 : FVec Ideal S32 .f32)
  (w2 : FVec Ideal S32x64 .f32) (b2 : FVec Ideal S32 .f32) (w1' : FVec Ideal S16x32 .f32) (b1' : FVec Ideal S16 .f32)
  (w2' : FVec Ideal S16x32 .f32) (b2' : FVec Ideal S16 .f32) (att : FVec Ideal S1000000 .f32) (src dst : IVec S1000000 32)
  (u p n : IVec S8192 32)

/-- The first layer's raw output, as a function of the arguments. -/
def R₁ : Fin 100000 → Fin 32 → EReal := raw x (aggR0 x att src dst) w1 b1 w2 b2

/-- The second layer's raw output: the first layer's raw output is its table. -/
def R₂ : Fin 100000 → Fin 16 → EReal :=
  raw (ofCoords (R₁ x w1 b1 w2 b2 att src dst)) (aggR1 (ofCoords (R₁ x w1 b1 w2 b2 att src dst)) att src dst) w1' b1' w2' b2'

/-- The first result. -/
def res0 : FVec Ideal S_ .f32 :=
  tailR0 x (ofCoords (normed (R₁ x w1 b1 w2 b2 att src dst))) (ofCoords (normed (R₂ x w1 b1 w2 b2 w1' b1' w2' b2' att src dst))) u p n

/-- The second result. -/
def res1 : FVec Ideal S_ .f32 :=
  tailR1 x (ofCoords (normed (R₁ x w1 b1 w2 b2 att src dst))) (ofCoords (normed (R₂ x w1 b1 w2 b2 w1' b1' w2' b2' att src dst))) u p n

end

/-- The reference's first raw table, of a valuation's arguments, is `R₁`. -/
theorem r1Of_eq (V : Valuation τ sig (Elt Ideal)) :
    r1Of V = ofCoords (R₁ (V (Proc.devRef .tc main_arg0)) (V (Proc.devRef .tc main_arg1)) (V (Proc.devRef .tc main_arg2))
      (V (Proc.devRef .tc main_arg3)) (V (Proc.devRef .tc main_arg4)) (V (Proc.devRef .tc main_arg9))
      (V (Proc.devRef .tc main_arg10)) (V (Proc.devRef .tc main_arg11))) :=
  rawR0_eq _ _ _ _ _ _

/-- The reference's second raw table is `R₂`. -/
theorem r2Of_eq (V : Valuation τ sig (Elt Ideal)) :
    r2Of V = ofCoords (R₂ (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
      (V (Proc.devRef .tc main_arg7)) (V (Proc.devRef .tc main_arg8)) (V (Proc.devRef .tc main_arg9))
      (V (Proc.devRef .tc main_arg10)) (V (Proc.devRef .tc main_arg11))) := by
  unfold r2Of
  rw [r1Of_eq V]
  exact rawR1_eq _ _ _ _ _ _

/-- The reference's first result is `res0` of the arguments. -/
theorem ref_res0 (V : Valuation τ sig (Elt Ideal)) :
    after ops V (Proc.devRef .tc main_v101)
      = res0 (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9))
          (V (Proc.devRef .tc main_arg10)) (V (Proc.devRef .tc main_arg11)) (V (Proc.devRef .tc main_arg12))
          (V (Proc.devRef .tc main_arg13)) (V (Proc.devRef .tc main_arg14)) := by
  rw [res_v101, r2Of_eq, r1Of_eq, normR0_eq, normR1_eq]
  rfl

/-- The reference's second result is `res1` of the arguments. -/
theorem ref_res1 (V : Valuation τ sig (Elt Ideal)) :
    after ops V (Proc.devRef .tc main_v119)
      = res1 (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9))
          (V (Proc.devRef .tc main_arg10)) (V (Proc.devRef .tc main_arg11)) (V (Proc.devRef .tc main_arg12))
          (V (Proc.devRef .tc main_arg13)) (V (Proc.devRef .tc main_arg14)) := by
  rw [res_v119, r2Of_eq, r1Of_eq, normR0_eq, normR1_eq]
  rfl

end Cert.Whole

end
-- ==== Proof.KChain.lean ====
/-
  The kernel program's two results as the function `res0` / `res1` of its fifteen argument arrays, over the extended
  reals: the buffers' contents followed through the program.

  Before the first region the aggregate `A₀ x` stands in its buffer (the first host stretch is the reference's first
  aggregation). The first region leaves the arrays `R₁` and `normed R₁` (its blocks are the rows of these arrays). The
  second host stretch aggregates `R₁`; the second region, whose table is `R₁`, leaves `R₂` and `normed R₂`. The closing
  host stretches are the reference's closing functions of `(x, normed R₁, normed R₂)` and the batch's index lists. No
  stretch and no region writes an argument array, so every argument is read at its launch contents throughout.
-/
import proofs.«111316_j86440511799625_1_alg».proof.Proof.KIRun
import proofs.«111316_j86440511799625_1_alg».proof.Proof.KIVal
import proofs.«111316_j86440511799625_1_alg».proof.Proof.KHost
import proofs.«111316_j86440511799625_1_alg».proof.Proof.Whole

set_option maxRecDepth 16384

noncomputable section

namespace Cert.KernelIdeal.Chain

open Cert.KernelIdeal Cert.KernelIdeal.Gen Cert.KernelIdeal.Hand Cert.LayerSpec Cert.Whole
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Up to the first region -/

/-- A buffer the first host stretch does not write holds its launch contents when the first region is entered. -/
theorem W1_keep (r : Ref sig .tc) (h : r ∉ hostOps0_W) :
    W1 m ρ c (Proc.devRef .tc r) = m ((c.tc : Thread nD τ).loc r) :=
  (StableHlo.after_of_writes_sub hostOps0 _ hostOps0_writes h).trans rfl

/-- The first aggregate, of the launch contents. -/
theorem W1_v12 : W1 m ρ c (Proc.devRef .tc main_v12)
    = Cert.ReferenceIdeal.Hand.aggR0 (F := Ideal) (m ((c.tc : Thread nD τ).loc main_arg0)) (m ((c.tc : Thread nD τ).loc main_arg9)) (m ((c.tc : Thread nD τ).loc main_arg10)) (m ((c.tc : Thread nD τ).loc main_arg11)) :=
  Cert.KernelIdeal.Host.agg0 (W0 m ρ c)

/-! ## The first region's outputs -/

/-- The first layer's raw output. -/
theorem W2_v13_0 : W2 m ρ c (Proc.devRef .tc main_v13_0) = ofCoords (R₁ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11))) := by
  refine (W2_arr m ρ c 6).trans ?_
  rw [Cert.KernelIdeal.Val.final0_6]
  unfold R₁
  rw [show V1 m ρ c main_arg0 = _ from W1_keep m ρ c main_arg0 (by decide), show V1 m ρ c main_v12 = _ from W1_v12 m ρ c,
    show V1 m ρ c main_arg1 = _ from W1_keep m ρ c main_arg1 (by decide), show V1 m ρ c main_arg2 = _ from W1_keep m ρ c main_arg2 (by decide),
    show V1 m ρ c main_arg3 = _ from W1_keep m ρ c main_arg3 (by decide), show V1 m ρ c main_arg4 = _ from W1_keep m ρ c main_arg4 (by decide)]

/-- The first layer's normalised output. -/
theorem W2_v13_1 : W2 m ρ c (Proc.devRef .tc main_v13_1) = ofCoords (normed (R₁ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)))) := by
  refine (W2_arr m ρ c 7).trans ?_
  rw [Cert.KernelIdeal.Val.final0_7]
  unfold R₁
  rw [show V1 m ρ c main_arg0 = _ from W1_keep m ρ c main_arg0 (by decide), show V1 m ρ c main_v12 = _ from W1_v12 m ρ c,
    show V1 m ρ c main_arg1 = _ from W1_keep m ρ c main_arg1 (by decide), show V1 m ρ c main_arg2 = _ from W1_keep m ρ c main_arg2 (by decide),
    show V1 m ρ c main_arg3 = _ from W1_keep m ρ c main_arg3 (by decide), show V1 m ρ c main_arg4 = _ from W1_keep m ρ c main_arg4 (by decide)]

/-- A buffer that neither the first stretch nor the first region writes holds its launch contents after the region. -/
theorem W2_keep (r : Ref sig .tc) (hr : ∀ w, Pipeline.arrRef spec0 w ≠ r) (h : r ∉ hostOps0_W) :
    W2 m ρ c (Proc.devRef .tc r) = m ((c.tc : Thread nD τ).loc r) :=
  (W2_of_ne m ρ c r hr).trans (W1_keep m ρ c r h)

/-! ## Up to the second region -/

/-- A buffer the second host stretch does not write keeps what the first region left. -/
theorem W3_keep (r : Ref sig .tc) (h : r ∉ hostOps1_W) : W3 m ρ c (Proc.devRef .tc r) = W2 m ρ c (Proc.devRef .tc r) :=
  StableHlo.after_of_writes_sub hostOps1 _ hostOps1_writes h

/-- The second aggregate: of the first layer's raw output. -/
theorem W3_v26 : W3 m ρ c (Proc.devRef .tc main_v26)
    = Cert.ReferenceIdeal.Hand.aggR1 (F := Ideal) (ofCoords (R₁ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)))) (m ((c.tc : Thread nD τ).loc main_arg9)) (m ((c.tc : Thread nD τ).loc main_arg10)) (m ((c.tc : Thread nD τ).loc main_arg11)) := by
  refine (Cert.KernelIdeal.Host.agg1 (W2 m ρ c)).trans ?_
  rw [W2_v13_0 m ρ c, W2_keep m ρ c main_arg9 (by decide) (by decide), W2_keep m ρ c main_arg10 (by decide) (by decide),
    W2_keep m ρ c main_arg11 (by decide) (by decide)]

/-- The second layer's weights and biases are read at their launch contents. -/
theorem W3_arg (r : Ref sig .tc) (h1 : r ∉ hostOps1_W) (hr : ∀ w, Pipeline.arrRef spec0 w ≠ r) (h0 : r ∉ hostOps0_W) :
    W3 m ρ c (Proc.devRef .tc r) = m ((c.tc : Thread nD τ).loc r) :=
  (W3_keep m ρ c r h1).trans (W2_keep m ρ c r hr h0)

/-! ## The second region's outputs -/

/-- The second layer's normalised output. -/
theorem W4_v27_1 : W4 m ρ c (Proc.devRef .tc main_v27_1) = ofCoords (normed (R₂ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))) := by
  refine (W4_arr m ρ c 7).trans ?_
  rw [Cert.KernelIdeal.Val.final1_7]
  unfold R₂
  rw [show V3 m ρ c main_v13_0 = _ from (W3_keep m ρ c main_v13_0 (by decide)).trans (W2_v13_0 m ρ c),
    show V3 m ρ c main_v26 = _ from W3_v26 m ρ c,
    show V3 m ρ c main_arg5 = _ from W3_arg m ρ c main_arg5 (by decide) (by decide) (by decide),
    show V3 m ρ c main_arg6 = _ from W3_arg m ρ c main_arg6 (by decide) (by decide) (by decide),
    show V3 m ρ c main_arg7 = _ from W3_arg m ρ c main_arg7 (by decide) (by decide) (by decide),
    show V3 m ρ c main_arg8 = _ from W3_arg m ρ c main_arg8 (by decide) (by decide) (by decide)]

/-- The first layer's normalised output is still in its buffer after the second region. -/
theorem W4_v13_1 : W4 m ρ c (Proc.devRef .tc main_v13_1) = ofCoords (normed (R₁ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)))) :=
  (W4_of_ne m ρ c main_v13_1 (by decide)).trans ((W3_keep m ρ c main_v13_1 (by decide)).trans (W2_v13_1 m ρ c))

/-- The embedding table, an input array of the first region, is read at its launch contents after both regions. -/
theorem W4_arg0 : W4 m ρ c (Proc.devRef .tc main_arg0) = m ((c.tc : Thread nD τ).loc main_arg0) :=
  (W4_of_ne m ρ c main_arg0 (by decide)).trans ((W3_keep m ρ c main_arg0 (by decide)).trans
    (((W2_arr m ρ c 0).trans (((dat0 (V1 m ρ) c).arrAt_in 0 rfl _).trans (A_eq0 (V1 m ρ) c 0))).trans
      (W1_keep m ρ c main_arg0 (by decide))))

/-- An index list of the batch is read at its launch contents after both regions. -/
theorem W4_idx (r : Ref sig .tc) (h4 : ∀ w, Pipeline.arrRef spec1 w ≠ r) (h1 : r ∉ hostOps1_W)
    (hr : ∀ w, Pipeline.arrRef spec0 w ≠ r) (h0 : r ∉ hostOps0_W) :
    W4 m ρ c (Proc.devRef .tc r) = m ((c.tc : Thread nD τ).loc r) :=
  (W4_of_ne m ρ c r h4).trans (W3_arg m ρ c r h1 hr h0)

/-! ## The results -/

/-- The kernel program's first result. -/
theorem W7_v57 : W7 m ρ c (Proc.devRef .tc main_v57) = res0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (Cert.KernelIdeal.Host.tail0 (W4 m ρ c)).trans ?_
  rw [W4_arg0 m ρ c, W4_v13_1 m ρ c, W4_v27_1 m ρ c, W4_idx m ρ c main_arg12 (by decide) (by decide) (by decide) (by decide),
    W4_idx m ρ c main_arg13 (by decide) (by decide) (by decide) (by decide),
    W4_idx m ρ c main_arg14 (by decide) (by decide) (by decide) (by decide)]
  rfl

/-- The kernel program's second result. -/
theorem W7_v75 : W7 m ρ c (Proc.devRef .tc main_v75) = res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (Cert.KernelIdeal.Host.tail1 (W4 m ρ c)).trans ?_
  rw [W4_arg0 m ρ c, W4_v13_1 m ρ c, W4_v27_1 m ρ c, W4_idx m ρ c main_arg12 (by decide) (by decide) (by decide) (by decide),
    W4_idx m ρ c main_arg13 (by decide) (by decide) (by decide) (by decide),
    W4_idx m ρ c main_arg14 (by decide) (by decide) (by decide) (by decide)]
  rfl

end Cert.KernelIdeal.Chain

end
-- ==== Proof.lean ====
/-
  The certificate of a two-layer graph network's forward pass and losses: a Pallas kernel for the dense part of each
  layer, inside host code, against a plain jnp reference.

  What the programs compute. From a table `x` of node embeddings, edge weights and endpoints, each layer aggregates the
  table along the edges (`A x`: gather the source rows, scale, sum into the destination rows), applies two rectified
  affine maps to `x + A x` and to `x · A x` and adds them (`raw`), and normalises each row by its Euclidean norm floored
  at a small constant (`normed`); the second layer's table is the first layer's raw output. The two results are a
  softplus loss and a sum of squared norms over a batch of rows of `(x, normed R₁, normed R₂)` side by side.

  Why the two programs agree on the extended reals. They apply the same host operations around the dense part, in the
  same order, on the same literals. In the dense part the kernel works on blocks of 5000 rows and the reference on whole
  tables; the kernel rounds to a narrower format on the way into its block products, which is the identity on the
  extended reals; its block products into a zero accumulator, and the reference's table product, are both the sum over
  the contracted positions; and a row's output depends on that row alone, so the blocks are the rows of one array. No
  law beyond reading the sums is used, so the inputs' finiteness is never needed.

  The three frames are the programs' runs with the results forgotten; the idealization rewrote nothing, so that claim is
  trivial.
-/
import proofs.«111316_j86440511799625_1_alg».proof.Defs
import proofs.«111316_j86440511799625_1_alg».proof.Proof.Gen.Kernel
import proofs.«111316_j86440511799625_1_alg».proof.Proof.Gen.KernelIdeal
import proofs.«111316_j86440511799625_1_alg».proof.Proof.Gen.ReferenceIdeal
import proofs.«111316_j86440511799625_1_alg».proof.Proof.Gen.Pre_finite_inputs
import proofs.«111316_j86440511799625_1_alg».proof.Proof.KRun
import proofs.«111316_j86440511799625_1_alg».proof.Proof.KIRun
import proofs.«111316_j86440511799625_1_alg».proof.Proof.RefRun
import proofs.«111316_j86440511799625_1_alg».proof.Proof.KChain
import proofs.«111316_j86440511799625_1_alg».proof.Proof.Whole

set_option maxRecDepth 16384

noncomputable section

namespace Cert.Proof

open Idealize.ShloMosaic Idealize.ShloMosaic.TcCoe Idealize.SL.Sem

/-- The kernel program, word by word: it runs to the end and leaves its arguments as launched. -/
theorem frame_kernel [Cert.Kernel.Facts] [Cert.Pre_finite_inputs.Facts] : Cert.frame_Kernel :=
  fun m ρ _ => Cert.Kernel.Hand.frame m ρ

/-- The same program over the extended reals. -/
theorem frame_kernelIdeal [Cert.KernelIdeal.Facts] [Cert.Pre_finite_inputs.Facts] : Cert.frame_KernelIdeal :=
  fun m ρ _ => Cert.KernelIdeal.Hand.frame m ρ

/-- The reference over the extended reals. -/
theorem frame_referenceIdeal [Cert.ReferenceIdeal.Facts] [Cert.Pre_finite_inputs.Facts] : Cert.frame_ReferenceIdeal :=
  fun m ρ _ => Cert.ReferenceIdeal.Hand.frame m ρ

/-- Both programs end with the two results at `res0` and `res1` of the argument arrays, which the hypothesis makes the
    same arrays on both sides. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Whole.res0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Whole.res1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun _ h c =>
      ⟨(h c _ (Cert.KernelIdeal.Hand.mem_uc Cert.KernelIdeal.main_v57 (by decide))).trans (Cert.KernelIdeal.Chain.W7_v57 m ρ c),
       (h c _ (Cert.KernelIdeal.Hand.mem_uc Cert.KernelIdeal.main_v75 (by decide))).trans (Cert.KernelIdeal.Chain.W7_v75 m ρ c),
       (h c _ (Cert.KernelIdeal.Hand.mem_uc Cert.KernelIdeal.main_arg0 (by decide))).trans (Cert.KernelIdeal.Hand.W7_main_arg0 m ρ c),
       (h c _ (Cert.KernelIdeal.Hand.mem_uc Cert.KernelIdeal.main_arg1 (by decide))).trans (Cert.KernelIdeal.Hand.W7_main_arg1 m ρ c),
       (h c _ (Cert.KernelIdeal.Hand.mem_uc Cert.KernelIdeal.main_arg2 (by decide))).trans (Cert.KernelIdeal.Hand.W7_main_arg2 m ρ c),
       (h c _ (Cert.KernelIdeal.Hand.mem_uc Cert.KernelIdeal.main_arg3 (by decide))).trans (Cert.KernelIdeal.Hand.W7_main_arg3 m ρ c),
       (h c _ (Cert.KernelIdeal.Hand.mem_uc Cert.KernelIdeal.main_arg4 (by decide))).trans (Cert.KernelIdeal.Hand.W7_main_arg4 m ρ c),
       (h c _ (Cert.KernelIdeal.Hand.mem_uc Cert.KernelIdeal.main_arg5 (by decide))).trans (Cert.KernelIdeal.Hand.W7_main_arg5 m ρ c),
       (h c _ (Cert.KernelIdeal.Hand.mem_uc Cert.KernelIdeal.main_arg6 (by decide))).trans (Cert.KernelIdeal.Hand.W7_main_arg6 m ρ c),
       (h c _ (Cert.KernelIdeal.Hand.mem_uc Cert.KernelIdeal.main_arg7 (by decide))).trans (Cert.KernelIdeal.Hand.W7_main_arg7 m ρ c),
       (h c _ (Cert.KernelIdeal.Hand.mem_uc Cert.KernelIdeal.main_arg8 (by decide))).trans (Cert.KernelIdeal.Hand.W7_main_arg8 m ρ c),
       (h c _ (Cert.KernelIdeal.Hand.mem_uc Cert.KernelIdeal.main_arg9 (by decide))).trans (Cert.KernelIdeal.Hand.W7_main_arg9 m ρ c),
       (h c _ (Cert.KernelIdeal.Hand.mem_uc Cert.KernelIdeal.main_arg10 (by decide))).trans (Cert.KernelIdeal.Hand.W7_main_arg10 m ρ c),
       (h c _ (Cert.KernelIdeal.Hand.mem_uc Cert.KernelIdeal.main_arg11 (by decide))).trans (Cert.KernelIdeal.Hand.W7_main_arg11 m ρ c),
       (h c _ (Cert.KernelIdeal.Hand.mem_uc Cert.KernelIdeal.main_arg12 (by decide))).trans (Cert.KernelIdeal.Hand.W7_main_arg12 m ρ c),
       (h c _ (Cert.KernelIdeal.Hand.mem_uc Cert.KernelIdeal.main_arg13 (by decide))).trans (Cert.KernelIdeal.Hand.W7_main_arg13 m ρ c),
       (h c _ (Cert.KernelIdeal.Hand.mem_uc Cert.KernelIdeal.main_arg14 (by decide))).trans (Cert.KernelIdeal.Hand.W7_main_arg14 m ρ c)⟩)
      (Cert.KernelIdeal.Hand.run_all m ρ)
  · refine (θ_run Cert.ReferenceIdeal.defs _ _).mono (fun _ h c => ?_) (Cert.ReferenceIdeal.Hand.run_raw m' ρ')
    obtain ⟨h0, h1, h2, h3, h4, h5, h6, h7, h8, h9, h10, h11, h12, h13, h14⟩ := hagree c
    refine ⟨(h c Cert.ReferenceIdeal.main_v101).trans ((Cert.Whole.ref_res0 _).trans ?_),
      (h c Cert.ReferenceIdeal.main_v119).trans ((Cert.Whole.ref_res1 _).trans ?_),
      (h c Cert.ReferenceIdeal.main_arg0).trans (Cert.ReferenceIdeal.Hand.ops_keep _ Cert.ReferenceIdeal.main_arg0 (by decide) (by decide) (by decide) (by decide) (by decide)),
      (h c Cert.ReferenceIdeal.main_arg1).trans (Cert.ReferenceIdeal.Hand.ops_keep _ Cert.ReferenceIdeal.main_arg1 (by decide) (by decide) (by decide) (by decide) (by decide)),
      (h c Cert.ReferenceIdeal.main_arg2).trans (Cert.ReferenceIdeal.Hand.ops_keep _ Cert.ReferenceIdeal.main_arg2 (by decide) (by decide) (by decide) (by decide) (by decide)),
      (h c Cert.ReferenceIdeal.main_arg3).trans (Cert.ReferenceIdeal.Hand.ops_keep _ Cert.ReferenceIdeal.main_arg3 (by decide) (by decide) (by decide) (by decide) (by decide)),
      (h c Cert.ReferenceIdeal.main_arg4).trans (Cert.ReferenceIdeal.Hand.ops_keep _ Cert.ReferenceIdeal.main_arg4 (by decide) (by decide) (by decide) (by decide) (by decide)),
      (h c Cert.ReferenceIdeal.main_arg5).trans (Cert.ReferenceIdeal.Hand.ops_keep _ Cert.ReferenceIdeal.main_arg5 (by decide) (by decide) (by decide) (by decide) (by decide)),
      (h c Cert.ReferenceIdeal.main_arg6).trans (Cert.ReferenceIdeal.Hand.ops_keep _ Cert.ReferenceIdeal.main_arg6 (by decide) (by decide) (by decide) (by decide) (by decide)),
      (h c Cert.ReferenceIdeal.main_arg7).trans (Cert.ReferenceIdeal.Hand.ops_keep _ Cert.ReferenceIdeal.main_arg7 (by decide) (by decide) (by decide) (by decide) (by decide)),
      (h c Cert.ReferenceIdeal.main_arg8).trans (Cert.ReferenceIdeal.Hand.ops_keep _ Cert.ReferenceIdeal.main_arg8 (by decide) (by decide) (by decide) (by decide) (by decide)),
      (h c Cert.ReferenceIdeal.main_arg9).trans (Cert.ReferenceIdeal.Hand.ops_keep _ Cert.ReferenceIdeal.main_arg9 (by decide) (by decide) (by decide) (by decide) (by decide)),
      (h c Cert.ReferenceIdeal.main_arg10).trans (Cert.ReferenceIdeal.Hand.ops_keep _ Cert.ReferenceIdeal.main_arg10 (by decide) (by decide) (by decide) (by decide) (by decide)),
      (h c Cert.ReferenceIdeal.main_arg11).trans (Cert.ReferenceIdeal.Hand.ops_keep _ Cert.ReferenceIdeal.main_arg11 (by decide) (by decide) (by decide) (by decide) (by decide)),
      (h c Cert.ReferenceIdeal.main_arg12).trans (Cert.ReferenceIdeal.Hand.ops_keep _ Cert.ReferenceIdeal.main_arg12 (by decide) (by decide) (by decide) (by decide) (by decide)),
      (h c Cert.ReferenceIdeal.main_arg13).trans (Cert.ReferenceIdeal.Hand.ops_keep _ Cert.ReferenceIdeal.main_arg13 (by decide) (by decide) (by decide) (by decide) (by decide)),
      (h c Cert.ReferenceIdeal.main_arg14).trans (Cert.ReferenceIdeal.Hand.ops_keep _ Cert.ReferenceIdeal.main_arg14 (by decide) (by decide) (by decide) (by decide) (by decide))⟩
    · show Cert.Whole.res0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
      rw [h0, h1, h2, h3, h4, h5, h6, h7, h8, h9, h10, h11, h12, h13, h14]
    · show Cert.Whole.res1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = _
      rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
